-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S16 : Shape := ⟨1, ![16]⟩
abbrev S2048x2048 : Shape := ⟨2, ![2048, 2048]⟩
abbrev S2048x1 : Shape := ⟨2, ![2048, 1]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S16 : S_.BroadcastsInDim S16 (![] : Fin 0 → Fin S16.rank)
  reducesTo_S16_S_d0 : S16.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  main_v23

def fn {F : FTy → Type} [FloatOps F] (main_arg0 : FVec F S2048x32 .f32) (main_arg1 : FVec F S16 .f32) (main_arg2 : FVec F S16 .f32) (main_arg3 : FVec F S2048x2048 .f32) (main_arg4 : FVec F S2048x1 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S2048x32 : Shape := ⟨2, ![2048, 32]⟩
abbrev S16 : Shape := ⟨1, ![16]⟩
abbrev S2048x2048 : Shape := ⟨2, ![2048, 2048]⟩
abbrev S2048x1 : Shape := ⟨2, ![2048, 1]⟩
abbrev S2048x16 : Shape := ⟨2, ![2048, 16]⟩
abbrev S_ : Shape := ⟨0, ![]⟩
abbrev S1x16 : Shape := ⟨2, ![1, 16]⟩
abbrev S1x1 : Shape := ⟨2, ![1, 1]⟩
abbrev S512x32 : Shape := ⟨2, ![512, 32]⟩
abbrev S512x512 : Shape := ⟨2, ![512, 512]⟩
abbrev S512x16 : Shape := ⟨2, ![512, 16]⟩
abbrev S16x512 : Shape := ⟨2, ![16, 512]⟩
abbrev S512x1 : Shape := ⟨2, ![512, 1]⟩
abbrev S1x512 : Shape := ⟨2, ![1, 512]⟩
abbrev S512 : Shape := ⟨1, ![512]⟩
abbrev S1 : Shape := ⟨1, ![1]⟩

abbrev nBuf : Space → Nat
  | .hbm => 99
  | .vmem => 9
  | .smem => 0
  | _ => 0

abbrev bufTy : (tb : Table) → Fin (tcTables nBuf tb) → BufTy
  | .hbm, ⟨0, _⟩ => ⟨S2048x32, .f32⟩
  | .hbm, ⟨1, _⟩ => ⟨S16, .f32⟩
  | .hbm, ⟨2, _⟩ => ⟨S16, .f32⟩
  | .hbm, ⟨3, _⟩ => ⟨S2048x2048, .f32⟩
  | .hbm, ⟨4, _⟩ => ⟨S2048x1, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S1x16, .f32⟩
  | .hbm, ⟨12, _⟩ => ⟨S2048x16, .f32⟩
  | .hbm, ⟨13, _⟩ => ⟨S2048x16, .f32⟩
  | .hbm, ⟨14, _⟩ => ⟨S_, .f32⟩
  | .hbm, ⟨15, _⟩ => ⟨S2048x16, .f32⟩
  | .hbm, ⟨16, _⟩ => ⟨S2048x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S_, .f32⟩
  | .hbm, ⟨26, _⟩ => ⟨S2048x16, .f32⟩
  | .hbm, ⟨27, _⟩ => ⟨S2048x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S2048x16, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S1x16, .f32⟩
  | .hbm, ⟨49, _⟩ => ⟨S1x1, .f32⟩
  | .hbm, ⟨50, _⟩ => ⟨S1x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048x16, .f32⟩
  | .hbm, ⟨60, _⟩ => ⟨S2048x16, .f32⟩
  | .hbm, ⟨61, _⟩ => ⟨S_, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S2048x16, .f32⟩
  | .hbm, ⟨72, _⟩ => ⟨S2048x16, .f32⟩
  | .hbm, ⟨73, _⟩ => ⟨S_, .f32⟩
  | .hbm, ⟨74, _⟩ => ⟨S2048x16, .f32⟩
  | .hbm, ⟨75, _⟩ => ⟨S2048x16, .f32⟩
  | .hbm, ⟨76, _⟩ => ⟨S_, .f32⟩
  | .hbm, ⟨77, _⟩ => ⟨S_, .f32⟩
  | .hbm, ⟨78, _⟩ => ⟨S2048x16, .f32⟩
  | .hbm, ⟨79, _⟩ => ⟨S2048x16, .f32⟩
  | .hbm, ⟨80, _⟩ => ⟨S_, .f32⟩
  | .hbm, ⟨81, _⟩ => ⟨S2048x16, .f32⟩
  | .hbm, ⟨82, _⟩ => ⟨S2048x16, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S512x32, .f32⟩
  | .local _ .vmem, ⟨3, _⟩ => ⟨S512x32, .f32⟩
  | .local _ .vmem, ⟨4, _⟩ => ⟨S512x512, .f32⟩
  | .local _ .vmem, ⟨5, _⟩ => ⟨S512x512, .f32⟩
  | .local _ .vmem, ⟨6, _⟩ => ⟨S1x16, .f32⟩
  | .local _ .vmem, ⟨7, _⟩ => ⟨S1x1, .f32⟩
  | .local _ .vmem, ⟨8, _⟩ => ⟨S1x1, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_cst_12 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_cst_16 : Ref sig .tc := ⟨.hbm, 85, rfl⟩
abbrev main_v53 : Ref sig .tc := ⟨.hbm, 86, rfl⟩
abbrev main_cst_17 : Ref sig .tc := ⟨.hbm, 87, rfl⟩
abbrev main_v54 : Ref sig .tc := ⟨.hbm, 88, rfl⟩
abbrev main_v55 : Ref sig .tc := ⟨.hbm, 89, rfl⟩
abbrev main_cst_18 : Ref sig .tc := ⟨.hbm, 90, rfl⟩
abbrev main_v56 : Ref sig .tc := ⟨.hbm, 91, rfl⟩
abbrev main_v57 : Ref sig .tc := ⟨.hbm, 92, rfl⟩
abbrev main_cst_19 : Ref sig .tc := ⟨.hbm, 93, rfl⟩
abbrev main_v58 : Ref sig .tc := ⟨.hbm, 94, rfl⟩
abbrev main_v59 : Ref sig .tc := ⟨.hbm, 95, rfl⟩
abbrev main_cst_20 : Ref sig .tc := ⟨.hbm, 96, rfl⟩
abbrev main_v60 : Ref sig .tc := ⟨.hbm, 97, rfl⟩
abbrev main_v61 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  slices_S2048x32_S2048x16_0_0 : S2048x32.Slices ![0, 0] S2048x16
  slices_S2048x32_S2048x16_0_16 : S2048x32.Slices ![0, 16] S2048x16
  bcast_S_S16 : S_.BroadcastsInDim S16 (![] : Fin 0 → Fin S16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  reducesTo_S2048x16_S_d0_1 : S2048x16.ReducesTo [0, 1] S_
  h_S_ : 0 < S_.numel
  reducesTo_S2048x16_S16_d0 : S2048x16.ReducesTo [0] S16
  shapeCasts_S16_S1x16 : S16.ShapeCasts S1x16
  inb_S1x1_S1x1_0_0 : ∀ a, (![0, 0] : Fin 2 → Nat) a + S1x1.size a ≤ S1x1.size a
  h_S1x1 : 0 < S1x1.numel
  inb_S512x32_S512x32_0_0 : ∀ a, (![0, 0] : Fin 2 → Nat) a + S512x32.size a ≤ S512x32.size a
  h_S512x32 : 0 < S512x32.numel
  slices_S512x32_o0_0_S512x16 : S512x32.Slices ![0, 0] S512x16
  slices_S512x32_o0_16_S512x16 : S512x32.Slices ![0, 16] S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  iota_S512x512_d0_w32 : S512x512.Iotas .tc 32 [0]
  iota_S512x512_d1_w32 : S512x512.Iotas .tc 32 [1]
  natLt_1_32 : 1 < 32
  transposes_S512x16_p1_0_S16x512 : S512x16.Transposes [1, 0] S16x512
  slices_S512x16_o0_0_S512x1 : S512x16.Slices ![0, 0] S512x1
  slices_S16x512_o0_0_S1x512 : S16x512.Slices ![0, 0] S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  slices_S1x16_o0_0_S1x1 : S1x16.Slices ![0, 0] S1x1
  broadcasts_S1x1_S512x512 : S1x1.Broadcasts S512x512
  slices_S512x16_o0_1_S512x1 : S512x16.Slices ![0, 1] S512x1
  slices_S16x512_o1_0_S1x512 : S16x512.Slices ![1, 0] S1x512
  slices_S1x16_o0_1_S1x1 : S1x16.Slices ![0, 1] S1x1
  slices_S512x16_o0_2_S512x1 : S512x16.Slices ![0, 2] S512x1
  slices_S16x512_o2_0_S1x512 : S16x512.Slices ![2, 0] S1x512
  slices_S1x16_o0_2_S1x1 : S1x16.Slices ![0, 2] S1x1
  slices_S512x16_o0_3_S512x1 : S512x16.Slices ![0, 3] S512x1
  slices_S16x512_o3_0_S1x512 : S16x512.Slices ![3, 0] S1x512
  slices_S1x16_o0_3_S1x1 : S1x16.Slices ![0, 3] S1x1
  slices_S512x16_o0_4_S512x1 : S512x16.Slices ![0, 4] S512x1
  slices_S16x512_o4_0_S1x512 : S16x512.Slices ![4, 0] S1x512
  slices_S1x16_o0_4_S1x1 : S1x16.Slices ![0, 4] S1x1
  slices_S512x16_o0_5_S512x1 : S512x16.Slices ![0, 5] S512x1
  slices_S16x512_o5_0_S1x512 : S16x512.Slices ![5, 0] S1x512
  slices_S1x16_o0_5_S1x1 : S1x16.Slices ![0, 5] S1x1
  slices_S512x16_o0_6_S512x1 : S512x16.Slices ![0, 6] S512x1
  slices_S16x512_o6_0_S1x512 : S16x512.Slices ![6, 0] S1x512
  slices_S1x16_o0_6_S1x1 : S1x16.Slices ![0, 6] S1x1
  slices_S512x16_o0_7_S512x1 : S512x16.Slices ![0, 7] S512x1
  slices_S16x512_o7_0_S1x512 : S16x512.Slices ![7, 0] S1x512
  slices_S1x16_o0_7_S1x1 : S1x16.Slices ![0, 7] S1x1
  slices_S512x16_o0_8_S512x1 : S512x16.Slices ![0, 8] S512x1
  slices_S16x512_o8_0_S1x512 : S16x512.Slices ![8, 0] S1x512
  slices_S1x16_o0_8_S1x1 : S1x16.Slices ![0, 8] S1x1
  slices_S512x16_o0_9_S512x1 : S512x16.Slices ![0, 9] S512x1
  slices_S16x512_o9_0_S1x512 : S16x512.Slices ![9, 0] S1x512
  slices_S1x16_o0_9_S1x1 : S1x16.Slices ![0, 9] S1x1
  slices_S512x16_o0_10_S512x1 : S512x16.Slices ![0, 10] S512x1
  slices_S16x512_o10_0_S1x512 : S16x512.Slices ![10, 0] S1x512
  slices_S1x16_o0_10_S1x1 : S1x16.Slices ![0, 10] S1x1
  slices_S512x16_o0_11_S512x1 : S512x16.Slices ![0, 11] S512x1
  slices_S16x512_o11_0_S1x512 : S16x512.Slices ![11, 0] S1x512
  slices_S1x16_o0_11_S1x1 : S1x16.Slices ![0, 11] S1x1
  slices_S512x16_o0_12_S512x1 : S512x16.Slices ![0, 12] S512x1
  slices_S16x512_o12_0_S1x512 : S16x512.Slices ![12, 0] S1x512
  slices_S1x16_o0_12_S1x1 : S1x16.Slices ![0, 12] S1x1
  slices_S512x16_o0_13_S512x1 : S512x16.Slices ![0, 13] S512x1
  slices_S16x512_o13_0_S1x512 : S16x512.Slices ![13, 0] S1x512
  slices_S1x16_o0_13_S1x1 : S1x16.Slices ![0, 13] S1x1
  slices_S512x16_o0_14_S512x1 : S512x16.Slices ![0, 14] S512x1
  slices_S16x512_o14_0_S1x512 : S16x512.Slices ![14, 0] S1x512
  slices_S1x16_o0_14_S1x1 : S1x16.Slices ![0, 14] S1x1
  slices_S512x16_o0_15_S512x1 : S512x16.Slices ![0, 15] S512x1
  slices_S16x512_o15_0_S1x512 : S16x512.Slices ![15, 0] S1x512
  slices_S1x16_o0_15_S1x1 : S1x16.Slices ![0, 15] S1x1
  inb_S512x512_S512x512_0_0 : ∀ a, (![0, 0] : Fin 2 → Nat) a + S512x512.size a ≤ S512x512.size a
  h_S512x512 : 0 < S512x512.numel
  shapeCasts_S1x1_S1x1 : S1x1.ShapeCasts S1x1
  shapeCasts_S1x1_S_ : S1x1.ShapeCasts S_
  reducesTo_S16_S_d0 : S16.ReducesTo [0] S_
  bcast_S2048x1_S2048x16_0_1 : S2048x1.BroadcastsInDim S2048x16 (![0, 1] : Fin 2 → Fin S2048x16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S2048x32.size a
  hwx0_0 : ∀ i : grid0.Coords, EltTy.bits .f32 = 32 ∨ (Rect.block (s := S2048x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S2048x32.size a
  hwx0_1 : ∀ i : grid0.Coords, EltTy.bits .f32 = 32 ∨ (Rect.block (s := S2048x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x32 : Shape := ⟨2, ![2048, 32]⟩
abbrev S16 : Shape := ⟨1, ![16]⟩
abbrev S2048x2048 : Shape := ⟨2, ![2048, 2048]⟩
abbrev S2048x1 : Shape := ⟨2, ![2048, 1]⟩
abbrev S2048x16 : Shape := ⟨2, ![2048, 16]⟩
abbrev S_ : Shape := ⟨0, ![]⟩
abbrev S1x16 : Shape := ⟨2, ![1, 16]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S1x2048x2048 : Shape := ⟨3, ![1, 2048, 2048]⟩
abbrev S16x1x1 : Shape := ⟨3, ![16, 1, 1]⟩

abbrev nBuf : Space → Nat
  | .hbm => 137
  | .vmem => 0
  | .smem => 0
  | _ => 0

abbrev hbmTy0_0 (i : Nat) : BufTy := match i % 128 with
  | 0 => ⟨S2048x32, .f32⟩
  | 1 => ⟨S16, .f32⟩
  | 2 => ⟨S16, .f32⟩
  | 3 => ⟨S2048x2048, .f32⟩
  | 4 => ⟨S2048x1, .f32⟩
  | 5 => ⟨S2048x16, .f32⟩
  | 6 => ⟨S2048x16, .f32⟩
  | 7 => ⟨S2048x16, .f32⟩
  | 8 => ⟨S_, .f32⟩
  | 9 => ⟨S16, .f32⟩
  | 10 => ⟨S16, .f32⟩
  | 11 => ⟨S1x16, .f32⟩
  | 12 => ⟨S2048x16, .f32⟩
  | 13 => ⟨S2048x16, .f32⟩
  | 14 => ⟨S_, .f32⟩
  | 15 => ⟨S2048x16, .f32⟩
  | 16 => ⟨S2048x16, .f32⟩
  | 17 => ⟨S_, .f32⟩
  | 18 => ⟨S_, .f32⟩
  | 19 => ⟨S_, .f32⟩
  | 20 => ⟨S16, .f32⟩
  | 21 => ⟨S16, .f32⟩
  | 22 => ⟨S1x16, .f32⟩
  | 23 => ⟨S2048x16, .f32⟩
  | 24 => ⟨S2048x16, .f32⟩
  | 25 => ⟨S_, .f32⟩
  | 26 => ⟨S2048x16, .f32⟩
  | 27 => ⟨S2048x16, .f32⟩
  | 28 => ⟨S_, .f32⟩
  | 29 => ⟨S_, .f32⟩
  | 30 => ⟨S_, .f32⟩
  | 31 => ⟨S16x2048, .f32⟩
  | 32 => ⟨S16x2048, .f32⟩
  | 33 => ⟨S16x2048x1, .f32⟩
  | 34 => ⟨S16x1x2048, .f32⟩
  | 35 => ⟨S16x2048x2048, .f32⟩
  | 36 => ⟨S16x2048x2048, .f32⟩
  | 37 => ⟨S16x2048x2048, .f32⟩
  | 38 => ⟨S16x2048x1, .f32⟩
  | 39 => ⟨S16x1x2048, .f32⟩
  | 40 => ⟨S16x2048x2048, .f32⟩
  | 41 => ⟨S16x2048x2048, .f32⟩
  | 42 => ⟨S16x2048x2048, .f32⟩
  | 43 => ⟨S16x2048x2048, .f32⟩
  | 44 => ⟨S2048x2048, .i32⟩
  | 45 => ⟨S2048x2048, .i32⟩
  | 46 => ⟨S_, .i32⟩
  | 47 => ⟨S2048x2048, .i32⟩
  | 48 => ⟨S2048x2048, .i32⟩
  | 49 => ⟨S2048x2048, .i1⟩
  | 50 => ⟨S2048x2048, .f32⟩
  | 51 => ⟨S_, .f32⟩
  | 52 => ⟨S2048x2048, .f32⟩
  | 53 => ⟨S2048x2048, .f32⟩
  | 54 => ⟨S1x2048x2048, .f32⟩
  | 55 => ⟨S16x2048x2048, .f32⟩
  | 56 => ⟨S16x2048x2048, .f32⟩
  | 57 => ⟨S_, .f32⟩
  | 58 => ⟨S16x2048x2048, .f32⟩
  | 59 => ⟨S16x2048x2048, .f32⟩
  | 60 => ⟨S16x2048, .f32⟩
  | 61 => ⟨S_, .f32⟩
  | 62 => ⟨S16x2048, .f32⟩
  | 63 => ⟨S16x2048, .f32⟩
  | 64 => ⟨S16x2048x1, .f32⟩
  | 65 => ⟨S16x2048x2048, .f32⟩
  | 66 => ⟨S16x2048x2048, .f32⟩
  | 67 => ⟨S_, .f32⟩
  | 68 => ⟨S_, .f32⟩
  | 69 => ⟨S16x2048x1, .f32⟩
  | 70 => ⟨S16x1x2048, .f32⟩
  | 71 => ⟨S16x2048x2048, .f32⟩
  | 72 => ⟨S16x2048x2048, .f32⟩
  | 73 => ⟨S16x2048x2048, .f32⟩
  | 74 => ⟨S16x2048x2048, .f32⟩
  | 75 => ⟨S16x2048x2048, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S16x1x1, .f32⟩
  | 83 => ⟨S16x2048x2048, .f32⟩
  | 84 => ⟨S16x2048x2048, .f32⟩
  | 85 => ⟨S_, .f32⟩
  | 86 => ⟨S2048x2048, .f32⟩
  | 87 => ⟨S2048x2048, .f32⟩
  | 88 => ⟨S2048x2048, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S2048x16, .f32⟩
  | 98 => ⟨S2048x16, .f32⟩
  | 99 => ⟨S_, .f32⟩
  | 100 => ⟨S2048x16, .f32⟩
  | 101 => ⟨S2048x16, .f32⟩
  | 102 => ⟨S2048x16, .f32⟩
  | 103 => ⟨S2048x16, .f32⟩
  | 104 => ⟨S2048x16, .f32⟩
  | 105 => ⟨S2048x16, .f32⟩
  | 106 => ⟨S_, .f32⟩
  | 107 => ⟨S_, .f32⟩
  | 108 => ⟨S_, .f32⟩
  | 109 => ⟨S2048x16, .f32⟩
  | 110 => ⟨S2048x16, .f32⟩
  | 111 => ⟨S_, .f32⟩
  | 112 => ⟨S2048x16, .f32⟩
  | 113 => ⟨S2048x16, .f32⟩
  | 114 => ⟨S_, .f32⟩
  | 115 => ⟨S_, .f32⟩
  | 116 => ⟨S2048x16, .f32⟩
  | 117 => ⟨S2048x16, .f32⟩
  | 118 => ⟨S_, .f32⟩
  | 119 => ⟨S2048x16, .f32⟩
  | 120 => ⟨S2048x16, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2048x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S2048x32, .f32⟩

abbrev hbmTy (i : Nat) : BufTy := match i / 128 with
  | 0 => hbmTy0_0 i
  | 1 => hbmTy0_1 i
  | _ => ⟨S2048x32, .f32⟩

abbrev bufTy : (tb : Table) → Fin (tcTables nBuf tb) → BufTy
  | .hbm, ⟨i, _⟩ => hbmTy i
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call2_cst : Ref sig .tc := ⟨.hbm, 57, rfl⟩
abbrev main_call2_v0 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_cst_13 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_cst_19 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_v93 : Ref sig .tc := ⟨.hbm, 136, rfl⟩

abbrev nD : Nat := 1
abbrev τ : Topo := Topo.v7x

variable {F : FTy → Type} [FloatOps F]

class Facts₀ : Prop where
  slices_S2048x32_S2048x16_0_0 : S2048x32.Slices ![0, 0] S2048x16
  slices_S2048x32_S2048x16_0_16 : S2048x32.Slices ![0, 16] S2048x16
  bcast_S_S16 : S_.BroadcastsInDim S16 (![] : Fin 0 → Fin S16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  reducesTo_S2048x16_S_d0_1 : S2048x16.ReducesTo [0, 1] S_
  h_S_ : 0 < S_.numel
  transposes_S2048x16_S16x2048_1_0 : S2048x16.Transposes [1, 0] S16x2048
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  bcast_S_S16x2048 : S_.BroadcastsInDim S16x2048 (![] : Fin 0 → Fin S16x2048.rank)
  reducesTo_S16x2048x2048_S_d0_1_2 : S16x2048x2048.ReducesTo [0, 1, 2] S_
  reducesTo_S16x2048x2048_S16_d1_2 : S16x2048x2048.ReducesTo [1, 2] S16
  bcast_S16_S16x1x1_0 : S16.BroadcastsInDim S16x1x1 (![0] : Fin 1 → Fin S16x1x1.rank)
  bcast_S16x1x1_S16x2048x2048_0_1_2 : S16x1x1.BroadcastsInDim S16x2048x2048 (![0, 1, 2] : Fin 3 → Fin S16x2048x2048.rank)
  reducesTo_S16x2048x2048_S2048x2048_d0 : S16x2048x2048.ReducesTo [0] S2048x2048
  reducesTo_S2048x2048_S_d0_1 : S2048x2048.ReducesTo [0, 1] S_
  reducesTo_S16_S_d0 : S16.ReducesTo [0] S_
  bcast_S2048x1_S2048x16_0_1 : S2048x1.BroadcastsInDim S2048x16 (![0, 1] : Fin 2 → Fin S2048x16.rank)

variable [Facts₀]

class Facts : Prop extends Facts₀ where

variable [Facts]
-- ==== Proof.K_Runs.lean ====
/-
  What the two runs of the kernel body share: the body's one branch condition (the accumulators are zeroed at the
  grid point (0, 0) only), decided over the sixteen grid points, and each window's current staging memref at a point.
-/
import proofs.«121037_j56049323213613_1_alg».proof.Proof.Gen.Kernel.Launch
import proofs.«121037_j56049323213613_1_alg».proof.Proof.Gen.Kernel.Skeleton
import proofs.«121037_j56049323213613_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's branch condition from the grid coordinates: both are zero. -/
abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- It holds at the first point only. -/
theorem hcond0 : ∀ t : Fin cfg0.N, cond0 (grid0.coords t) ↔ t.val % 16 = 0 :=
  (by decide +kernel : ∀ t : Fin grid0.N, cond0 (grid0.coords t) ↔ t.val % 16 = 0)

/-- Each window's current staging memref at point t, and its wholeness. -/
abbrev ms0 (t : Fin cfg0.N) : Memref sig .tc .vmem S512x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- One staging buffer of each accumulator, through which its contents are stated. -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view

end Cert.Kernel.Frm

end
-- ==== Proof.K_RunA.lean ====
/-
  The kernel body run on whole staging memrefs AT THE FIRST GRID POINT (the branch taken: both accumulators are zeroed before anything is added):
  the four input blocks stay as they were, and each accumulator ends with the pieces the run's stores wrote.
-/
import proofs.«121037_j56049323213613_1_alg».proof.Proof.K_Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_A (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole)
    (hc0 : cond0 i)
    (x2 x3 : Vec F S512x32 .f32) (x4 : Vec F S512x512 .f32) (x5 : Vec F S1x16 .f32) :
    (L6 : List (View.Piece (Elt F) S1x1 .f32)) ×' { L7 : List (View.Piece (Elt F) S1x1 .f32) //
      ∀ (E : Set ℕ) (K : PUnit → sProp 𝕄),
        iprop(owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E
              (cc0__quad_kernel i arg2 harg2 arg3 harg3 arg4 harg4 arg5 harg5 arg6 harg6 arg7 harg7) K } := by
  refine ⟨?_, ?_, fun E K => ?run⟩
  case run =>
    simp only [cc0__quad_kernel_eq_skeleton]; unfold cc0__quad_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3
    obtain rfl := harg4.eq_unread hf4; obtain rfl := harg5.eq_unread hf5
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Frm

end
-- ==== Proof.K_RunB.lean ====
/-
  The kernel body run on whole staging memrefs AT A LATER GRID POINT (the branch not taken: the accumulators are read at their running contents):
  the four input blocks stay as they were, and each accumulator ends with the pieces the run's stores wrote.
-/
import proofs.«121037_j56049323213613_1_alg».proof.Proof.K_Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_B (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole)
    (hc0 : ¬cond0 i)
    (x2 x3 : Vec F S512x32 .f32) (x4 : Vec F S512x512 .f32) (x5 : Vec F S1x16 .f32) (xo6 xo7 : Vec F S1x1 .f32) :
    (L6 : List (View.Piece (Elt F) S1x1 .f32)) ×' { L7 : List (View.Piece (Elt F) S1x1 .f32) //
      ∀ (E : Set ℕ) (K : PUnit → sProp 𝕄),
        iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xo6 ∗ owns (c : Thread nD τ) arg7 fullShare xo7
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E
              (cc0__quad_kernel i arg2 harg2 arg3 harg3 arg4 harg4 arg5 harg5 arg6 harg6 arg7 harg7) K } := by
  refine ⟨?_, ?_, fun E K => ?run⟩
  case run =>
    simp only [cc0__quad_kernel_eq_skeleton]; unfold cc0__quad_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Frm

end
-- ==== Proof.K_Frame.lean ====
/-
  The kernel region's proof data and its body obligation, at a parameter V for the buffer contents the region is
  entered with.  After the body at grid point t the four input windows' staging buffers hold their blocks; the two
  one-element accumulators hold what the point's run leaves, by recursion on the point: at the first point the run that
  zeroes them first, at every later point the run over what the point before left (the accumulators' blocks never
  move and are written back at the last point only).  Windows 0 and 1 stage blocks of ONE array, each at half a share.
-/
import proofs.«121037_j56049323213613_1_alg».proof.Proof.K_RunA
import proofs.«121037_j56049323213613_1_alg».proof.Proof.K_RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the block
    index has not moved. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulators -/

theorem cover_A_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) (y : S1x1.Idx) :
    ∃ pc ∈ (kernelRun_A c i arg2 harg2 arg3 harg3 arg4 harg4 arg5 harg5 arg6 harg6 arg7 harg7 hc0 x2 x3 x4 x5).1, y ∈ pc.1.set :=
  View.cover_of_tiledL (kernelRun_A c i arg2 harg2 arg3 harg3 arg4 harg4 arg5 harg5 arg6 harg6 arg7 harg7 hc0 x2 x3 x4 x5).1 S1x1.size (by sl_kernel_rfl) y
theorem cover_A_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) (y : S1x1.Idx) :
    ∃ pc ∈ (kernelRun_A c i arg2 harg2 arg3 harg3 arg4 harg4 arg5 harg5 arg6 harg6 arg7 harg7 hc0 x2 x3 x4 x5).2.1, y ∈ pc.1.set :=
  View.cover_of_tiledL (kernelRun_A c i arg2 harg2 arg3 harg3 arg4 harg4 arg5 harg5 arg6 harg6 arg7 harg7 hc0 x2 x3 x4 x5).2.1 S1x1.size (by sl_kernel_rfl) y
theorem cover_B_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) (y : S1x1.Idx) :
    ∃ pc ∈ (kernelRun_B c i arg2 harg2 arg3 harg3 arg4 harg4 arg5 harg5 arg6 harg6 arg7 harg7 hc0 x2 x3 x4 x5 xo6 xo7).1, y ∈ pc.1.set :=
  View.cover_of_tiledL (kernelRun_B c i arg2 harg2 arg3 harg3 arg4 harg4 arg5 harg5 arg6 harg6 arg7 harg7 hc0 x2 x3 x4 x5 xo6 xo7).1 S1x1.size (by sl_kernel_rfl) y
theorem cover_B_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) (y : S1x1.Idx) :
    ∃ pc ∈ (kernelRun_B c i arg2 harg2 arg3 harg3 arg4 harg4 arg5 harg5 arg6 harg6 arg7 harg7 hc0 x2 x3 x4 x5 xo6 xo7).2.1, y ∈ pc.1.set :=
  View.cover_of_tiledL (kernelRun_B c i arg2 harg2 arg3 harg3 arg4 harg4 arg5 harg5 arg6 harg6 arg7 harg7 hc0 x2 x3 x4 x5 xo6 xo7).2.1 S1x1.size (by sl_kernel_rfl) y

/-- What the first point's run leaves in the two accumulators: its pieces read back over junk. -/
def out_A_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) : Vec F S1x1 .f32 :=
  VO4.read (Elt F) (VO4.writes (Elt F) VO4.junk (kernelRun_A c i arg2 harg2 arg3 harg3 arg4 harg4 arg5 harg5 arg6 harg6 arg7 harg7 hc0 x2 x3 x4 x5).1)
def out_A_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) : Vec F S1x1 .f32 :=
  VO5.read (Elt F) (VO5.writes (Elt F) VO5.junk (kernelRun_A c i arg2 harg2 arg3 harg3 arg4 harg4 arg5 harg5 arg6 harg6 arg7 harg7 hc0 x2 x3 x4 x5).2.1)
/-- What a later point's run leaves, over the running contents xo6, xo7. -/
def out_B_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) : Vec F S1x1 .f32 :=
  VO4.read (Elt F) (VO4.writes (Elt F) VO4.junk (kernelRun_B c i arg2 harg2 arg3 harg3 arg4 harg4 arg5 harg5 arg6 harg6 arg7 harg7 hc0 x2 x3 x4 x5 xo6 xo7).1)
def out_B_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) : Vec F S1x1 .f32 :=
  VO5.read (Elt F) (VO5.writes (Elt F) VO5.junk (kernelRun_B c i arg2 harg2 arg3 harg3 arg4 harg4 arg5 harg5 arg6 harg6 arg7 harg7 hc0 x2 x3 x4 x5 xo6 xo7).2.1)

/-! ## What the accumulators hold after each point -/

/-- A point after the first is not the first. -/
theorem not_cond_succ (n : ℕ) (hn : n + 1 < cfg0.N) : ¬cond0 (grid0.coords ⟨n + 1, hn⟩) := fun h => by
  have h16 : n + 1 < 16 := lt_of_lt_of_eq hn (show cfg0.N = 16 from N_0)
  have := (hcond0 ⟨n + 1, hn⟩).mp h
  dsimp only at this; omega

/-- THE ACCUMULATION: the two accumulators after the body at position n. -/
def outsAt (c : Dev nD) : (n : ℕ) → n < cfg0.N → Vec F S1x1 .f32 × Vec F S1x1 .f32
  | 0, hn =>
    (out_A_6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr (Nat.zero_mod _)) (iblk V c 0 ⟨0, hn⟩) (iblk V c 1 ⟨0, hn⟩) (iblk V c 2 ⟨0, hn⟩) (iblk V c 3 ⟨0, hn⟩),
     out_A_7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    (out_B_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (not_cond_succ n hn) (iblk V c 0 ⟨n + 1, hn⟩) (iblk V c 1 ⟨n + 1, hn⟩) (iblk V c 2 ⟨n + 1, hn⟩) (iblk V c 3 ⟨n + 1, hn⟩) (outsAt c n (Nat.lt_of_succ_lt hn)).1 (outsAt c n (Nat.lt_of_succ_lt hn)).2,
     out_B_7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (not_cond_succ n hn) (iblk V c 0 ⟨n + 1, hn⟩) (iblk V c 1 ⟨n + 1, hn⟩) (iblk V c 2 ⟨n + 1, hn⟩) (iblk V c 3 ⟨n + 1, hn⟩) (outsAt c n (Nat.lt_of_succ_lt hn)).1 (outsAt c n (Nat.lt_of_succ_lt hn)).2)

/-- At the first point. -/
theorem outsAt_A (c : Dev nD) (t : Fin cfg0.N) (h0 : t.val % 16 = 0) :
    outsAt V c t.val t.isLt =
      (out_A_6 c (grid0.coords t) (ms0 t) (hs0 t) (ms1 t) (hs1 t) (ms2 t) (hs2 t) (ms3 t) (hs3 t) (ms4 t) (hs4 t) (ms5 t) (hs5 t) ((hcond0 t).mpr h0) (iblk V c 0 t) (iblk V c 1 t) (iblk V c 2 t) (iblk V c 3 t),
       out_A_7 c (grid0.coords t) (ms0 t) (hs0 t) (ms1 t) (hs1 t) (ms2 t) (hs2 t) (ms3 t) (hs3 t) (ms4 t) (hs4 t) (ms5 t) (hs5 t) ((hcond0 t).mpr h0) (iblk V c 0 t) (iblk V c 1 t) (iblk V c 2 t) (iblk V c 3 t)) := by
  obtain ⟨n, hn⟩ := t
  have h16 : n < 16 := lt_of_lt_of_eq hn (show cfg0.N = 16 from N_0)
  cases n with
  | zero => exact rfl
  | succ n => exact (by exfalso; dsimp only at h0; omega)

/-- At a later point: over what the point before left. -/
theorem outsAt_B (c : Dev nD) (t : Fin cfg0.N) (h0 : ¬t.val % 16 = 0) :
    outsAt V c t.val t.isLt =
      (out_B_6 c (grid0.coords t) (ms0 t) (hs0 t) (ms1 t) (hs1 t) (ms2 t) (hs2 t) (ms3 t) (hs3 t) (ms4 t) (hs4 t) (ms5 t) (hs5 t) (fun h => h0 ((hcond0 t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2,
       out_B_7 c (grid0.coords t) (ms0 t) (hs0 t) (ms1 t) (hs1 t) (ms2 t) (hs2 t) (ms3 t) (hs3 t) (ms4 t) (hs4 t) (ms5 t) (hs5 t) (fun h => h0 ((hcond0 t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact (by exfalso; exact h0 (Nat.zero_mod _))
  | succ n => exact rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = (outsAt V c t.val t.isLt).1 := by dsimp only [dat0]
theorem after_5 (c : Dev nD) (t : Fin cfg0.N) : (dat0 V c).after 5 t = (outsAt V c t.val t.isLt).2 := by dsimp only [dat0]

theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d
theorem before_3 (c : Dev nD) (t : Fin cfg0.N) (d) : (dat0 V c).before 3 t d = iblk V c 3 t :=
  before_in3_of V (dat0 V c) (A_eq V c 3) (after_3 V c) t d

/-- At a later point an accumulator's staging buffer holds what the body left at the point before: it is written back
    at the last point only, and its block never moves. -/
theorem before_4_B (c : Dev nD) (t : Fin cfg0.N) (h0 : ¬t.val % 16 = 0) (d) :
    (dat0 V c).before 4 t d = (outsAt V c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]
theorem before_5_B (c : Dev nD) (t : Fin cfg0.N) (h0 : ¬t.val % 16 = 0) (d) :
    (dat0 V c).before 5 t d = (outsAt V c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t)
    ∗ owns (c : Thread nD τ) (ms5 t) fullShare ((dat0 V c).after 5 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4, after_5]
  have hN : t.val < 16 := lt_of_lt_of_eq t.isLt (show cfg0.N = 16 from N_0)
  by_cases h0 : t.val % 16 = 0
  · rw [outsAt_A V c t h0]
    dsimp only
    unfold out_A_6 out_A_7
    iintro ⟨HΦ, Ho, ⟨%d0, H0⟩, ⟨%d1, H1⟩, ⟨%d2, H2⟩, ⟨%d3, H3⟩, ⟨%d4, H4⟩, ⟨%d5, H5⟩⟩
    iapply ((kernelRun_A c (grid0.coords t) _ _ _ _ _ _ _ _ _ _ _ _ ((hcond0 t).mpr h0) (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_6 c _ _ _ _ _ _ _ _ _ _ _ _ _ _ _ _ _ _)
    · unfold owns; iexists _; isplitr
      swap; · iexact H5
      ipureintro; exact View.read_writes_of_cover _ _ _ _ _ (cover_A_7 c _ _ _ _ _ _ _ _ _ _ _ _ _ _ _ _ _ _)
  · rw [outsAt_B V c t h0]
    dsimp only
    simp only [before_4_B V c t h0, before_5_B V c t h0]
    unfold out_B_6 out_B_7
    iintro ⟨HΦ, Ho, ⟨%d0, H0⟩, ⟨%d1, H1⟩, ⟨%d2, H2⟩, ⟨%d3, H3⟩, ⟨%d4, H4⟩, ⟨%d5, H5⟩⟩
    iapply ((kernelRun_B c (grid0.coords t) _ _ _ _ _ _ _ _ _ _ _ _ (fun h => h0 ((hcond0 t).mp h)) (iblk V c 0 t) (iblk V c 1 t) (iblk V c 2 t) (iblk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_6 c _ _ _ _ _ _ _ _ _ _ _ _ _ _ _ _ _ _ _ _)
    · unfold owns; iexists _; isplitr
      swap; · iexact H5
      ipureintro; exact View.read_writes_of_cover _ _ _ _ _ (cover_B_7 c _ _ _ _ _ _ _ _ _ _ _ _ _ _ _ _ _ _ _ _)

theorem body_obligation (c : Dev nD) : BodyObligation (dat0 (F := F) V c) (defs₀ (F := F)) Variants.none () Set.univ := fun t => by
  rw [bigSep_W0, bigSep_W0]
  exact sound_body V c t

end Cert.Kernel.Frm

end
-- ==== Proof.K_Fold.lean ====
/-
  The contents of every buffer of the TensorCore at each boundary of @main: the launch memory, then each stretch of host
  operations applied in order, the kernel region replacing its windows' arrays by what its write-backs leave (a
  parameter A here), then the stretches after the region.
-/
import proofs.«121037_j56049323213613_1_alg».proof.Proof.Gen.Kernel.Launch
import Idealize.ShloMosaic.Lib.Pipeline.FrameSuffix

noncomputable section

namespace Cert.Kernel.Fold

open Idealize.ShloMosaic Idealize.ShloMosaic.TcCoe Idealize.SL.Sem Cert.Kernel Cert.Kernel.Gen

variable {F : FTy → Type} [FloatOps F]
variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- When the region is entered. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b

/-- What the region leaves in its windows' arrays, one buffer per window. -/
abbrev Outs := (c : Dev nD) → (w : Fin cfg0.W) → Buf (Elt F) ((cfg0.win w).arr.view.loc (c.tc : Thread nD τ))

variable (A : Outs (F := F))

/-- When the region is left: its arrays at A, every other buffer as entered. -/
def W6 (c : Dev nD) : Valuation τ sig (Elt F) := Pipeline.withArrays spec0 c (W5 m ρ c) (A c)
abbrev W7 : Dev nD → Valuation τ sig (Elt F) := fun c => StableHlo.after hostOps1 (W6 m ρ A c)
abbrev W8 : Dev nD → Valuation τ sig (Elt F) := fun c => StableHlo.after hostOps1_1 (W7 m ρ A c)
/-- At the return. -/
abbrev W9 : Dev nD → Valuation τ sig (Elt F) := fun c => StableHlo.after hostOps1_2 (W8 m ρ A c)

end Cert.Kernel.Fold

end
-- ==== Proof.K_Main.lean ====
/-
  The kernel program's run: @main as nine segments — five stretches of host operations, the kernel region, three more
  stretches — over the thread state "every unscoped buffer of the TensorCore at the boundary's contents".  The region's
  six windows stage five arrays: windows 0 and 1 read blocks of ONE array (the row block and the column block of
  the node array), so at the region's entry that array's full share is dealt in two halves, one per window, and the
  halves are joined again at the exit, where both still hold the entry contents.  The post names every unscoped
  buffer's final contents; the frame claim and the value of the result buffer are read off it.
-/
import proofs.«121037_j56049323213613_1_alg».proof.Proof.K_Frame
import proofs.«121037_j56049323213613_1_alg».proof.Proof.K_Fold
import Idealize.ShloMosaic.Lib.Pipeline.RegionsLoop
import Idealize.ShloMosaic.Lib.Pipeline.FrameSuffix

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Fold

/-- A buffer that no operation of a stretch writes is, after the stretch, what it was before. -/
syntax "not_written " ident : tactic
macro_rules
  | `(tactic| not_written $ops:ident) =>
    `(tactic| exact StableHlo.after_of_forall_not_mem _ _ (List.forall_iff_forall_mem.mp (by
        simp only [$ops:ident, List.Forall, StableHlo.nullary_writes, StableHlo.unary_writes, StableHlo.binary_writes,
          StableHlo.reshape_writes, Finset.mem_singleton]
        repeat' apply And.intro
        all_goals exact StableHlo.devRef_ne_of_ne (by decide))))

variable (m : (ℓ : Loc nD τ sig) → Buf (Elt F) ℓ) (ρ : Dev nD → PrngReg)

/-! ## The five arrays behind the six windows -/

theorem arrRefs_eq : Finset.univ.image (Pipeline.arrRef spec0) = ({main_arg0, main_arg3, main_v30, main_v31_0, main_v31_1} : Finset (Ref sig .tc)) := by
  decide

section Arrays
variable (V : (c : Dev nD) → (b : Ref sig .tc) → Buf (Elt F) ((c : Thread nD τ).loc b))

/-- The proof data's arrays, window by window: the node array at half a share for each of its two windows. -/
theorem arrays_explicit (c : Dev nD) (G : (w : Fin cfg0.W) → Buf (Elt F) ((cfg0.win w).arr.view.loc (c.tc : Thread nD τ))) :
    ((dat0 V c).arrays G : sProp 𝕄) = iprop(
        (((c.tc : Thread nD τ).loc main_arg0) ↦{fullShare.left} G 0) ∗ (((c.tc : Thread nD τ).loc main_arg0) ↦{fullShare.right} G 1)
      ∗ (((c.tc : Thread nD τ).loc main_arg3) ↦{fullShare} G 2) ∗ (((c.tc : Thread nD τ).loc main_v30) ↦{fullShare} G 3)
      ∗ (((c.tc : Thread nD τ).loc main_v31_0) ↦{fullShare} G 4) ∗ (((c.tc : Thread nD τ).loc main_v31_1) ↦{fullShare} G 5)) := by
  have h : ((dat0 V c).arrays G : sProp 𝕄) = bigSep Finset.univ fun w : Fin cfg0.W =>
      (((c.tc : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- The five buffers behind the windows' arrays, one by one. -/
theorem arrBufs_explicit (c : Dev nD) (V' : (b : Ref sig .tc) → Buf (Elt F) ((c : Thread nD τ).loc b)) :
    (Pipeline.arrBufs spec0 c V' : sProp 𝕄) = iprop(
        (((c.tc : Thread nD τ).loc main_arg0) ↦{fullShare} V' main_arg0) ∗ (((c.tc : Thread nD τ).loc main_arg3) ↦{fullShare} V' main_arg3)
      ∗ (((c.tc : Thread nD τ).loc main_v30) ↦{fullShare} V' main_v30) ∗ (((c.tc : Thread nD τ).loc main_v31_0) ↦{fullShare} V' main_v31_0)
      ∗ (((c.tc : Thread nD τ).loc main_v31_1) ↦{fullShare} V' main_v31_1)) := by
  unfold Pipeline.arrBufs
  rw [arrRefs_eq, BI.bigSep_insert (by decide), BI.bigSep_insert (by decide), BI.bigSep_insert (by decide), BI.bigSep_insert (by decide), BI.bigSep_singleton]
  rfl

/-- ENTRY: the five buffers, each whole at the full share at the entry contents, make the proof data's arrays. -/
theorem entry_split (c : Dev nD) : (Pipeline.arrBufs spec0 c (V c) : sProp 𝕄) ⊢ (dat0 V c).arrays ((dat0 V c).arrAt · 0) := by
  rw [arrays_explicit, arrBufs_explicit]
  iintro ⟨H0, H3, H30, H4, H5⟩
  ihave Hs := (pointsTo_share (PosShare.mem_left_op_right fullShare)).1 $$ H0
  icases Hs with ⟨Hl, Hr⟩
  isplitl [Hl]; · iexact Hl
  isplitl [Hr]; · iexact Hr
  isplitl [H3]; · iexact H3
  isplitl [H30]; · iexact H30
  isplitl [H4]; · iexact H4
  iexact H5

/-- EXIT: the arrays at contents G that are a valuation V' at the five buffers give the five buffers whole at V'. -/
theorem exit_join (c : Dev nD) (V' : (b : Ref sig .tc) → Buf (Elt F) ((c : Thread nD τ).loc b))
    (G : (w : Fin cfg0.W) → Buf (Elt F) ((cfg0.win w).arr.view.loc (c.tc : Thread nD τ)))
    (hG : ∀ w, G w = V' (Pipeline.arrRef spec0 w)) :
    ((dat0 V c).arrays G : sProp 𝕄) ⊢ Pipeline.arrBufs spec0 c V' := by
  rw [arrays_explicit, arrBufs_explicit]
  rw [hG 0, hG 1, hG 2, hG 3, hG 4, hG 5]
  iintro ⟨Hl, Hr, H3, H30, H4, H5⟩
  isplitl [Hl Hr]
  · iapply (pointsTo_share (PosShare.mem_left_op_right fullShare)).2
    isplitl [Hl]; · iexact Hl
    iexact Hr
  isplitl [H3]; · iexact H3
  isplitl [H30]; · iexact H30
  isplitl [H4]; · iexact H4
  iexact H5

end Arrays

/-! ## What the region leaves, and the contents at its exit -/

/-- What the region leaves in each window's array: the inputs as entered, each accumulator's block as written back. -/
def Aouts : Outs (F := F) := fun c w => (dat0 (V5 m ρ) c).arrAt w cfg0.N

/-- An input window's array ends as entered. -/
theorem Aouts_in (c : Dev nD) (w : Fin cfg0.W) (hw : (cfg0.win w).isOut = false) :
    Aouts m ρ c w = V5 m ρ c (Pipeline.arrRef spec0 w) := by
  unfold Aouts
  exact ((dat0 (V5 m ρ) c).arrAt_in w hw _).trans (A_eq (V5 m ρ) c w)

/-- The exit contents at a window's array are what the region leaves there (windows on one array agree). -/
theorem W6_arr (c : Dev nD) (w : Fin cfg0.W) :
    W6 m ρ (Aouts m ρ) c (Proc.devRef .tc (Pipeline.arrRef spec0 w)) = Aouts m ρ c w := by
  unfold W6 Pipeline.withArrays
  have h0 : ∃ w', Proc.devRef .tc (Pipeline.arrRef spec0 w') = Proc.devRef (τ := τ) .tc (Pipeline.arrRef spec0 w) := ⟨w, rfl⟩
  rw [dif_pos h0]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) (Aouts m ρ c w') = Aouts m ρ c w from this _ h0.choose_spec
  intro w' e
  have e' : Pipeline.arrRef spec0 w' = Pipeline.arrRef spec0 w := Proc.devRef_injective _ e
  by_cases hww : w' = w
  · subst hww; rfl
  · -- two different windows on one array: both are input windows of the node array, and both end as entered
    have h01 : (w' = 0 ∧ w = 1) ∨ (w' = 1 ∧ w = 0) := by
      revert e' hww; revert w w'; decide
    rcases h01 with ⟨rfl, rfl⟩ | ⟨rfl, rfl⟩
    · rw [Aouts_in m ρ c 0 rfl, Aouts_in m ρ c 1 rfl]; rfl
    · rw [Aouts_in m ρ c 1 rfl, Aouts_in m ρ c 0 rfl]; rfl

theorem W6_of_ne (c : Dev nD) (b : Ref sig .tc) (hb : ∀ w, Pipeline.arrRef spec0 w ≠ b) :
    W6 m ρ (Aouts m ρ) c (Proc.devRef .tc b) = W5 m ρ c (Proc.devRef .tc b) := by
  unfold W6; exact Pipeline.withArrays_of_ne spec0 c _ _ b hb

/-- The same read at the TensorCore's references. -/
abbrev V6 : (c : Dev nD) → (b : Ref sig .tc) → Buf (Elt F) ((c : Thread nD τ).loc b) := fun c b => W6 m ρ (Aouts m ρ) c b

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the final contents, the generator register at some state. -/
abbrev Tₙ (c : Dev nD) : sProp 𝕄 := iprop(StableHlo.held (c : Thread nD τ) (Pipeline.ucRefs τ sig) (W9 m ρ (Aouts m ρ) c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ (Aouts m ρ) c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit : (unscopedBufs (Ix := Unit) (Name := ℕ) (U := UR sig nD τ) (Lvl := ℕ) c (V5 m ρ c) : sProp 𝕄)
        ⊢ iprop((pdats m ρ 0 c).arrays ((pdats m ρ 0 c).arrAt · 0) ∗ Pipeline.unscopedRest spec0 c (V5 m ρ c)) := by
      rw [Pipeline.unscopedBufs_split₀ cfgs 0 winFacts₀0.arr_unscoped c (V5 m ρ c)]
      exact sep_mono (entry_split (V5 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V5 m ρ c))
        ⊢ (unscopedBufs (Ix := Unit) (Name := ℕ) (U := UR sig nD τ) (Lvl := ℕ) c (V6 m ρ c) : sProp 𝕄) := by
      rw [Pipeline.unscopedBufs_split₀ cfgs 0 winFacts₀0.arr_unscoped c (V6 m ρ c)]
      refine sep_mono (exit_join (V5 m ρ) c (V6 m ρ c) _ fun w => (W6_arr m ρ c w).symm) (Entails.of_eq ?_)
      unfold Pipeline.unscopedRest
      exact bigSep_congr fun b hb => by
        rw [show V6 m ρ c b = V5 m ρ c b from W6_of_ne m ρ c b fun w e =>
          (Finset.mem_sdiff.mp hb).2 (Finset.mem_image.mpr ⟨w, Finset.mem_univ _, e⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ (Aouts m ρ))),
    .host (hseg hostOps1_1 hostOps1_1_sub hostOps1_1_fresh (W7 m ρ (Aouts m ρ))),
    .host (hseg hostOps1_2 hostOps1_2_sub hostOps1_2_fresh (W8 m ρ (Aouts m ρ))) ]

theorem main_run (c : Dev nD) : main (F := F) c = Pipeline.Seg.run (segs m ρ) := (main_chain c).trans (by chain_rfl)

set_option backward.isDefEq.respectTransparency.types false in
/-- THE RUN: every weakly fair execution of @main terminates, nothing faulting, and every final state has every
    unscoped buffer of the TensorCore at the fold's final contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ (Aouts m ρ) c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ (Aouts m ρ) c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ (Aouts m ρ) c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ (Aouts m ρ) c) s')
      isplitl [Hh] <;> iassumption)
    (hQ := fun s h c => h c)

/-! ## The arguments end as launched -/

section Args
variable (c : Dev nD)

theorem W5_of_not_written (b : Ref sig .tc)
    (h4 : W5 m ρ c (Proc.devRef .tc b) = W4 m ρ c (Proc.devRef .tc b)) (h3 : W4 m ρ c (Proc.devRef .tc b) = W3 m ρ c (Proc.devRef .tc b))
    (h2 : W3 m ρ c (Proc.devRef .tc b) = W2 m ρ c (Proc.devRef .tc b)) (h1 : W2 m ρ c (Proc.devRef .tc b) = W1 m ρ c (Proc.devRef .tc b))
    (h0 : W1 m ρ c (Proc.devRef .tc b) = W0 m ρ c (Proc.devRef .tc b)) :
    W5 m ρ c (Proc.devRef .tc b) = m ((c : Thread nD τ).loc b) :=
  h4.trans (h3.trans (h2.trans (h1.trans (h0.trans rfl))))

theorem W5_main_arg0 : W5 m ρ c (Proc.devRef .tc main_arg0) = m ((c : Thread nD τ).loc main_arg0) :=
  W5_of_not_written m ρ c main_arg0 (by not_written hostOps0_4) (by not_written hostOps0_3) (by not_written hostOps0_2) (by not_written hostOps0_1) (by not_written hostOps0)
theorem W5_main_arg1 : W5 m ρ c (Proc.devRef .tc main_arg1) = m ((c : Thread nD τ).loc main_arg1) :=
  W5_of_not_written m ρ c main_arg1 (by not_written hostOps0_4) (by not_written hostOps0_3) (by not_written hostOps0_2) (by not_written hostOps0_1) (by not_written hostOps0)
theorem W5_main_arg2 : W5 m ρ c (Proc.devRef .tc main_arg2) = m ((c : Thread nD τ).loc main_arg2) :=
  W5_of_not_written m ρ c main_arg2 (by not_written hostOps0_4) (by not_written hostOps0_3) (by not_written hostOps0_2) (by not_written hostOps0_1) (by not_written hostOps0)
theorem W5_main_arg3 : W5 m ρ c (Proc.devRef .tc main_arg3) = m ((c : Thread nD τ).loc main_arg3) :=
  W5_of_not_written m ρ c main_arg3 (by not_written hostOps0_4) (by not_written hostOps0_3) (by not_written hostOps0_2) (by not_written hostOps0_1) (by not_written hostOps0)
theorem W5_main_arg4 : W5 m ρ c (Proc.devRef .tc main_arg4) = m ((c : Thread nD τ).loc main_arg4) :=
  W5_of_not_written m ρ c main_arg4 (by not_written hostOps0_4) (by not_written hostOps0_3) (by not_written hostOps0_2) (by not_written hostOps0_1) (by not_written hostOps0)

theorem W9_of_W6 (b : Ref sig .tc)
    (h8 : W9 m ρ (Aouts m ρ) c (Proc.devRef .tc b) = W8 m ρ (Aouts m ρ) c (Proc.devRef .tc b))
    (h7 : W8 m ρ (Aouts m ρ) c (Proc.devRef .tc b) = W7 m ρ (Aouts m ρ) c (Proc.devRef .tc b))
    (h6 : W7 m ρ (Aouts m ρ) c (Proc.devRef .tc b) = W6 m ρ (Aouts m ρ) c (Proc.devRef .tc b)) :
    W9 m ρ (Aouts m ρ) c (Proc.devRef .tc b) = W6 m ρ (Aouts m ρ) c (Proc.devRef .tc b) := h8.trans (h7.trans h6)

theorem W9_main_arg0 : W9 m ρ (Aouts m ρ) c (Proc.devRef .tc main_arg0) = m ((c : Thread nD τ).loc main_arg0) :=
  (W9_of_W6 m ρ c main_arg0 (by not_written hostOps1_2) (by not_written hostOps1_1) (by not_written hostOps1)).trans
    ((W6_arr m ρ c 0).trans ((Aouts_in m ρ c 0 rfl).trans (W5_main_arg0 m ρ c)))
theorem W9_main_arg3 : W9 m ρ (Aouts m ρ) c (Proc.devRef .tc main_arg3) = m ((c : Thread nD τ).loc main_arg3) :=
  (W9_of_W6 m ρ c main_arg3 (by not_written hostOps1_2) (by not_written hostOps1_1) (by not_written hostOps1)).trans
    ((W6_arr m ρ c 2).trans ((Aouts_in m ρ c 2 rfl).trans (W5_main_arg3 m ρ c)))
theorem W9_main_arg1 : W9 m ρ (Aouts m ρ) c (Proc.devRef .tc main_arg1) = m ((c : Thread nD τ).loc main_arg1) :=
  (W9_of_W6 m ρ c main_arg1 (by not_written hostOps1_2) (by not_written hostOps1_1) (by not_written hostOps1)).trans
    ((W6_of_ne m ρ c main_arg1 (by decide)).trans (W5_main_arg1 m ρ c))
theorem W9_main_arg2 : W9 m ρ (Aouts m ρ) c (Proc.devRef .tc main_arg2) = m ((c : Thread nD τ).loc main_arg2) :=
  (W9_of_W6 m ρ c main_arg2 (by not_written hostOps1_2) (by not_written hostOps1_1) (by not_written hostOps1)).trans
    ((W6_of_ne m ρ c main_arg2 (by decide)).trans (W5_main_arg2 m ρ c))
theorem W9_main_arg4 : W9 m ρ (Aouts m ρ) c (Proc.devRef .tc main_arg4) = m ((c : Thread nD τ).loc main_arg4) :=
  (W9_of_W6 m ρ c main_arg4 (by not_written hostOps1_2) (by not_written hostOps1_1) (by not_written hostOps1)).trans
    ((W6_of_ne m ρ c main_arg4 (by decide)).trans (W5_main_arg4 m ρ c))

end Args

/-- THE RUN with the result named: the result buffer at the fold's final contents, the five arguments as launched. -/
theorem run_named : θ_run defs (onTc (τ := τ) (main (F := F))) ⟨m, fun _ => 0, ρ⟩ (fun r => ∀ c : Dev nD,
      r.2.mem ((c.tc : Thread nD τ).loc main_v61) = W9 m ρ (Aouts m ρ) c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v61 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run m ρ)

/-- THE FRAME: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Frm

end
-- ==== Proof.KI_Runs.lean ====
/-
  What the two runs of the kernel body share: the body's one branch condition (the accumulators are zeroed at the
  grid point (0, 0) only), decided over the sixteen grid points, and each window's current staging memref at a point.
-/
import proofs.«121037_j56049323213613_1_alg».proof.Proof.Gen.KernelIdeal.Launch
import proofs.«121037_j56049323213613_1_alg».proof.Proof.Gen.KernelIdeal.Skeleton
import proofs.«121037_j56049323213613_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch condition from the grid coordinates: both are zero. -/
abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- It holds at the first point only. -/
theorem hcond0 : ∀ t : Fin cfg0.N, cond0 (grid0.coords t) ↔ t.val % 16 = 0 :=
  (by decide +kernel : ∀ t : Fin grid0.N, cond0 (grid0.coords t) ↔ t.val % 16 = 0)

/-- Each window's current staging memref at point t, and its wholeness. -/
abbrev ms0 (t : Fin cfg0.N) : Memref sig .tc .vmem S512x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- One staging buffer of each accumulator, through which its contents are stated. -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view

end Cert.KernelIdeal.Frm

end
-- ==== Proof.KI_RunA.lean ====
/-
  The kernel body run on whole staging memrefs AT THE FIRST GRID POINT (the branch taken: both accumulators are zeroed before anything is added):
  the four input blocks stay as they were, and each accumulator ends with the pieces the run's stores wrote.
-/
import proofs.«121037_j56049323213613_1_alg».proof.Proof.KI_Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_A (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole)
    (hc0 : cond0 i)
    (x2 x3 : Vec F S512x32 .f32) (x4 : Vec F S512x512 .f32) (x5 : Vec F S1x16 .f32) :
    (L6 : List (View.Piece (Elt F) S1x1 .f32)) ×' { L7 : List (View.Piece (Elt F) S1x1 .f32) //
      ∀ (E : Set ℕ) (K : PUnit → sProp 𝕄),
        iprop(owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E
              (cc0__quad_kernel i arg2 harg2 arg3 harg3 arg4 harg4 arg5 harg5 arg6 harg6 arg7 harg7) K } := by
  refine ⟨?_, ?_, fun E K => ?run⟩
  case run =>
    simp only [cc0__quad_kernel_eq_skeleton]; unfold cc0__quad_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3
    obtain rfl := harg4.eq_unread hf4; obtain rfl := harg5.eq_unread hf5
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Frm

end
-- ==== Proof.KI_RunB.lean ====
/-
  The kernel body run on whole staging memrefs AT A LATER GRID POINT (the branch not taken: the accumulators are read at their running contents):
  the four input blocks stay as they were, and each accumulator ends with the pieces the run's stores wrote.
-/
import proofs.«121037_j56049323213613_1_alg».proof.Proof.KI_Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_B (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole)
    (hc0 : ¬cond0 i)
    (x2 x3 : Vec F S512x32 .f32) (x4 : Vec F S512x512 .f32) (x5 : Vec F S1x16 .f32) (xo6 xo7 : Vec F S1x1 .f32) :
    (L6 : List (View.Piece (Elt F) S1x1 .f32)) ×' { L7 : List (View.Piece (Elt F) S1x1 .f32) //
      ∀ (E : Set ℕ) (K : PUnit → sProp 𝕄),
        iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xo6 ∗ owns (c : Thread nD τ) arg7 fullShare xo7
            ∗ (iprop(owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E
              (cc0__quad_kernel i arg2 harg2 arg3 harg3 arg4 harg4 arg5 harg5 arg6 harg6 arg7 harg7) K } := by
  refine ⟨?_, ?_, fun E K => ?run⟩
  case run =>
    simp only [cc0__quad_kernel_eq_skeleton]; unfold cc0__quad_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Frm

end
-- ==== Proof.KI_Frame.lean ====
/-
  The kernel region's proof data and its body obligation, at a parameter V for the buffer contents the region is
  entered with.  After the body at grid point t the four input windows' staging buffers hold their blocks; the two
  one-element accumulators hold what the point's run leaves, by recursion on the point: at the first point the run that
  zeroes them first, at every later point the run over what the point before left (the accumulators' blocks never
  move and are written back at the last point only).  Windows 0 and 1 stage blocks of ONE array, each at half a share.
-/
import proofs.«121037_j56049323213613_1_alg».proof.Proof.KI_RunA
import proofs.«121037_j56049323213613_1_alg».proof.Proof.KI_RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the block
    index has not moved. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulators -/

theorem cover_A_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) (y : S1x1.Idx) :
    ∃ pc ∈ (kernelRun_A c i arg2 harg2 arg3 harg3 arg4 harg4 arg5 harg5 arg6 harg6 arg7 harg7 hc0 x2 x3 x4 x5).1, y ∈ pc.1.set :=
  View.cover_of_tiledL (kernelRun_A c i arg2 harg2 arg3 harg3 arg4 harg4 arg5 harg5 arg6 harg6 arg7 harg7 hc0 x2 x3 x4 x5).1 S1x1.size (by sl_kernel_rfl) y
theorem cover_A_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) (y : S1x1.Idx) :
    ∃ pc ∈ (kernelRun_A c i arg2 harg2 arg3 harg3 arg4 harg4 arg5 harg5 arg6 harg6 arg7 harg7 hc0 x2 x3 x4 x5).2.1, y ∈ pc.1.set :=
  View.cover_of_tiledL (kernelRun_A c i arg2 harg2 arg3 harg3 arg4 harg4 arg5 harg5 arg6 harg6 arg7 harg7 hc0 x2 x3 x4 x5).2.1 S1x1.size (by sl_kernel_rfl) y
theorem cover_B_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) (y : S1x1.Idx) :
    ∃ pc ∈ (kernelRun_B c i arg2 harg2 arg3 harg3 arg4 harg4 arg5 harg5 arg6 harg6 arg7 harg7 hc0 x2 x3 x4 x5 xo6 xo7).1, y ∈ pc.1.set :=
  View.cover_of_tiledL (kernelRun_B c i arg2 harg2 arg3 harg3 arg4 harg4 arg5 harg5 arg6 harg6 arg7 harg7 hc0 x2 x3 x4 x5 xo6 xo7).1 S1x1.size (by sl_kernel_rfl) y
theorem cover_B_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) (y : S1x1.Idx) :
    ∃ pc ∈ (kernelRun_B c i arg2 harg2 arg3 harg3 arg4 harg4 arg5 harg5 arg6 harg6 arg7 harg7 hc0 x2 x3 x4 x5 xo6 xo7).2.1, y ∈ pc.1.set :=
  View.cover_of_tiledL (kernelRun_B c i arg2 harg2 arg3 harg3 arg4 harg4 arg5 harg5 arg6 harg6 arg7 harg7 hc0 x2 x3 x4 x5 xo6 xo7).2.1 S1x1.size (by sl_kernel_rfl) y

/-- What the first point's run leaves in the two accumulators: its pieces read back over junk. -/
def out_A_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) : Vec F S1x1 .f32 :=
  VO4.read (Elt F) (VO4.writes (Elt F) VO4.junk (kernelRun_A c i arg2 harg2 arg3 harg3 arg4 harg4 arg5 harg5 arg6 harg6 arg7 harg7 hc0 x2 x3 x4 x5).1)
def out_A_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) : Vec F S1x1 .f32 :=
  VO5.read (Elt F) (VO5.writes (Elt F) VO5.junk (kernelRun_A c i arg2 harg2 arg3 harg3 arg4 harg4 arg5 harg5 arg6 harg6 arg7 harg7 hc0 x2 x3 x4 x5).2.1)
/-- What a later point's run leaves, over the running contents xo6, xo7. -/
def out_B_6 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) : Vec F S1x1 .f32 :=
  VO4.read (Elt F) (VO4.writes (Elt F) VO4.junk (kernelRun_B c i arg2 harg2 arg3 harg3 arg4 harg4 arg5 harg5 arg6 harg6 arg7 harg7 hc0 x2 x3 x4 x5 xo6 xo7).1)
def out_B_7 (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) : Vec F S1x1 .f32 :=
  VO5.read (Elt F) (VO5.writes (Elt F) VO5.junk (kernelRun_B c i arg2 harg2 arg3 harg3 arg4 harg4 arg5 harg5 arg6 harg6 arg7 harg7 hc0 x2 x3 x4 x5 xo6 xo7).2.1)

/-! ## What the accumulators hold after each point -/

/-- A point after the first is not the first. -/
theorem not_cond_succ (n : ℕ) (hn : n + 1 < cfg0.N) : ¬cond0 (grid0.coords ⟨n + 1, hn⟩) := fun h => by
  have h16 : n + 1 < 16 := lt_of_lt_of_eq hn (show cfg0.N = 16 from N_0)
  have := (hcond0 ⟨n + 1, hn⟩).mp h
  dsimp only at this; omega

/-- THE ACCUMULATION: the two accumulators after the body at position n. -/
def outsAt (c : Dev nD) : (n : ℕ) → n < cfg0.N → Vec F S1x1 .f32 × Vec F S1x1 .f32
  | 0, hn =>
    (out_A_6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr (Nat.zero_mod _)) (iblk V c 0 ⟨0, hn⟩) (iblk V c 1 ⟨0, hn⟩) (iblk V c 2 ⟨0, hn⟩) (iblk V c 3 ⟨0, hn⟩),
     out_A_7 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    (out_B_6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (not_cond_succ n hn) (iblk V c 0 ⟨n + 1, hn⟩) (iblk V c 1 ⟨n + 1, hn⟩) (iblk V c 2 ⟨n + 1, hn⟩) (iblk V c 3 ⟨n + 1, hn⟩) (outsAt c n (Nat.lt_of_succ_lt hn)).1 (outsAt c n (Nat.lt_of_succ_lt hn)).2,
     out_B_7 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (not_cond_succ n hn) (iblk V c 0 ⟨n + 1, hn⟩) (iblk V c 1 ⟨n + 1, hn⟩) (iblk V c 2 ⟨n + 1, hn⟩) (iblk V c 3 ⟨n + 1, hn⟩) (outsAt c n (Nat.lt_of_succ_lt hn)).1 (outsAt c n (Nat.lt_of_succ_lt hn)).2)

/-- At the first point. -/
theorem outsAt_A (c : Dev nD) (t : Fin cfg0.N) (h0 : t.val % 16 = 0) :
    outsAt V c t.val t.isLt =
      (out_A_6 c (grid0.coords t) (ms0 t) (hs0 t) (ms1 t) (hs1 t) (ms2 t) (hs2 t) (ms3 t) (hs3 t) (ms4 t) (hs4 t) (ms5 t) (hs5 t) ((hcond0 t).mpr h0) (iblk V c 0 t) (iblk V c 1 t) (iblk V c 2 t) (iblk V c 3 t),
       out_A_7 c (grid0.coords t) (ms0 t) (hs0 t) (ms1 t) (hs1 t) (ms2 t) (hs2 t) (ms3 t) (hs3 t) (ms4 t) (hs4 t) (ms5 t) (hs5 t) ((hcond0 t).mpr h0) (iblk V c 0 t) (iblk V c 1 t) (iblk V c 2 t) (iblk V c 3 t)) := by
  obtain ⟨n, hn⟩ := t
  have h16 : n < 16 := lt_of_lt_of_eq hn (show cfg0.N = 16 from N_0)
  cases n with
  | zero => exact rfl
  | succ n => exact (by exfalso; dsimp only at h0; omega)

/-- At a later point: over what the point before left. -/
theorem outsAt_B (c : Dev nD) (t : Fin cfg0.N) (h0 : ¬t.val % 16 = 0) :
    outsAt V c t.val t.isLt =
      (out_B_6 c (grid0.coords t) (ms0 t) (hs0 t) (ms1 t) (hs1 t) (ms2 t) (hs2 t) (ms3 t) (hs3 t) (ms4 t) (hs4 t) (ms5 t) (hs5 t) (fun h => h0 ((hcond0 t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2,
       out_B_7 c (grid0.coords t) (ms0 t) (hs0 t) (ms1 t) (hs1 t) (ms2 t) (hs2 t) (ms3 t) (hs3 t) (ms4 t) (hs4 t) (ms5 t) (hs5 t) (fun h => h0 ((hcond0 t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact (by exfalso; exact h0 (Nat.zero_mod _))
  | succ n => exact rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = (outsAt V c t.val t.isLt).1 := by dsimp only [dat0]
theorem after_5 (c : Dev nD) (t : Fin cfg0.N) : (dat0 V c).after 5 t = (outsAt V c t.val t.isLt).2 := by dsimp only [dat0]

theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d
theorem before_3 (c : Dev nD) (t : Fin cfg0.N) (d) : (dat0 V c).before 3 t d = iblk V c 3 t :=
  before_in3_of V (dat0 V c) (A_eq V c 3) (after_3 V c) t d

/-- At a later point an accumulator's staging buffer holds what the body left at the point before: it is written back
    at the last point only, and its block never moves. -/
theorem before_4_B (c : Dev nD) (t : Fin cfg0.N) (h0 : ¬t.val % 16 = 0) (d) :
    (dat0 V c).before 4 t d = (outsAt V c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]
theorem before_5_B (c : Dev nD) (t : Fin cfg0.N) (h0 : ¬t.val % 16 = 0) (d) :
    (dat0 V c).before 5 t d = (outsAt V c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t)
    ∗ owns (c : Thread nD τ) (ms5 t) fullShare ((dat0 V c).after 5 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4, after_5]
  have hN : t.val < 16 := lt_of_lt_of_eq t.isLt (show cfg0.N = 16 from N_0)
  by_cases h0 : t.val % 16 = 0
  · rw [outsAt_A V c t h0]
    dsimp only
    unfold out_A_6 out_A_7
    iintro ⟨HΦ, Ho, ⟨%d0, H0⟩, ⟨%d1, H1⟩, ⟨%d2, H2⟩, ⟨%d3, H3⟩, ⟨%d4, H4⟩, ⟨%d5, H5⟩⟩
    iapply ((kernelRun_A c (grid0.coords t) _ _ _ _ _ _ _ _ _ _ _ _ ((hcond0 t).mpr h0) (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_6 c _ _ _ _ _ _ _ _ _ _ _ _ _ _ _ _ _ _)
    · unfold owns; iexists _; isplitr
      swap; · iexact H5
      ipureintro; exact View.read_writes_of_cover _ _ _ _ _ (cover_A_7 c _ _ _ _ _ _ _ _ _ _ _ _ _ _ _ _ _ _)
  · rw [outsAt_B V c t h0]
    dsimp only
    simp only [before_4_B V c t h0, before_5_B V c t h0]
    unfold out_B_6 out_B_7
    iintro ⟨HΦ, Ho, ⟨%d0, H0⟩, ⟨%d1, H1⟩, ⟨%d2, H2⟩, ⟨%d3, H3⟩, ⟨%d4, H4⟩, ⟨%d5, H5⟩⟩
    iapply ((kernelRun_B c (grid0.coords t) _ _ _ _ _ _ _ _ _ _ _ _ (fun h => h0 ((hcond0 t).mp h)) (iblk V c 0 t) (iblk V c 1 t) (iblk V c 2 t) (iblk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_6 c _ _ _ _ _ _ _ _ _ _ _ _ _ _ _ _ _ _ _ _)
    · unfold owns; iexists _; isplitr
      swap; · iexact H5
      ipureintro; exact View.read_writes_of_cover _ _ _ _ _ (cover_B_7 c _ _ _ _ _ _ _ _ _ _ _ _ _ _ _ _ _ _ _ _)

theorem body_obligation (c : Dev nD) : BodyObligation (dat0 (F := F) V c) (defs₀ (F := F)) Variants.none () Set.univ := fun t => by
  rw [bigSep_W0, bigSep_W0]
  exact sound_body V c t

end Cert.KernelIdeal.Frm

end
-- ==== Proof.KI_Fold.lean ====
/-
  The contents of every buffer of the TensorCore at each boundary of @main: the launch memory, then each stretch of host
  operations applied in order, the kernel region replacing its windows' arrays by what its write-backs leave (a
  parameter A here), then the stretches after the region.
-/
import proofs.«121037_j56049323213613_1_alg».proof.Proof.Gen.KernelIdeal.Launch
import Idealize.ShloMosaic.Lib.Pipeline.FrameSuffix

noncomputable section

namespace Cert.KernelIdeal.Fold

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- When the region is entered. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b

/-- What the region leaves in its windows' arrays, one buffer per window. -/
abbrev Outs := (c : Dev nD) → (w : Fin cfg0.W) → Buf (Elt F) ((cfg0.win w).arr.view.loc (c.tc : Thread nD τ))

variable (A : Outs (F := F))

/-- When the region is left: its arrays at A, every other buffer as entered. -/
def W6 (c : Dev nD) : Valuation τ sig (Elt F) := Pipeline.withArrays spec0 c (W5 m ρ c) (A c)
abbrev W7 : Dev nD → Valuation τ sig (Elt F) := fun c => StableHlo.after hostOps1 (W6 m ρ A c)
abbrev W8 : Dev nD → Valuation τ sig (Elt F) := fun c => StableHlo.after hostOps1_1 (W7 m ρ A c)
/-- At the return. -/
abbrev W9 : Dev nD → Valuation τ sig (Elt F) := fun c => StableHlo.after hostOps1_2 (W8 m ρ A c)

end Cert.KernelIdeal.Fold

end
-- ==== Proof.KI_Main.lean ====
/-
  The kernel program's run: @main as nine segments — five stretches of host operations, the kernel region, three more
  stretches — over the thread state "every unscoped buffer of the TensorCore at the boundary's contents".  The region's
  six windows stage five arrays: windows 0 and 1 read blocks of ONE array (the row block and the column block of
  the node array), so at the region's entry that array's full share is dealt in two halves, one per window, and the
  halves are joined again at the exit, where both still hold the entry contents.  The post names every unscoped
  buffer's final contents; the frame claim and the value of the result buffer are read off it.
-/
import proofs.«121037_j56049323213613_1_alg».proof.Proof.KI_Frame
import proofs.«121037_j56049323213613_1_alg».proof.Proof.KI_Fold
import Idealize.ShloMosaic.Lib.Pipeline.RegionsLoop
import Idealize.ShloMosaic.Lib.Pipeline.FrameSuffix

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Fold

/-- A buffer that no operation of a stretch writes is, after the stretch, what it was before. -/
syntax "not_written " ident : tactic
macro_rules
  | `(tactic| not_written $ops:ident) =>
    `(tactic| exact StableHlo.after_of_forall_not_mem _ _ (List.forall_iff_forall_mem.mp (by
        simp only [$ops:ident, List.Forall, StableHlo.nullary_writes, StableHlo.unary_writes, StableHlo.binary_writes,
          StableHlo.reshape_writes, Finset.mem_singleton]
        repeat' apply And.intro
        all_goals exact StableHlo.devRef_ne_of_ne (by decide))))

variable (m : (ℓ : Loc nD τ sig) → Buf (Elt F) ℓ) (ρ : Dev nD → PrngReg)

/-! ## The five arrays behind the six windows -/

theorem arrRefs_eq : Finset.univ.image (Pipeline.arrRef spec0) = ({main_arg0, main_arg3, main_v30, main_v31_0, main_v31_1} : Finset (Ref sig .tc)) := by
  decide

section Arrays
variable (V : (c : Dev nD) → (b : Ref sig .tc) → Buf (Elt F) ((c : Thread nD τ).loc b))

/-- The proof data's arrays, window by window: the node array at half a share for each of its two windows. -/
theorem arrays_explicit (c : Dev nD) (G : (w : Fin cfg0.W) → Buf (Elt F) ((cfg0.win w).arr.view.loc (c.tc : Thread nD τ))) :
    ((dat0 V c).arrays G : sProp 𝕄) = iprop(
        (((c.tc : Thread nD τ).loc main_arg0) ↦{fullShare.left} G 0) ∗ (((c.tc : Thread nD τ).loc main_arg0) ↦{fullShare.right} G 1)
      ∗ (((c.tc : Thread nD τ).loc main_arg3) ↦{fullShare} G 2) ∗ (((c.tc : Thread nD τ).loc main_v30) ↦{fullShare} G 3)
      ∗ (((c.tc : Thread nD τ).loc main_v31_0) ↦{fullShare} G 4) ∗ (((c.tc : Thread nD τ).loc main_v31_1) ↦{fullShare} G 5)) := by
  have h : ((dat0 V c).arrays G : sProp 𝕄) = bigSep Finset.univ fun w : Fin cfg0.W =>
      (((c.tc : Thread nD τ).loc (Pipeline.arrRef spec0 w)) ↦{(dat0 V c).share w} G w : sProp 𝕄) := by
    unfold Dat.arrays
    exact bigSep_congr fun w _ => by rw [(arr_whole0 w).set_eq_univ]
  rw [h, bigSep_W0]
  rfl

/-- The five buffers behind the windows' arrays, one by one. -/
theorem arrBufs_explicit (c : Dev nD) (V' : (b : Ref sig .tc) → Buf (Elt F) ((c : Thread nD τ).loc b)) :
    (Pipeline.arrBufs spec0 c V' : sProp 𝕄) = iprop(
        (((c.tc : Thread nD τ).loc main_arg0) ↦{fullShare} V' main_arg0) ∗ (((c.tc : Thread nD τ).loc main_arg3) ↦{fullShare} V' main_arg3)
      ∗ (((c.tc : Thread nD τ).loc main_v30) ↦{fullShare} V' main_v30) ∗ (((c.tc : Thread nD τ).loc main_v31_0) ↦{fullShare} V' main_v31_0)
      ∗ (((c.tc : Thread nD τ).loc main_v31_1) ↦{fullShare} V' main_v31_1)) := by
  unfold Pipeline.arrBufs
  rw [arrRefs_eq, BI.bigSep_insert (by decide), BI.bigSep_insert (by decide), BI.bigSep_insert (by decide), BI.bigSep_insert (by decide), BI.bigSep_singleton]
  rfl

/-- ENTRY: the five buffers, each whole at the full share at the entry contents, make the proof data's arrays. -/
theorem entry_split (c : Dev nD) : (Pipeline.arrBufs spec0 c (V c) : sProp 𝕄) ⊢ (dat0 V c).arrays ((dat0 V c).arrAt · 0) := by
  rw [arrays_explicit, arrBufs_explicit]
  iintro ⟨H0, H3, H30, H4, H5⟩
  ihave Hs := (pointsTo_share (PosShare.mem_left_op_right fullShare)).1 $$ H0
  icases Hs with ⟨Hl, Hr⟩
  isplitl [Hl]; · iexact Hl
  isplitl [Hr]; · iexact Hr
  isplitl [H3]; · iexact H3
  isplitl [H30]; · iexact H30
  isplitl [H4]; · iexact H4
  iexact H5

/-- EXIT: the arrays at contents G that are a valuation V' at the five buffers give the five buffers whole at V'. -/
theorem exit_join (c : Dev nD) (V' : (b : Ref sig .tc) → Buf (Elt F) ((c : Thread nD τ).loc b))
    (G : (w : Fin cfg0.W) → Buf (Elt F) ((cfg0.win w).arr.view.loc (c.tc : Thread nD τ)))
    (hG : ∀ w, G w = V' (Pipeline.arrRef spec0 w)) :
    ((dat0 V c).arrays G : sProp 𝕄) ⊢ Pipeline.arrBufs spec0 c V' := by
  rw [arrays_explicit, arrBufs_explicit]
  rw [hG 0, hG 1, hG 2, hG 3, hG 4, hG 5]
  iintro ⟨Hl, Hr, H3, H30, H4, H5⟩
  isplitl [Hl Hr]
  · iapply (pointsTo_share (PosShare.mem_left_op_right fullShare)).2
    isplitl [Hl]; · iexact Hl
    iexact Hr
  isplitl [H3]; · iexact H3
  isplitl [H30]; · iexact H30
  isplitl [H4]; · iexact H4
  iexact H5

end Arrays

/-! ## What the region leaves, and the contents at its exit -/

/-- What the region leaves in each window's array: the inputs as entered, each accumulator's block as written back. -/
def Aouts : Outs (F := F) := fun c w => (dat0 (V5 m ρ) c).arrAt w cfg0.N

/-- An input window's array ends as entered. -/
theorem Aouts_in (c : Dev nD) (w : Fin cfg0.W) (hw : (cfg0.win w).isOut = false) :
    Aouts m ρ c w = V5 m ρ c (Pipeline.arrRef spec0 w) := by
  unfold Aouts
  exact ((dat0 (V5 m ρ) c).arrAt_in w hw _).trans (A_eq (V5 m ρ) c w)

/-- The exit contents at a window's array are what the region leaves there (windows on one array agree). -/
theorem W6_arr (c : Dev nD) (w : Fin cfg0.W) :
    W6 m ρ (Aouts m ρ) c (Proc.devRef .tc (Pipeline.arrRef spec0 w)) = Aouts m ρ c w := by
  unfold W6 Pipeline.withArrays
  have h0 : ∃ w', Proc.devRef .tc (Pipeline.arrRef spec0 w') = Proc.devRef (τ := τ) .tc (Pipeline.arrRef spec0 w) := ⟨w, rfl⟩
  rw [dif_pos h0]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) (Aouts m ρ c w') = Aouts m ρ c w from this _ h0.choose_spec
  intro w' e
  have e' : Pipeline.arrRef spec0 w' = Pipeline.arrRef spec0 w := Proc.devRef_injective _ e
  by_cases hww : w' = w
  · subst hww; rfl
  · -- two different windows on one array: both are input windows of the node array, and both end as entered
    have h01 : (w' = 0 ∧ w = 1) ∨ (w' = 1 ∧ w = 0) := by
      revert e' hww; revert w w'; decide
    rcases h01 with ⟨rfl, rfl⟩ | ⟨rfl, rfl⟩
    · rw [Aouts_in m ρ c 0 rfl, Aouts_in m ρ c 1 rfl]; rfl
    · rw [Aouts_in m ρ c 1 rfl, Aouts_in m ρ c 0 rfl]; rfl

theorem W6_of_ne (c : Dev nD) (b : Ref sig .tc) (hb : ∀ w, Pipeline.arrRef spec0 w ≠ b) :
    W6 m ρ (Aouts m ρ) c (Proc.devRef .tc b) = W5 m ρ c (Proc.devRef .tc b) := by
  unfold W6; exact Pipeline.withArrays_of_ne spec0 c _ _ b hb

/-- The same read at the TensorCore's references. -/
abbrev V6 : (c : Dev nD) → (b : Ref sig .tc) → Buf (Elt F) ((c : Thread nD τ).loc b) := fun c b => W6 m ρ (Aouts m ρ) c b

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the final contents, the generator register at some state. -/
abbrev Tₙ (c : Dev nD) : sProp 𝕄 := iprop(StableHlo.held (c : Thread nD τ) (Pipeline.ucRefs τ sig) (W9 m ρ (Aouts m ρ) c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ (Aouts m ρ) c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit : (unscopedBufs (Ix := Unit) (Name := ℕ) (U := UR sig nD τ) (Lvl := ℕ) c (V5 m ρ c) : sProp 𝕄)
        ⊢ iprop((pdats m ρ 0 c).arrays ((pdats m ρ 0 c).arrAt · 0) ∗ Pipeline.unscopedRest spec0 c (V5 m ρ c)) := by
      rw [Pipeline.unscopedBufs_split₀ cfgs 0 winFacts₀0.arr_unscoped c (V5 m ρ c)]
      exact sep_mono (entry_split (V5 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V5 m ρ c))
        ⊢ (unscopedBufs (Ix := Unit) (Name := ℕ) (U := UR sig nD τ) (Lvl := ℕ) c (V6 m ρ c) : sProp 𝕄) := by
      rw [Pipeline.unscopedBufs_split₀ cfgs 0 winFacts₀0.arr_unscoped c (V6 m ρ c)]
      refine sep_mono (exit_join (V5 m ρ) c (V6 m ρ c) _ fun w => (W6_arr m ρ c w).symm) (Entails.of_eq ?_)
      unfold Pipeline.unscopedRest
      exact bigSep_congr fun b hb => by
        rw [show V6 m ρ c b = V5 m ρ c b from W6_of_ne m ρ c b fun w e =>
          (Finset.mem_sdiff.mp hb).2 (Finset.mem_image.mpr ⟨w, Finset.mem_univ _, e⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ (Aouts m ρ))),
    .host (hseg hostOps1_1 hostOps1_1_sub hostOps1_1_fresh (W7 m ρ (Aouts m ρ))),
    .host (hseg hostOps1_2 hostOps1_2_sub hostOps1_2_fresh (W8 m ρ (Aouts m ρ))) ]

theorem main_run (c : Dev nD) : main (F := F) c = Pipeline.Seg.run (segs m ρ) := (main_chain c).trans (by chain_rfl)

set_option backward.isDefEq.respectTransparency.types false in
/-- THE RUN: every weakly fair execution of @main terminates, nothing faulting, and every final state has every
    unscoped buffer of the TensorCore at the fold's final contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ (Aouts m ρ) c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ (Aouts m ρ) c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ (Aouts m ρ) c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ (Aouts m ρ) c) s')
      isplitl [Hh] <;> iassumption)
    (hQ := fun s h c => h c)

/-! ## The arguments end as launched -/

section Args
variable (c : Dev nD)

theorem W5_of_not_written (b : Ref sig .tc)
    (h4 : W5 m ρ c (Proc.devRef .tc b) = W4 m ρ c (Proc.devRef .tc b)) (h3 : W4 m ρ c (Proc.devRef .tc b) = W3 m ρ c (Proc.devRef .tc b))
    (h2 : W3 m ρ c (Proc.devRef .tc b) = W2 m ρ c (Proc.devRef .tc b)) (h1 : W2 m ρ c (Proc.devRef .tc b) = W1 m ρ c (Proc.devRef .tc b))
    (h0 : W1 m ρ c (Proc.devRef .tc b) = W0 m ρ c (Proc.devRef .tc b)) :
    W5 m ρ c (Proc.devRef .tc b) = m ((c : Thread nD τ).loc b) :=
  h4.trans (h3.trans (h2.trans (h1.trans (h0.trans rfl))))

theorem W5_main_arg0 : W5 m ρ c (Proc.devRef .tc main_arg0) = m ((c : Thread nD τ).loc main_arg0) :=
  W5_of_not_written m ρ c main_arg0 (by not_written hostOps0_4) (by not_written hostOps0_3) (by not_written hostOps0_2) (by not_written hostOps0_1) (by not_written hostOps0)
theorem W5_main_arg1 : W5 m ρ c (Proc.devRef .tc main_arg1) = m ((c : Thread nD τ).loc main_arg1) :=
  W5_of_not_written m ρ c main_arg1 (by not_written hostOps0_4) (by not_written hostOps0_3) (by not_written hostOps0_2) (by not_written hostOps0_1) (by not_written hostOps0)
theorem W5_main_arg2 : W5 m ρ c (Proc.devRef .tc main_arg2) = m ((c : Thread nD τ).loc main_arg2) :=
  W5_of_not_written m ρ c main_arg2 (by not_written hostOps0_4) (by not_written hostOps0_3) (by not_written hostOps0_2) (by not_written hostOps0_1) (by not_written hostOps0)
theorem W5_main_arg3 : W5 m ρ c (Proc.devRef .tc main_arg3) = m ((c : Thread nD τ).loc main_arg3) :=
  W5_of_not_written m ρ c main_arg3 (by not_written hostOps0_4) (by not_written hostOps0_3) (by not_written hostOps0_2) (by not_written hostOps0_1) (by not_written hostOps0)
theorem W5_main_arg4 : W5 m ρ c (Proc.devRef .tc main_arg4) = m ((c : Thread nD τ).loc main_arg4) :=
  W5_of_not_written m ρ c main_arg4 (by not_written hostOps0_4) (by not_written hostOps0_3) (by not_written hostOps0_2) (by not_written hostOps0_1) (by not_written hostOps0)

theorem W9_of_W6 (b : Ref sig .tc)
    (h8 : W9 m ρ (Aouts m ρ) c (Proc.devRef .tc b) = W8 m ρ (Aouts m ρ) c (Proc.devRef .tc b))
    (h7 : W8 m ρ (Aouts m ρ) c (Proc.devRef .tc b) = W7 m ρ (Aouts m ρ) c (Proc.devRef .tc b))
    (h6 : W7 m ρ (Aouts m ρ) c (Proc.devRef .tc b) = W6 m ρ (Aouts m ρ) c (Proc.devRef .tc b)) :
    W9 m ρ (Aouts m ρ) c (Proc.devRef .tc b) = W6 m ρ (Aouts m ρ) c (Proc.devRef .tc b) := h8.trans (h7.trans h6)

theorem W9_main_arg0 : W9 m ρ (Aouts m ρ) c (Proc.devRef .tc main_arg0) = m ((c : Thread nD τ).loc main_arg0) :=
  (W9_of_W6 m ρ c main_arg0 (by not_written hostOps1_2) (by not_written hostOps1_1) (by not_written hostOps1)).trans
    ((W6_arr m ρ c 0).trans ((Aouts_in m ρ c 0 rfl).trans (W5_main_arg0 m ρ c)))
theorem W9_main_arg3 : W9 m ρ (Aouts m ρ) c (Proc.devRef .tc main_arg3) = m ((c : Thread nD τ).loc main_arg3) :=
  (W9_of_W6 m ρ c main_arg3 (by not_written hostOps1_2) (by not_written hostOps1_1) (by not_written hostOps1)).trans
    ((W6_arr m ρ c 2).trans ((Aouts_in m ρ c 2 rfl).trans (W5_main_arg3 m ρ c)))
theorem W9_main_arg1 : W9 m ρ (Aouts m ρ) c (Proc.devRef .tc main_arg1) = m ((c : Thread nD τ).loc main_arg1) :=
  (W9_of_W6 m ρ c main_arg1 (by not_written hostOps1_2) (by not_written hostOps1_1) (by not_written hostOps1)).trans
    ((W6_of_ne m ρ c main_arg1 (by decide)).trans (W5_main_arg1 m ρ c))
theorem W9_main_arg2 : W9 m ρ (Aouts m ρ) c (Proc.devRef .tc main_arg2) = m ((c : Thread nD τ).loc main_arg2) :=
  (W9_of_W6 m ρ c main_arg2 (by not_written hostOps1_2) (by not_written hostOps1_1) (by not_written hostOps1)).trans
    ((W6_of_ne m ρ c main_arg2 (by decide)).trans (W5_main_arg2 m ρ c))
theorem W9_main_arg4 : W9 m ρ (Aouts m ρ) c (Proc.devRef .tc main_arg4) = m ((c : Thread nD τ).loc main_arg4) :=
  (W9_of_W6 m ρ c main_arg4 (by not_written hostOps1_2) (by not_written hostOps1_1) (by not_written hostOps1)).trans
    ((W6_of_ne m ρ c main_arg4 (by decide)).trans (W5_main_arg4 m ρ c))

end Args

/-- THE RUN with the result named: the result buffer at the fold's final contents, the five arguments as launched. -/
theorem run_named : θ_run defs (onTc (τ := τ) (main (F := F))) ⟨m, fun _ => 0, ρ⟩ (fun r => ∀ c : Dev nD,
      r.2.mem ((c.tc : Thread nD τ).loc main_v61) = W9 m ρ (Aouts m ρ) c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v61 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run m ρ)

/-- THE FRAME: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Frm

end
-- ==== Proof.Spec.lean ====
/-
  The quantities both programs compute, as plain formulas on the extended reals.

  Data: 2048 nodes, each an interval [L i d, H i d] in each of 16 dimensions, and a 2048 x 2048 target
  matrix Om.  Two scalars carry all the pairwise work:

  * the OVERLAP sum: over every dimension d and every ordered pair i ≠ j the length of the
    intersection of the two intervals, cut at 0, divided by the (clipped) length of interval i;
  * the squared distance between Om and the matrix of summed per-dimension distances |L i d − L j d|,
    each dimension scaled by the (clipped) Frobenius norm of its own distance matrix.

  Each is written twice: in the form one pass over all pairs gives (suffix R), and in the form a sweep over
  4 x 4 tiles of 512 x 512 pairs gives, with the per-dimension norm in closed form (suffix K).
-/
import Idealize.ShloMosaic.PureOps.Ideal
import Idealize.ShloMosaic.PureOps.Ideal.Laws
import Idealize.ShloMosaic.Lib.ValueIdx

noncomputable section

namespace Cert.Spec

open Idealize.ShloMosaic

/-- The clip 1e-10 as the f32 word both programs print. -/
def eps : EReal := Ideal.ofBits .f32 0x2EDBE6FF#32
/-- The f32 words of 4096 and 2. -/
def c4096 : EReal := Ideal.ofBits .f32 0x45800000#32
def c2 : EReal := Ideal.ofBits .f32 0x40000000#32

/-- |x| on the extended reals, as the ideal instance reads absf. -/
def eabs (x : EReal) : EReal := max x (-x)

/-- Row r of tile I: node 512·I + r. -/
def row (I : Fin 4) (r : Fin 512) : Fin 2048 := ⟨512 * I.val + r.val, by have := I.isLt; have := r.isLt; omega⟩

section
variable (L H : Fin 2048 → Fin 16 → EReal) (Om : Fin 2048 → Fin 2048 → EReal)

/-- The clipped length of interval i in dimension d. -/
def gap (i : Fin 2048) (d : Fin 16) : EReal := max (H i d - L i d) eps

/-- The signed overlap of intervals i and j in dimension d. -/
def ovl (d : Fin 16) (i j : Fin 2048) : EReal := min (H i d) (H j d) - max (L i d) (L j d)

/-- 0 on the diagonal, 1 off it. -/
def offd (i j : Fin 2048) : EReal := if i = j then 0 else 1

/-- One pass: cut after masking. -/
def ovTermR (d : Fin 16) (i j : Fin 2048) : EReal := Ideal.div (max (ovl L H d i j * offd i j) 0) (gap L H i d)
/-- Tiled sweep: mask after cutting. -/
def ovTermK (d : Fin 16) (i j : Fin 2048) : EReal := Ideal.div (max (ovl L H d i j) 0 * offd i j) (gap L H i d)

def OVR : EReal := ∑ d : Fin 16, ∑ i : Fin 2048, ∑ j : Fin 2048, ovTermR L H d i j
/-- The overlap mass of tile (I, J). -/
def tileOV (I J : Fin 4) : EReal := ∑ d : Fin 16, ∑ r : Fin 512, ∑ c : Fin 512, ovTermK L H d (row I r) (row J c)
def OVK : EReal := ∑ I : Fin 4, ∑ J : Fin 4, tileOV L H I J

/-- The distance |L i d − L j d|. -/
def dist (d : Fin 16) (i j : Fin 2048) : EReal := eabs (L i d - L j d)

/-- The per-dimension norm, from all pairs. -/
def pnR (d : Fin 16) : EReal := Ideal.sqrt (∑ i : Fin 2048, ∑ j : Fin 2048, dist L d i j * dist L d i j)
/-- The per-dimension norm in closed form: sqrt(max(4096·Σ L² − (2·Σ L)·Σ L, 0)). -/
def pnK (d : Fin 16) : EReal :=
  Ideal.sqrt (max (c4096 * (∑ i : Fin 2048, L i d * L i d) - (c2 * (∑ i : Fin 2048, L i d)) * (∑ i : Fin 2048, L i d)) 0)

/-- The summed scaled distances, for a given family of norms pn. -/
def embSim (pn : Fin 16 → EReal) (i j : Fin 2048) : EReal := ∑ d : Fin 16, Ideal.div (dist L d i j) (max (pn d) eps)

def sqTerm (pn : Fin 16 → EReal) (i j : Fin 2048) : EReal := (Om i j - embSim L pn i j) * (Om i j - embSim L pn i j)

def SQR : EReal := ∑ i : Fin 2048, ∑ j : Fin 2048, sqTerm L Om (pnR L) i j
def tileSQ (pn : Fin 16 → EReal) (I J : Fin 4) : EReal := ∑ r : Fin 512, ∑ c : Fin 512, sqTerm L Om pn (row I r) (row J c)
def SQK : EReal := ∑ I : Fin 4, ∑ J : Fin 4, tileSQ L Om (pnK L) I J

end

/-! ## One tile, from the two blocks of 512 nodes it pairs -/

section Blocks
variable (Lr Hr Lc Hc : Fin 512 → Fin 16 → EReal) (msk Om : Fin 512 → Fin 512 → EReal) (pn : Fin 16 → EReal)

/-- Row node r against column node c in dimension d: the cut overlap, masked, over row r's clipped length. -/
def blkOvTerm (d : Fin 16) (r c : Fin 512) : EReal :=
  Ideal.div (max (min (Hr r d) (Hc c d) - max (Lr r d) (Lc c d)) 0 * msk r c) (max (Hr r d - Lr r d) eps)
/-- The overlap mass of the tile. -/
def blkOV : EReal := ∑ d : Fin 16, ∑ r : Fin 512, ∑ c : Fin 512, blkOvTerm Lr Hr Lc Hc msk d r c
/-- The summed scaled distances of row node r and column node c. -/
def blkSim (r c : Fin 512) : EReal := ∑ d : Fin 16, Ideal.div (eabs (Lr r d - Lc c d)) (max (pn d) eps)
/-- The squared distance between the tile of Om and the tile of summed scaled distances. -/
def blkSQ : EReal := ∑ r : Fin 512, ∑ c : Fin 512, (Om r c - blkSim Lr Lc pn r c) * (Om r c - blkSim Lr Lc pn r c)

end Blocks

/-! ## The arrays as the programs hold them, read as the functions above -/

open ValueIdx in
/-- Lower ends: columns 0..15 of the [2048, 32] array. -/
def lo (A : (⟨2, ![2048, 32]⟩ : Shape).Idx → EReal) (i : Fin 2048) (d : Fin 16) : EReal :=
  A (ix2 i (⟨d.val, by have := d.isLt; omega⟩ : Fin 32))
open ValueIdx in
/-- Upper ends: columns 16..31. -/
def hi (A : (⟨2, ![2048, 32]⟩ : Shape).Idx → EReal) (i : Fin 2048) (d : Fin 16) : EReal :=
  A (ix2 i (⟨16 + d.val, by have := d.isLt; omega⟩ : Fin 32))
open ValueIdx in
/-- The target matrix. -/
def mat (A : (⟨2, ![2048, 2048]⟩ : Shape).Idx → EReal) (i j : Fin 2048) : EReal := A (ix2 i j)
open ValueIdx in
/-- A block of 512 nodes: lower and upper ends. -/
def blo (x : (⟨2, ![512, 32]⟩ : Shape).Idx → EReal) (r : Fin 512) (d : Fin 16) : EReal :=
  x (ix2 r (⟨d.val, by have := d.isLt; omega⟩ : Fin 32))
open ValueIdx in
def bhi (x : (⟨2, ![512, 32]⟩ : Shape).Idx → EReal) (r : Fin 512) (d : Fin 16) : EReal :=
  x (ix2 r (⟨16 + d.val, by have := d.isLt; omega⟩ : Fin 32))
open ValueIdx in
/-- A 512 x 512 tile of the target matrix. -/
def bmat (x : (⟨2, ![512, 512]⟩ : Shape).Idx → EReal) (r c : Fin 512) : EReal := x (ix2 r c)
open ValueIdx in
/-- The sixteen per-dimension norms as the [1, 16] row the kernel is handed. -/
def bvec (x : (⟨2, ![1, 16]⟩ : Shape).Idx → EReal) (d : Fin 16) : EReal := x (ix2 (0 : Fin 1) d)

/-- Tile (I, J)'s mask: 0 where the row node is the column node. -/
def tileMask (I J : Fin 4) (r c : Fin 512) : EReal := offd (row I r) (row J c)

/-- The same mask from the tile's two block numbers as naturals: 0 where 512·a + r = 512·b + c. -/
def blkMask (a b : ℕ) (r c : Fin 512) : EReal := if 512 * a + r.val = 512 * b + c.val then 0 else 1

/-- The loss from its five parts — similarity, extra, exceed, overlap, positive — with the weights 1, 5, 2, 9, 6 as
    the f32 words both programs print, added in the printed order. -/
def total (s e x o p : EReal) : EReal :=
  Ideal.ofBits .f32 0x3F800000#32 * s + Ideal.ofBits .f32 0x40A00000#32 * e + Ideal.ofBits .f32 0x40000000#32 * x
    + Ideal.ofBits .f32 0x41100000#32 * o + Ideal.ofBits .f32 0x40C00000#32 * p

end Cert.Spec

end
-- ==== Proof.KI_HostPre.lean ====
/-
  The kernel program's host operations before the region, read back at the ideal instance: no host operation
  writes an argument, so the arguments reach the region as launched; and the [1, 16] row of per-dimension norms
  the region is handed is, entry by entry, the closed form sqrt(max(4096·Σ L² − (2·Σ L)·Σ L, 0)).
-/
import proofs.«121037_j56049323213613_1_alg».proof.Proof.KI_Fold
import proofs.«121037_j56049323213613_1_alg».proof.Proof.Spec
import proofs.«121037_j56049323213613_1_alg».proof.Proof.Gen.ReferenceIdeal.Read
import Idealize.ShloMosaic.Lib.StableHlo.Run

noncomputable section

namespace Cert.KernelIdeal.HostVal

open Idealize.ShloMosaic Idealize.ShloMosaic.TcCoe Idealize.SL.Sem Cert.KernelIdeal Cert.KernelIdeal.Gen
open Idealize.ShloMosaic.ValueIdx

/-- A buffer that no operation of a stretch writes is, after the stretch, what it was before. -/
syntax "not_written " ident : tactic
macro_rules
  | `(tactic| not_written $ops:ident) =>
    `(tactic| exact StableHlo.after_of_forall_not_mem _ _ (List.forall_iff_forall_mem.mp (by
        simp only [$ops:ident, List.Forall, StableHlo.nullary_writes, StableHlo.unary_writes, StableHlo.binary_writes,
          StableHlo.reshape_writes, Finset.mem_singleton]
        repeat' apply And.intro
        all_goals exact StableHlo.devRef_ne_of_ne (by decide))))

/-- A sum down the rows of a [2048, 16] array, started from the zero word, read at column d. -/
theorem colSum_apply (y : FVec Ideal S2048x16 .f32) (d : Fin 16) :
    Host.reduceAdd (F := Ideal) y (constant S_ .f32 0x00000000#32) reducesTo_S2048x16_S16_d0 h_S_ (ix1 d) = ∑ i : Fin 2048, y (ix2 i d) := by
  simp only [Host.reduceAdd, Ideal.hostReduceAdd_def]
  rw [Ideal.hostReduceAdd_single reducesTo_S2048x16_S16_d0 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- Columns 0..15 of the node array are the lower ends. -/
theorem sliceLo_apply (x0 : FVec Ideal S2048x32 .f32) (i : Fin 2048) (d : Fin 16) :
    extractStridedSlice S2048x16 ![0, 0] x0 slices_S2048x32_S2048x16_0_0 (ix2 i d) = Cert.Spec.lo x0 i d := by
  unfold Cert.Spec.lo
  exact extractStridedSlice_apply ![0, 0] x0 slices_S2048x32_S2048x16_0_0 (ix2 i d) _ (fun a => match a with
    | ⟨0, _⟩ => by show i.val = 0 + i.val; omega
    | ⟨1, _⟩ => by show d.val = 0 + d.val; omega)

/-- The square root of a [16] vector reads entry by entry. -/
theorem sqrt16_apply (x : FVec Ideal S16 .f32) (i : S16.Idx) : Host.sqrt (F := Ideal) x i = Ideal.sqrt (x i) := rfl

/-- The [1, 16] row of per-dimension norms as the host operations before the region compose it from the node array:
    with L the lower ends, sqrt(max(4096·Σ L·L − (2·Σ L)·Σ L, 0)), the sums down the 2048 rows. -/
def pnRow (x0 : FVec Ideal S2048x32 .f32) : FVec Ideal S1x16 .f32 :=
  shapeCast S1x16 (Host.sqrt (F := Ideal) (maximumf (subf
      (mulf (broadcastInDim S16 ![] bcast_S_S16 (constant S_ .f32 0x45800000#32))
        (Host.reduceAdd (mulf (extractStridedSlice S2048x16 ![0, 0] x0 slices_S2048x32_S2048x16_0_0)
            (extractStridedSlice S2048x16 ![0, 0] x0 slices_S2048x32_S2048x16_0_0))
          (constant S_ .f32 0x00000000#32) reducesTo_S2048x16_S16_d0 h_S_))
      (mulf (mulf (broadcastInDim S16 ![] bcast_S_S16 (constant S_ .f32 0x40000000#32))
          (Host.reduceAdd (extractStridedSlice S2048x16 ![0, 0] x0 slices_S2048x32_S2048x16_0_0)
            (constant S_ .f32 0x00000000#32) reducesTo_S2048x16_S16_d0 h_S_))
        (Host.reduceAdd (extractStridedSlice S2048x16 ![0, 0] x0 slices_S2048x32_S2048x16_0_0)
          (constant S_ .f32 0x00000000#32) reducesTo_S2048x16_S16_d0 h_S_)))
    (broadcastInDim S16 ![] bcast_S_S16 (constant S_ .f32 0x00000000#32)))) shapeCasts_S16_S1x16

/-- Entry d of the row is the closed form of dimension d's norm. -/
theorem pnRow_apply (x0 : FVec Ideal S2048x32 .f32) (d : Fin 16) :
    pnRow x0 (ix2 (0 : Fin 1) d) = Cert.Spec.pnK (Cert.Spec.lo x0) d := by
  unfold pnRow
  refine (shapeCast_addUnit_apply ![16] _ shapeCasts_S16_S1x16 (ix2 (0 : Fin 1) d)).trans ?_
  have hix : (fun a : Fin 1 => (ix2 (0 : Fin 1) d) a.succ) = ix1 d := funext fun a => by
    match a with | ⟨0, _⟩ => rfl
  rw [hix]
  simp only [sqrt16_apply, maximumf_apply, subf_apply, mulf_apply, colSum_apply, sliceLo_apply]
  show Ideal.sqrt (max (Ideal.ofBits .f32 0x45800000#32 * (∑ i, Cert.Spec.lo x0 i d * Cert.Spec.lo x0 i d)
      - (Ideal.ofBits .f32 0x40000000#32 * ∑ i, Cert.Spec.lo x0 i d) * ∑ i, Cert.Spec.lo x0 i d)
    (Ideal.ofBits .f32 0x00000000#32)) = _
  rw [Ideal.ofBits_zero_f32]
  rfl

variable (m : (ℓ : Loc nD τ sig) → Buf (Elt Ideal) ℓ) (ρ : Dev nD → PrngReg) (c : Dev nD)

/-- The buffer the region's fourth window stages holds that row of the launched node array. -/
theorem W5_v30 : Fold.W5 m ρ c (Proc.devRef .tc main_v30) = pnRow (m ((c.tc : Thread nD τ).loc main_arg0)) := by
  show StableHlo.after hostOps0_4 (StableHlo.after hostOps0_3 (StableHlo.after hostOps0_2 (StableHlo.after hostOps0_1
    (StableHlo.after hostOps0 (Fold.W0 m ρ c))))) (Proc.devRef .tc main_v30) = _
  after_results_simp
  rfl

/-- Read at (0, d) it is dimension d's norm in closed form. -/
theorem W5_v30_apply (d : Fin 16) :
    (Fold.W5 m ρ c (Proc.devRef .tc main_v30)) (ValueIdx.ix2 (0 : Fin 1) d)
      = Cert.Spec.pnK (Cert.Spec.lo (m ((c.tc : Thread nD τ).loc main_arg0))) d := by
  rw [W5_v30]; exact pnRow_apply _ d

/-- The node array reaches the region as launched. -/
theorem W5_arg0 : Fold.W5 m ρ c (Proc.devRef .tc main_arg0) = m ((c.tc : Thread nD τ).loc main_arg0) :=
  calc Fold.W5 m ρ c (Proc.devRef .tc main_arg0)
    _ = Fold.W4 m ρ c (Proc.devRef .tc main_arg0) := by not_written hostOps0_4
    _ = Fold.W3 m ρ c (Proc.devRef .tc main_arg0) := by not_written hostOps0_3
    _ = Fold.W2 m ρ c (Proc.devRef .tc main_arg0) := by not_written hostOps0_2
    _ = Fold.W1 m ρ c (Proc.devRef .tc main_arg0) := by not_written hostOps0_1
    _ = Fold.W0 m ρ c (Proc.devRef .tc main_arg0) := by not_written hostOps0
    _ = m ((c.tc : Thread nD τ).loc main_arg0) := rfl

/-- The target matrix reaches the region as launched. -/
theorem W5_arg3 : Fold.W5 m ρ c (Proc.devRef .tc main_arg3) = m ((c.tc : Thread nD τ).loc main_arg3) :=
  calc Fold.W5 m ρ c (Proc.devRef .tc main_arg3)
    _ = Fold.W4 m ρ c (Proc.devRef .tc main_arg3) := by not_written hostOps0_4
    _ = Fold.W3 m ρ c (Proc.devRef .tc main_arg3) := by not_written hostOps0_3
    _ = Fold.W2 m ρ c (Proc.devRef .tc main_arg3) := by not_written hostOps0_2
    _ = Fold.W1 m ρ c (Proc.devRef .tc main_arg3) := by not_written hostOps0_1
    _ = Fold.W0 m ρ c (Proc.devRef .tc main_arg3) := by not_written hostOps0
    _ = m ((c.tc : Thread nD τ).loc main_arg3) := rfl

end Cert.KernelIdeal.HostVal
end
-- ==== Proof.KI_HostTail.lean ====
/-
  The kernel program's host operations after the region, read back at the ideal instance.  The lines that
  compute the loss's "exceed", "extra" and "positive" parts are the reference's own operations with the same
  literals, so each of them is the reference's stage of the launched arguments; the returned scalar is the
  weighted sum of those, of the region's first output and of the square root of its second.  The reference's
  own result is the same weighted sum of its five parts.  No host operation writes an argument.
-/
import proofs.«121037_j56049323213613_1_alg».proof.Proof.KI_HostPre

noncomputable section

namespace Cert.KernelIdeal.HostVal

open Idealize.ShloMosaic Idealize.ShloMosaic.TcCoe Idealize.SL.Sem Cert.KernelIdeal Cert.KernelIdeal.Gen
open Idealize.ShloMosaic.ValueIdx

open Cert.ReferenceIdeal.Read in
/-- The reference's loss is the weighted sum of its five parts. -/
theorem ref_v93 (A0 : (⟨Cert.ReferenceIdeal.S2048x32, .f32⟩ : BufTy).Contents (Elt Ideal))
    (A1 A2 : (⟨Cert.ReferenceIdeal.S16, .f32⟩ : BufTy).Contents (Elt Ideal))
    (A3 : (⟨Cert.ReferenceIdeal.S2048x2048, .f32⟩ : BufTy).Contents (Elt Ideal))
    (A4 : (⟨Cert.ReferenceIdeal.S2048x1, .f32⟩ : BufTy).Contents (Elt Ideal)) :
    val_main_v93 (F := Ideal) A0 A1 A2 A3 A4 = fun _ => Cert.Spec.total (val_main_v66 (F := Ideal) A0 A3 ValueIdx.ix0)
      (val_main_v79 (F := Ideal) A0 A1 A2 A4 ValueIdx.ix0) (val_main_v17 (F := Ideal) A0 A1 A2 ValueIdx.ix0)
      (val_main_v49 (F := Ideal) A0 ValueIdx.ix0) (val_main_v84 (F := Ideal) A0 ValueIdx.ix0) := by
  funext i
  obtain rfl : i = ix0 := eq_ix0 i
  simp only [val_main_v93_apply, val_main_v92_apply, val_main_v91_apply, val_main_v90_apply, val_main_v89_apply,
    val_main_v88_apply, val_main_v87_apply, val_main_v86_apply, val_main_v85_apply, val_main_cst_17_apply,
    val_main_cst_18_apply, val_main_cst_19_apply, val_main_cst_20_apply, val_main_cst_21_apply]
  rfl

variable (m : (ℓ : Loc nD τ sig) → Buf (Elt Ideal) ℓ) (ρ : Dev nD → PrngReg) (c : Dev nD) (A : Fold.Outs (F := Ideal))

/-- The interval lengths H − L as the host operations before the region leave them: the reference's own stage. -/
theorem W5_v2 : Fold.W5 m ρ c (Proc.devRef .tc main_v2)
    = Cert.ReferenceIdeal.Read.val_main_v2 (F := Ideal) (m ((c.tc : Thread nD τ).loc main_arg0)) := by
  show StableHlo.after hostOps0_4 (StableHlo.after hostOps0_3 (StableHlo.after hostOps0_2 (StableHlo.after hostOps0_1
    (StableHlo.after hostOps0 (Fold.W0 m ρ c))))) (Proc.devRef .tc main_v2) = _
  after_results_simp
  rfl

/-- The loss's "exceed" part as the host operations before the region leave it: the reference's own stage. -/
theorem W5_v17 : Fold.W5 m ρ c (Proc.devRef .tc main_v17)
    = Cert.ReferenceIdeal.Read.val_main_v17 (F := Ideal) (m ((c.tc : Thread nD τ).loc main_arg0))
        (m ((c.tc : Thread nD τ).loc main_arg1)) (m ((c.tc : Thread nD τ).loc main_arg2)) := by
  show StableHlo.after hostOps0_4 (StableHlo.after hostOps0_3 (StableHlo.after hostOps0_2 (StableHlo.after hostOps0_1
    (StableHlo.after hostOps0 (Fold.W0 m ρ c))))) (Proc.devRef .tc main_v17) = _
  after_results_simp
  rfl

/-- No host operation before the region writes argument 1. -/
theorem W5_arg1 : Fold.W5 m ρ c (Proc.devRef .tc main_arg1) = m ((c.tc : Thread nD τ).loc main_arg1) :=
  calc Fold.W5 m ρ c (Proc.devRef .tc main_arg1)
    _ = Fold.W4 m ρ c (Proc.devRef .tc main_arg1) := by not_written hostOps0_4
    _ = Fold.W3 m ρ c (Proc.devRef .tc main_arg1) := by not_written hostOps0_3
    _ = Fold.W2 m ρ c (Proc.devRef .tc main_arg1) := by not_written hostOps0_2
    _ = Fold.W1 m ρ c (Proc.devRef .tc main_arg1) := by not_written hostOps0_1
    _ = Fold.W0 m ρ c (Proc.devRef .tc main_arg1) := by not_written hostOps0
    _ = m ((c.tc : Thread nD τ).loc main_arg1) := rfl

/-- No host operation before the region writes argument 2. -/
theorem W5_arg2 : Fold.W5 m ρ c (Proc.devRef .tc main_arg2) = m ((c.tc : Thread nD τ).loc main_arg2) :=
  calc Fold.W5 m ρ c (Proc.devRef .tc main_arg2)
    _ = Fold.W4 m ρ c (Proc.devRef .tc main_arg2) := by not_written hostOps0_4
    _ = Fold.W3 m ρ c (Proc.devRef .tc main_arg2) := by not_written hostOps0_3
    _ = Fold.W2 m ρ c (Proc.devRef .tc main_arg2) := by not_written hostOps0_2
    _ = Fold.W1 m ρ c (Proc.devRef .tc main_arg2) := by not_written hostOps0_1
    _ = Fold.W0 m ρ c (Proc.devRef .tc main_arg2) := by not_written hostOps0
    _ = m ((c.tc : Thread nD τ).loc main_arg2) := rfl

/-- No host operation before the region writes argument 4. -/
theorem W5_arg4 : Fold.W5 m ρ c (Proc.devRef .tc main_arg4) = m ((c.tc : Thread nD τ).loc main_arg4) :=
  calc Fold.W5 m ρ c (Proc.devRef .tc main_arg4)
    _ = Fold.W4 m ρ c (Proc.devRef .tc main_arg4) := by not_written hostOps0_4
    _ = Fold.W3 m ρ c (Proc.devRef .tc main_arg4) := by not_written hostOps0_3
    _ = Fold.W2 m ρ c (Proc.devRef .tc main_arg4) := by not_written hostOps0_2
    _ = Fold.W1 m ρ c (Proc.devRef .tc main_arg4) := by not_written hostOps0_1
    _ = Fold.W0 m ρ c (Proc.devRef .tc main_arg4) := by not_written hostOps0
    _ = m ((c.tc : Thread nD τ).loc main_arg4) := rfl

/-- The region stages argument 1 in no window: it leaves it as it found it. -/
theorem W6_arg1 : Fold.W6 m ρ A c (Proc.devRef .tc main_arg1) = Fold.W5 m ρ c (Proc.devRef .tc main_arg1) := by
  unfold Fold.W6; exact Pipeline.withArrays_of_ne spec0 c _ _ main_arg1 (by decide)

/-- The region stages argument 2 in no window: it leaves it as it found it. -/
theorem W6_arg2 : Fold.W6 m ρ A c (Proc.devRef .tc main_arg2) = Fold.W5 m ρ c (Proc.devRef .tc main_arg2) := by
  unfold Fold.W6; exact Pipeline.withArrays_of_ne spec0 c _ _ main_arg2 (by decide)

/-- The region stages argument 4 in no window: it leaves it as it found it. -/
theorem W6_arg4 : Fold.W6 m ρ A c (Proc.devRef .tc main_arg4) = Fold.W5 m ρ c (Proc.devRef .tc main_arg4) := by
  unfold Fold.W6; exact Pipeline.withArrays_of_ne spec0 c _ _ main_arg4 (by decide)

/-- The region stages the interval lengths in no window. -/
theorem W6_v2 : Fold.W6 m ρ A c (Proc.devRef .tc main_v2) = Fold.W5 m ρ c (Proc.devRef .tc main_v2) := by
  unfold Fold.W6; exact Pipeline.withArrays_of_ne spec0 c _ _ main_v2 (by decide)

/-- The region stages the "exceed" part in no window. -/
theorem W6_v17 : Fold.W6 m ρ A c (Proc.devRef .tc main_v17) = Fold.W5 m ρ c (Proc.devRef .tc main_v17) := by
  unfold Fold.W6; exact Pipeline.withArrays_of_ne spec0 c _ _ main_v17 (by decide)

/-- Argument 1 ends as launched: no window of the region stages it and no host operation writes it. -/
theorem W9_arg1 : Fold.W9 m ρ A c (Proc.devRef .tc main_arg1) = m ((c.tc : Thread nD τ).loc main_arg1) :=
  calc Fold.W9 m ρ A c (Proc.devRef .tc main_arg1)
    _ = Fold.W8 m ρ A c (Proc.devRef .tc main_arg1) := by not_written hostOps1_2
    _ = Fold.W7 m ρ A c (Proc.devRef .tc main_arg1) := by not_written hostOps1_1
    _ = Fold.W6 m ρ A c (Proc.devRef .tc main_arg1) := by not_written hostOps1
    _ = Fold.W5 m ρ c (Proc.devRef .tc main_arg1) := W6_arg1 m ρ c A
    _ = m ((c.tc : Thread nD τ).loc main_arg1) := W5_arg1 m ρ c

/-- Argument 2 ends as launched: no window of the region stages it and no host operation writes it. -/
theorem W9_arg2 : Fold.W9 m ρ A c (Proc.devRef .tc main_arg2) = m ((c.tc : Thread nD τ).loc main_arg2) :=
  calc Fold.W9 m ρ A c (Proc.devRef .tc main_arg2)
    _ = Fold.W8 m ρ A c (Proc.devRef .tc main_arg2) := by not_written hostOps1_2
    _ = Fold.W7 m ρ A c (Proc.devRef .tc main_arg2) := by not_written hostOps1_1
    _ = Fold.W6 m ρ A c (Proc.devRef .tc main_arg2) := by not_written hostOps1
    _ = Fold.W5 m ρ c (Proc.devRef .tc main_arg2) := W6_arg2 m ρ c A
    _ = m ((c.tc : Thread nD τ).loc main_arg2) := W5_arg2 m ρ c

/-- Argument 4 ends as launched: no window of the region stages it and no host operation writes it. -/
theorem W9_arg4 : Fold.W9 m ρ A c (Proc.devRef .tc main_arg4) = m ((c.tc : Thread nD τ).loc main_arg4) :=
  calc Fold.W9 m ρ A c (Proc.devRef .tc main_arg4)
    _ = Fold.W8 m ρ A c (Proc.devRef .tc main_arg4) := by not_written hostOps1_2
    _ = Fold.W7 m ρ A c (Proc.devRef .tc main_arg4) := by not_written hostOps1_1
    _ = Fold.W6 m ρ A c (Proc.devRef .tc main_arg4) := by not_written hostOps1
    _ = Fold.W5 m ρ c (Proc.devRef .tc main_arg4) := W6_arg4 m ρ c A
    _ = m ((c.tc : Thread nD τ).loc main_arg4) := W5_arg4 m ρ c

/-- After the region no host operation writes argument 0: it ends as the region left it. -/
theorem W9_arg0 : Fold.W9 m ρ A c (Proc.devRef .tc main_arg0) = Fold.W6 m ρ A c (Proc.devRef .tc main_arg0) :=
  calc Fold.W9 m ρ A c (Proc.devRef .tc main_arg0)
    _ = Fold.W8 m ρ A c (Proc.devRef .tc main_arg0) := by not_written hostOps1_2
    _ = Fold.W7 m ρ A c (Proc.devRef .tc main_arg0) := by not_written hostOps1_1
    _ = Fold.W6 m ρ A c (Proc.devRef .tc main_arg0) := by not_written hostOps1

/-- After the region no host operation writes argument 3: it ends as the region left it. -/
theorem W9_arg3 : Fold.W9 m ρ A c (Proc.devRef .tc main_arg3) = Fold.W6 m ρ A c (Proc.devRef .tc main_arg3) :=
  calc Fold.W9 m ρ A c (Proc.devRef .tc main_arg3)
    _ = Fold.W8 m ρ A c (Proc.devRef .tc main_arg3) := by not_written hostOps1_2
    _ = Fold.W7 m ρ A c (Proc.devRef .tc main_arg3) := by not_written hostOps1_1
    _ = Fold.W6 m ρ A c (Proc.devRef .tc main_arg3) := by not_written hostOps1

/-- A weighted sum of five scalars with the printed weights, in the printed order, is `total` of the five. -/
theorem total_eq (X1 X5 X2 X9 X6 : FVec Ideal S_ .f32) (s e x o p : EReal)
    (h1 : X1 ix0 = s) (h5 : X5 ix0 = e) (h2 : X2 ix0 = x) (h9 : X9 ix0 = o) (h6 : X6 ix0 = p) :
    addf (addf (addf (addf (mulf (constant S_ .f32 0x3F800000#32) X1) (mulf (constant S_ .f32 0x40A00000#32) X5))
        (mulf (constant S_ .f32 0x40000000#32) X2)) (mulf (constant S_ .f32 0x41100000#32) X9))
      (mulf (constant S_ .f32 0x40C00000#32) X6) = fun _ => Cert.Spec.total s e x o p := by
  funext i
  obtain rfl : i = ix0 := eq_ix0 i
  subst h1 h5 h2 h9 h6
  rfl

/-- A [1, 1] array cast to a scalar reads its one entry. -/
theorem cast11_apply (x : FVec Ideal S1x1 .f32) :
    shapeCast S_ x shapeCasts_S1x1_S_ ix0 = x (ix2 (0 : Fin 1) (0 : Fin 1)) :=
  shapeCast_apply x shapeCasts_S1x1_S_ ix0 (ix2 (0 : Fin 1) (0 : Fin 1)) (by decide)

/-- The returned loss: the weighted sum of the square root of the region's second output, the reference's "extra" and
    "exceed" parts, the region's first output, and the reference's "positive" part. -/
theorem W9_v61 : Fold.W9 m ρ A c (Proc.devRef .tc main_v61) = fun _ => Cert.Spec.total
      (Ideal.sqrt ((Fold.W6 m ρ A c (Proc.devRef .tc main_v31_1)) (ValueIdx.ix2 (0 : Fin 1) (0 : Fin 1))))
      (Cert.ReferenceIdeal.Read.val_main_v79 (F := Ideal) (m ((c.tc : Thread nD τ).loc main_arg0))
        (m ((c.tc : Thread nD τ).loc main_arg1)) (m ((c.tc : Thread nD τ).loc main_arg2))
        (m ((c.tc : Thread nD τ).loc main_arg4)) ValueIdx.ix0)
      (Cert.ReferenceIdeal.Read.val_main_v17 (F := Ideal) (m ((c.tc : Thread nD τ).loc main_arg0))
        (m ((c.tc : Thread nD τ).loc main_arg1)) (m ((c.tc : Thread nD τ).loc main_arg2)) ValueIdx.ix0)
      ((Fold.W6 m ρ A c (Proc.devRef .tc main_v31_0)) (ValueIdx.ix2 (0 : Fin 1) (0 : Fin 1)))
      (Cert.ReferenceIdeal.Read.val_main_v84 (F := Ideal) (m ((c.tc : Thread nD τ).loc main_arg0)) ValueIdx.ix0) := by
  show StableHlo.after hostOps1_2 (StableHlo.after hostOps1_1 (StableHlo.after hostOps1 (Fold.W6 m ρ A c)))
    (Proc.devRef .tc main_v61) = _
  after_results_simp
  rw [W6_v2, W6_v17, W6_arg1, W6_arg2, W6_arg4, W5_v2, W5_v17, W5_arg1, W5_arg2, W5_arg4]
  refine total_eq _ _ _ _ _ _ _ _ _ _ ?_ ?_ ?_ ?_ ?_
  · exact congrArg Ideal.sqrt (cast11_apply _)
  · rfl
  · rfl
  · exact cast11_apply _
  · rfl

end Cert.KernelIdeal.HostVal
end
-- ==== Proof.KI_ArrAt.lean ====
/-
  What the region's write-backs leave in the two accumulator arrays.

  Each accumulator is a [1, 1] array whose one block, at index (0, 0) at every grid point, is the whole array, and it is
  written back once, at the last of the sixteen points.  The array's contents after all the write-backs are therefore
  what that one write-back writes, which is what the body left in the accumulator after the last point: the block's
  offsets are zero and its sizes are the array's, so reading the block of some contents gives those contents, and the
  one block covers every index.
-/
import proofs.«121037_j56049323213613_1_alg».proof.Proof.KI_Frame
import Idealize.ShloMosaic.Lib.Pipeline.Value

set_option maxRecDepth 16384

noncomputable section

namespace Cert.KernelIdeal.ArrAt

open Idealize.ShloMosaic Idealize.ShloMosaic.TcCoe
open Idealize.SL Idealize.SL.Sem
open Idealize.ShloMosaic.Pipeline (Dat Cfg Window)
open Cert.KernelIdeal Cert.KernelIdeal.Gen Cert.KernelIdeal.Frm

variable {F : FTy → Type} [FloatOps F]

variable (V : (c : Dev nD) → (b : Ref sig .tc) → Buf (Elt F) ((c : Thread nD τ).loc b))

/-- The last grid point. -/
theorem h15 : 15 < cfg0.N := lt_of_lt_of_eq (by decide : 15 < 16) (show cfg0.N = 16 from N_0).symm

/-- The point that writes an accumulator back is the last. -/
theorem eq_last_of_flush4 (t : Fin cfg0.N) (hf : (cfg0.win 4).flush t = true) : t = ⟨15, h15⟩ := by
  have hN : t.val < 16 := lt_of_lt_of_eq t.isLt (show cfg0.N = 16 from N_0)
  have := (flush0_4 t).mp hf
  exact Fin.ext (by show t.val = 15; omega)
theorem eq_last_of_flush5 (t : Fin cfg0.N) (hf : (cfg0.win 5).flush t = true) : t = ⟨15, h15⟩ := by
  have hN : t.val < 16 := lt_of_lt_of_eq t.isLt (show cfg0.N = 16 from N_0)
  have := (flush0_5 t).mp hf
  exact Fin.ext (by show t.val = 15; omega)

/-- An accumulator's block starts at the origin of its [1, 1] array at every grid point. -/
theorem off4 (t : Fin cfg0.N) : (fun a : Fin 2 => win0_4.index t a * main_v31_0.ty.shape.size a) = fun _ => 0 :=
  funext fun a => by match a with | ⟨0, _⟩ => rfl | ⟨1, _⟩ => rfl
theorem off5 (t : Fin cfg0.N) : (fun a : Fin 2 => win0_5.index t a * main_v31_1.ty.shape.size a) = fun _ => 0 :=
  funext fun a => by match a with | ⟨0, _⟩ => rfl | ⟨1, _⟩ => rfl

/-- The one write-back of window 4 writes what the body left after the last point: the block is the whole array. -/
theorem flushed_4 (c : Dev nD) (t : Fin cfg0.N) (hf : (cfg0.win 4).flush t = true) :
    (dat0 V c).flushed 4 t = ((cfg0.win 4).blk t).view.read (Elt F) (outsAt V c 15 h15).1 := by
  obtain rfl := eq_last_of_flush4 t hf
  show (cfg0.win 4).cut (grid0.coords ⟨15, h15⟩) ((dat0 V c).after 4 ⟨15, h15⟩) = _
  rw [after_4]
  show (outsAt V c 15 h15).1 = _
  generalize (outsAt V c 15 h15).1 = X
  exact (Memref.read_access_unit_zero (Elt F) main_v31_0 (off4 ⟨15, h15⟩) _ X).symm

theorem flushed_5 (c : Dev nD) (t : Fin cfg0.N) (hf : (cfg0.win 5).flush t = true) :
    (dat0 V c).flushed 5 t = ((cfg0.win 5).blk t).view.read (Elt F) (outsAt V c 15 h15).2 := by
  obtain rfl := eq_last_of_flush5 t hf
  show (cfg0.win 5).cut (grid0.coords ⟨15, h15⟩) ((dat0 V c).after 5 ⟨15, h15⟩) = _
  rw [after_5]
  show (outsAt V c 15 h15).2 = _
  generalize (outsAt V c 15 h15).2 = X
  exact (Memref.read_access_unit_zero (Elt F) main_v31_1 (off5 ⟨15, h15⟩) _ X).symm

/-- So the first accumulator's array ends holding what the body left after the last point. -/
theorem arrAt_4 (c : Dev nD) : (dat0 V c).arrAt 4 cfg0.N = (outsAt V c 15 h15).1 :=
  (dat0 V c).arrAt_eq_of_cover 4 _ (flushed_4 V c) fun i =>
    ⟨⟨15, h15⟩, (flush0_4 _).mpr rfl, by
      show i ∈ ((View.whole main_v31_0).slice (win0_4.rect ⟨15, h15⟩)).set
      rw [View.set_slice_whole]
      exact View.mem_set_unit_zero (off4 ⟨15, h15⟩) _ i⟩

/-- And the second's likewise. -/
theorem arrAt_5 (c : Dev nD) : (dat0 V c).arrAt 5 cfg0.N = (outsAt V c 15 h15).2 :=
  (dat0 V c).arrAt_eq_of_cover 5 _ (flushed_5 V c) fun i =>
    ⟨⟨15, h15⟩, (flush0_5 _).mpr rfl, by
      show i ∈ ((View.whole main_v31_1).slice (win0_5.rect ⟨15, h15⟩)).set
      rw [View.set_slice_whole]
      exact View.mem_set_unit_zero (off5 ⟨15, h15⟩) _ i⟩

end Cert.KernelIdeal.ArrAt

end
-- ==== Proof.KI_BodyFn.lean ====
/-
  What one run of the kernel body leaves in its two one-element accumulators, as pure functions of the
  blocks it loads: the printed body's arithmetic is the chain of the generated skeleton's named payloads; here the chain is
  composed once.  acc6 is the overlap accumulator, acc7 the squared-distance accumulator; d is what the
  accumulator held when the body read it back (zero at the first grid point, the running sum afterwards).
-/
import proofs.«121037_j56049323213613_1_alg».proof.Proof.Gen.KernelIdeal.Skeleton

noncomputable section

namespace Cert.KernelIdeal.Body

open Idealize.ShloMosaic Idealize.SL.Sem Cert.KernelIdeal Cert.KernelIdeal.Gen

variable {F : FTy → Type} [FloatOps F]

/-- The zero word the body's scalar constants are. -/
abbrev z32 : F .f32 := Scalar.ofBits .f32 0x00000000#32

/-- The running overlap partial sum after the last of the sixteen dimensions, before it is added to the accumulator. -/
def ovAcc (i : grid0.Coords) (x2 x3 : Vec F S512x32 .f32) : FVec F S1x1 .f32 :=
  let v7 := k0_pay3 x2; let v8 := k0_pay4 x2; let v23 := k0_pay6 (F := F) i; let v26 := k0_pay7 x2
  let v27 := k0_pay8 x3; let v28 := k0_pay9 x3
  let v84 := k0_pay17 v7 v8 v23 v26 v27 v28 (k0_pay10 (F := F)) (k0_pay14 x2 x3) z32
  let v116 := k0_pay21 v7 v8 v23 v26 v27 v28 v84
  let v147 := k0_pay25 v7 v8 v23 v26 v27 v28
  let v180 := k0_pay28 v7 v8 v23 v26 v27 v28 v116 v147
  let v201 := k0_pay32 v7 v8 v27 v28
  let v244 := k0_pay35 v7 v8 v23 v26 v27 v28 v180 v201 z32
  let v276 := k0_pay39 v7 v8 v23 v26 v27 v28 v244
  let v307 := k0_pay43 v7 v8 v23 v26 v27 v28
  let v340 := k0_pay46 v7 v8 v23 v26 v27 v28 v276 v307
  let v361 := k0_pay50 v7 v8 v27 v28
  let v404 := k0_pay53 v7 v8 v23 v26 v27 v28 v340 v361 z32
  let v436 := k0_pay57 v7 v8 v23 v26 v27 v28 v404
  let v467 := k0_pay61 v7 v8 v23 v26 v27 v28
  k0_pay64 v7 v8 v23 v26 v27 v28 v436 v467

/-- What the body stores into the overlap accumulator, having read d back from it. -/
def acc6 (i : grid0.Coords) (x2 x3 : Vec F S512x32 .f32) (d : Vec F S1x1 .f32) : FVec F S1x1 .f32 :=
  k0_pay69 (k0_pay6 (F := F) i) (k0_pay7 x2) (ovAcc i x2 x3) (k0_pay68 (k0_pay3 x2) (k0_pay4 x2) (k0_pay8 x3) (k0_pay9 x3)) z32 d

/-- The running tile of summed scaled distances after fifteen dimensions, with the last dimension's column and row. -/
def simTile (x2 x3 : Vec F S512x32 .f32) (x5 : Vec F S1x16 .f32) :
    FVec F S512x512 .f32 × FVec F S512x1 .f32 × FVec F S1x512 .f32 :=
  let v7 := k0_pay3 x2; let v12 := k0_pay5 x5; let v27 := k0_pay8 x3
  let v94 := k0_pay18 v7 v12 v27 (k0_pay11 (F := F)) (k0_pay12 x2) (k0_pay13 x3)
  let v126 := k0_pay22 v7 v12 v27 v94
  let v190 := k0_pay29 v7 v12 v27 v126 (k0_pay23 v7) (k0_pay24 v27)
  let v254 := k0_pay36 v7 v12 v27 v190 (k0_pay30 v7) (k0_pay31 v27)
  let v286 := k0_pay40 v7 v12 v27 v254
  let v350 := k0_pay47 v7 v12 v27 v286 (k0_pay41 v7) (k0_pay42 v27)
  let v414 := k0_pay54 v7 v12 v27 v350 (k0_pay48 v7) (k0_pay49 v27)
  let v446 := k0_pay58 v7 v12 v27 v414
  (k0_pay65 v7 v12 v27 v446 (k0_pay59 v7) (k0_pay60 v27), k0_pay66 v7, k0_pay67 v27)

/-- What the body stores into the squared-distance accumulator, having read d back from it. -/
def acc7 (x2 x3 : Vec F S512x32 .f32) (x4 : Vec F S512x512 .f32) (x5 : Vec F S1x16 .f32) (d : Vec F S1x1 .f32) : FVec F S1x1 .f32 :=
  k0_pay70 (k0_pay5 x5) (simTile x2 x3 x5).1 (simTile x2 x3 x5).2.1 (simTile x2 x3 x5).2.2 x4 d

end Cert.KernelIdeal.Body

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.KI_BodyOv1.lean ====
/-
  What one run of the kernel body adds to the overlap accumulator, at the ideal instance (floats are extended
  reals, operations exact).  This module holds the general readings: the two lane sums of a 512 x 512 tile as a
  double sum, the cut overlap tile and its masked, divided form read at a pair (r, c), the off-diagonal mask of a
  tile read at a pair, and the blocks' halves read at a node and a dimension.
-/
import proofs.«121037_j56049323213613_1_alg».proof.Proof.KI_BodyFn
import proofs.«121037_j56049323213613_1_alg».proof.Proof.Spec
import proofs.«121037_j56049323213613_1_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyVal

open Idealize.ShloMosaic Idealize.ShloMosaic.ValueIdx Idealize.SL.Sem Cert.KernelIdeal Cert.KernelIdeal.Gen
open scoped BigOperators

/-! ## The two lane sums of a tile -/

/-- On the extended reals, the vector unit's sum over the rows of an `[a, b]` matrix is, at column `q`, the sum
    of that column's `a` entries. -/
theorem OvColSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src ?_
  funext c; apply Fin.ext
  match c with
  | ⟨0, _⟩ => rfl
  | ⟨1, _⟩ => rfl

/-- A tile summed along its columns, kept as a column, then along its rows, kept as one element. -/
def OvSum (t : FVec Ideal S512x512 .f32) : FVec Ideal S1x1 .f32 :=
  shapeCast S1x1 (multiReduction .add [0] S1 (shapeCast S512x1 (multiReduction .add [1] S512 t 0x00000000#32 reduces_S512x512_S512 (.inl rfl) rfl) shapeCasts_S512_S512x1) 0x00000000#32 reduces_S512x1_S1 (.inl rfl) rfl) shapeCasts_S1_S1x1

/-- The one element is the double sum over the tile. -/
theorem OvSum_apply (t : FVec Ideal S512x512 .f32) (j : S1x1.Idx) :
    OvSum t j = ∑ r : Fin 512, ∑ c : Fin 512, t (ix2 r c) := by
  obtain ⟨u, v, rfl⟩ : ∃ (u : Fin 1) (v : Fin 1), j = ix2 u v := ⟨j 0, j 1, eq_ix2 j⟩
  unfold OvSum
  refine (Cert.LibRowForms.shapeCast_a_a1_apply _ _ u v).trans ?_
  refine (OvColSum_apply _ _ _ _ _ u).trans ?_
  refine Finset.sum_congr rfl fun r _ => ?_
  refine (Cert.LibRowForms.shapeCast_a_a1_apply _ _ r u).trans ?_
  exact Cert.LibRowForms.laneSum_apply t _ _ _ _ r

/-! ## The overlap tile of one dimension -/

/-- The signed overlap tile: the row block's upper column against the column block's upper row (the smaller), minus
    the lower column against the lower row (the larger). -/
def OvCut (lo hi : FVec Ideal S512x1 .f32) (loT hiT : FVec Ideal S1x512 .f32) : FVec Ideal S512x512 .f32 :=
  subf (minimumf (broadcastTo S512x512 hi broadcasts_S512x1_S512x512) (broadcastTo S512x512 hiT broadcasts_S1x512_S512x512))
    (maximumf (broadcastTo S512x512 lo broadcasts_S512x1_S512x512) (broadcastTo S512x512 loT broadcasts_S1x512_S512x512))

theorem OvCut_apply (lo hi : FVec Ideal S512x1 .f32) (loT hiT : FVec Ideal S1x512 .f32) (r c : Fin 512) :
    OvCut lo hi loT hiT (ix2 r c)
      = min (hi (ix2 r (0 : Fin 1))) (hiT (ix2 (0 : Fin 1) c)) - max (lo (ix2 r (0 : Fin 1))) (loT (ix2 (0 : Fin 1) c)) := by
  unfold OvCut
  rw [subf_apply, minimumf_apply, maximumf_apply, Cert.LibRowForms.broadcastTo_a1_ab_apply, Cert.LibRowForms.broadcastTo_a1_ab_apply,
    broadcastTo_1b_ab_apply, broadcastTo_1b_ab_apply]

/-- The tile cut at `z`, masked, divided by the gap column. -/
def OvFin (cut msk : FVec Ideal S512x512 .f32) (z : Ideal .f32) (gap : FVec Ideal S512x1 .f32) : FVec Ideal S512x512 .f32 :=
  divf (mulf (maximumf cut (broadcast S512x512 z)) msk) (broadcastTo S512x512 gap broadcasts_S512x1_S512x512)

theorem OvFin_apply (cut msk : FVec Ideal S512x512 .f32) (z : Ideal .f32) (gap : FVec Ideal S512x1 .f32) (r c : Fin 512) :
    OvFin cut msk z gap (ix2 r c) = Ideal.div (max (cut (ix2 r c)) z * msk (ix2 r c)) (gap (ix2 r (0 : Fin 1))) := by
  unfold OvFin
  rw [divf_apply, mulf_apply, maximumf_apply, broadcast_apply, Cert.LibRowForms.broadcastTo_a1_ab_apply]

/-- Column `o` of a `[512, 16]` array, read at row `r`. -/
theorem OvCol_apply (o : ℕ) (v : FVec Ideal S512x16 .f32) (h : S512x16.Slices ![0, o] S512x1) (r : Fin 512) (k : Fin 16)
    (hk : k.val = o) : extractStridedSlice S512x1 ![0, o] v h (ix2 r (0 : Fin 1)) = v (ix2 r k) :=
  slice2_axis1_apply o v h r 0 k (by rw [hk]; rfl)

/-- Row `o` of a `[16, 512]` array, read at column `c`. -/
theorem OvRow_apply (o : ℕ) (v : FVec Ideal S16x512 .f32) (h : S16x512.Slices ![o, 0] S1x512) (c : Fin 512) (k : Fin 16)
    (hk : k.val = o) : extractStridedSlice S1x512 ![o, 0] v h (ix2 (0 : Fin 1) c) = v (ix2 k c) :=
  slice2_axis0_apply o v h 0 c k (by rw [hk]; rfl)

/-! ## The off-diagonal mask of a tile -/

/-- Two 32-bit words compared for inequality, widened and converted: 0 when the numbers they hold agree, 1 otherwise. -/
theorem OvMaskWord (x y : BitVec 32) (m n : ℕ) (hx : x.toNat = m) (hy : y.toNat = n) :
    (FloatOps.sitofp (F := Ideal) .f32 (BitVec.setWidth 32 (IntOp.cmpi .ne x y)) : EReal) = if m = n then 0 else 1 := by
  subst hx hy
  by_cases h : x = y
  · subst h
    rw [if_pos rfl]
    have e : IntOp.cmpi .ne x x = 0#1 := by simp [IntOp.cmpi]
    rw [e]
    show (((BitVec.setWidth 32 0#1).toInt : ℝ) : EReal) = 0
    have e2 : (BitVec.setWidth 32 0#1).toInt = 0 := by decide
    rw [e2]; simp
  · have hne : x.toNat ≠ y.toNat := fun e => h (BitVec.eq_of_toNat_eq e)
    rw [if_neg hne]
    have hb : (x != y) = true := bne_iff_ne.mpr h
    have e : IntOp.cmpi .ne x y = 1#1 := by
      show BitVec.ofBool (x != y) = 1#1
      rw [hb]; rfl
    rw [e]
    show (((BitVec.setWidth 32 1#1).toInt : ℝ) : EReal) = 1
    have e2 : (BitVec.setWidth 32 1#1).toInt = 1 := by decide
    rw [e2]; simp

/-- The mask of the tile at grid coordinates `i`, read at the pair (r, c): 0 where node 512·i₀ + r is node 512·i₁ + c
    (no product or sum wraps in 32 bits: the coordinates are below 4). -/
theorem OvMask_apply (i : grid0.Coords) (r c : Fin 512) :
    k0_pay6 (F := Ideal) i (ix2 r c) = Cert.Spec.blkMask (i 0).val (i 1).val r c := by
  have h0 : (i 0).val < 4 := (i 0).isLt
  have h1 : (i 1).val < 4 := (i 1).isLt
  have hr : r.val < 512 := r.isLt
  have hc : c.val < 512 := c.isLt
  unfold k0_pay6 Cert.Spec.blkMask
  simp only [sitofp_apply, extui_apply]
  refine OvMaskWord _ _ _ _ ?_ ?_
  · show (BitVec.ofNat 32 (i 0).val * 512#32 + BitVec.ofNat 32 (0 * 512 + r.val)).toNat = _
    simp only [BitVec.toNat_add, BitVec.toNat_mul, BitVec.toNat_ofNat]
    omega
  · show (BitVec.ofNat 32 (i 1).val * 512#32 + BitVec.ofNat 32 (0 * 512 + c.val)).toNat = _
    simp only [BitVec.toNat_add, BitVec.toNat_mul, BitVec.toNat_ofNat]
    omega

/-! ## The blocks' halves read at a node and a dimension -/

/-- The zero word is the number 0. -/
theorem OvZero : (Scalar.ofBits .f32 0x00000000#32 : Ideal .f32) = 0 := Ideal.ofBits_zero_f32

theorem OvLo_apply (x : Vec Ideal S512x32 .f32) (r : Fin 512) (k : Fin 16) :
    k0_pay3 (F := Ideal) x (ix2 r k) = Cert.Spec.blo x r k := by
  unfold k0_pay3 Cert.Spec.blo
  exact slice2_axis1_apply 0 x _ r k _ (Nat.zero_add _).symm

theorem OvHi_apply (x : Vec Ideal S512x32 .f32) (r : Fin 512) (k : Fin 16) :
    k0_pay4 (F := Ideal) x (ix2 r k) = Cert.Spec.bhi x r k := by
  unfold k0_pay4 Cert.Spec.bhi
  exact slice2_axis1_apply 16 x _ r k _ rfl

/-- The clipped length of row node r's interval in dimension k. -/
theorem OvGap_apply (x : Vec Ideal S512x32 .f32) (r : Fin 512) (k : Fin 16) :
    k0_pay7 (F := Ideal) x (ix2 r k) = max (Cert.Spec.bhi x r k - Cert.Spec.blo x r k) Cert.Spec.eps := by
  unfold k0_pay7
  rw [maximumf_apply, subf_apply, broadcast_apply, OvHi_apply, OvLo_apply]
  rfl

/-- The column block's lower half, transposed, at (k, c). -/
theorem OvLoT_apply (x : Vec Ideal S512x32 .f32) (k : Fin 16) (c : Fin 512) :
    k0_pay8 (F := Ideal) x (ix2 k c) = Cert.Spec.blo x c k := by
  unfold k0_pay8 Cert.Spec.blo
  refine (transpose_ix2_apply _ _ k c).trans ?_
  exact slice2_axis1_apply 0 x _ c k _ (Nat.zero_add _).symm

theorem OvHiT_apply (x : Vec Ideal S512x32 .f32) (k : Fin 16) (c : Fin 512) :
    k0_pay9 (F := Ideal) x (ix2 k c) = Cert.Spec.bhi x c k := by
  unfold k0_pay9 Cert.Spec.bhi
  refine (transpose_ix2_apply _ _ k c).trans ?_
  exact slice2_axis1_apply 16 x _ c k _ rfl

/-! ## One dimension's summed term -/

/-- Dimension k's masked, cut, divided overlap summed over the tile, from the six arrays the body holds. -/
def OvDim (v7 v8 : FVec Ideal S512x16 .f32) (v23 : FVec Ideal S512x512 .f32) (v26 : FVec Ideal S512x16 .f32)
    (v27 v28 : FVec Ideal S16x512 .f32) (k : Fin 16) : EReal :=
  ∑ r : Fin 512, ∑ c : Fin 512,
    Ideal.div (max (min (v8 (ix2 r k)) (v28 (ix2 k c)) - max (v7 (ix2 r k)) (v27 (ix2 k c))) 0 * v23 (ix2 r c)) (v26 (ix2 r k))

/-- The body's operations for dimension `o` — columns `o` of the three `[512, 16]` arrays, rows `o` of the two transposed
    ones, the cut tile, the cut at zero, the mask, the division, the two lane sums — give that term. -/
theorem OvDim_of_cut (o : ℕ) (h1 : S512x16.Slices ![0, o] S512x1) (h2 : S16x512.Slices ![o, 0] S1x512) (k : Fin 16) (hk : k.val = o)
    (v7 v8 : FVec Ideal S512x16 .f32) (v23 : FVec Ideal S512x512 .f32) (v26 : FVec Ideal S512x16 .f32)
    (v27 v28 : FVec Ideal S16x512 .f32) (cut : FVec Ideal S512x512 .f32)
    (hcut : cut = OvCut (extractStridedSlice S512x1 ![0, o] v7 h1) (extractStridedSlice S512x1 ![0, o] v8 h1)
      (extractStridedSlice S1x512 ![o, 0] v27 h2) (extractStridedSlice S1x512 ![o, 0] v28 h2))
    (z : Ideal .f32) (hz : z = 0) (j : S1x1.Idx) :
    OvSum (OvFin cut v23 z (extractStridedSlice S512x1 ![0, o] v26 h1)) j = OvDim v7 v8 v23 v26 v27 v28 k := by
  subst hcut hz
  rw [OvSum_apply]; unfold OvDim
  refine Finset.sum_congr rfl fun r _ => Finset.sum_congr rfl fun c _ => ?_
  rw [OvFin_apply, OvCut_apply, OvCol_apply o v7 h1 r k hk, OvCol_apply o v8 h1 r k hk, OvCol_apply o v26 h1 r k hk,
    OvRow_apply o v27 h2 c k hk, OvRow_apply o v28 h2 c k hk]

/-- With the body's own six arrays — the two blocks' halves, the tile's mask, the clipped gap — dimension k's term is the
    tile's sum of the specification's term. -/
theorem OvDim_body (i : grid0.Coords) (x2 x3 : Vec Ideal S512x32 .f32) (k : Fin 16) :
    OvDim (k0_pay3 x2) (k0_pay4 x2) (k0_pay6 (F := Ideal) i) (k0_pay7 x2) (k0_pay8 x3) (k0_pay9 x3) k
      = ∑ r : Fin 512, ∑ c : Fin 512, Cert.Spec.blkOvTerm (Cert.Spec.blo x2) (Cert.Spec.bhi x2) (Cert.Spec.blo x3) (Cert.Spec.bhi x3)
          (Cert.Spec.blkMask (i 0).val (i 1).val) k r c := by
  unfold OvDim Cert.Spec.blkOvTerm
  refine Finset.sum_congr rfl fun r _ => Finset.sum_congr rfl fun c _ => ?_
  rw [OvLo_apply, OvHi_apply, OvGap_apply, OvLoT_apply, OvHiT_apply, OvMask_apply]

end Cert.KernelIdeal.BodyVal

end
-- ==== Proof.KI_BodyOv.lean ====
/-
  The kernel body's overlap accumulator at the ideal instance: each of the body's payloads that carries the running
  partial sum is read as "what it was handed, plus the summed term of the dimensions it holds", and the chain of the
  sixteen dimensions is the specification's tile sum added to what the accumulator held.
-/
import proofs.«121037_j56049323213613_1_alg».proof.Proof.KI_BodyOv1

noncomputable section

namespace Cert.KernelIdeal.BodyVal

open Idealize.ShloMosaic Idealize.ShloMosaic.ValueIdx Idealize.SL.Sem Cert.KernelIdeal Cert.KernelIdeal.Gen
open scoped BigOperators

/-- All of one dimension's operations, from the six arrays: the cut tile, the cut at `z`, the mask, the division, the two
    lane sums. -/
def OvDimOps (o : ℕ) (h1 : S512x16.Slices ![0, o] S512x1) (h2 : S16x512.Slices ![o, 0] S1x512)
    (v7 v8 : FVec Ideal S512x16 .f32) (v23 : FVec Ideal S512x512 .f32) (v26 : FVec Ideal S512x16 .f32) (v27 v28 : FVec Ideal S16x512 .f32) (z : Ideal .f32) : FVec Ideal S1x1 .f32 :=
  OvSum (OvFin (OvCut (extractStridedSlice S512x1 ![0, o] v7 h1) (extractStridedSlice S512x1 ![0, o] v8 h1)
      (extractStridedSlice S1x512 ![o, 0] v27 h2) (extractStridedSlice S1x512 ![o, 0] v28 h2)) v23 z
    (extractStridedSlice S512x1 ![0, o] v26 h1))

theorem OvDimOps_apply (o : ℕ) (h1 : S512x16.Slices ![0, o] S512x1) (h2 : S16x512.Slices ![o, 0] S1x512) (k : Fin 16) (hk : k.val = o)
    (v7 v8 : FVec Ideal S512x16 .f32) (v23 : FVec Ideal S512x512 .f32) (v26 : FVec Ideal S512x16 .f32) (v27 v28 : FVec Ideal S16x512 .f32) (z : Ideal .f32) (hz : z = 0) (j : S1x1.Idx) :
    OvDimOps o h1 h2 v7 v8 v23 v26 v27 v28 z j = OvDim v7 v8 v23 v26 v27 v28 k :=
  OvDim_of_cut o h1 h2 k hk v7 v8 v23 v26 v27 v28 _ rfl z hz j

/-! ## The payloads that hold a whole dimension -/

theorem Ov_pay25 (v7 v8 : FVec Ideal S512x16 .f32) (v23 : FVec Ideal S512x512 .f32) (v26 : FVec Ideal S512x16 .f32) (v27 v28 : FVec Ideal S16x512 .f32) (j : S1x1.Idx) :
    k0_pay25 (F := Ideal) v7 v8 v23 v26 v27 v28 j = OvDim v7 v8 v23 v26 v27 v28 3 := by
  have e : k0_pay25 (F := Ideal) v7 v8 v23 v26 v27 v28 = (OvDimOps 3 slices_S512x16_o0_3_S512x1 slices_S16x512_o3_0_S1x512 v7 v8 v23 v26 v27 v28 (Scalar.ofBits .f32 0x00000000#32)) := rfl
  rw [e, OvDimOps_apply 3 _ _ 3 rfl _ _ _ _ _ _ _ OvZero]

theorem Ov_pay43 (v7 v8 : FVec Ideal S512x16 .f32) (v23 : FVec Ideal S512x512 .f32) (v26 : FVec Ideal S512x16 .f32) (v27 v28 : FVec Ideal S16x512 .f32) (j : S1x1.Idx) :
    k0_pay43 (F := Ideal) v7 v8 v23 v26 v27 v28 j = OvDim v7 v8 v23 v26 v27 v28 8 := by
  have e : k0_pay43 (F := Ideal) v7 v8 v23 v26 v27 v28 = (OvDimOps 8 slices_S512x16_o0_8_S512x1 slices_S16x512_o8_0_S1x512 v7 v8 v23 v26 v27 v28 (Scalar.ofBits .f32 0x00000000#32)) := rfl
  rw [e, OvDimOps_apply 8 _ _ 8 rfl _ _ _ _ _ _ _ OvZero]

theorem Ov_pay61 (v7 v8 : FVec Ideal S512x16 .f32) (v23 : FVec Ideal S512x512 .f32) (v26 : FVec Ideal S512x16 .f32) (v27 v28 : FVec Ideal S16x512 .f32) (j : S1x1.Idx) :
    k0_pay61 (F := Ideal) v7 v8 v23 v26 v27 v28 j = OvDim v7 v8 v23 v26 v27 v28 13 := by
  have e : k0_pay61 (F := Ideal) v7 v8 v23 v26 v27 v28 = (OvDimOps 13 slices_S512x16_o0_13_S512x1 slices_S16x512_o13_0_S1x512 v7 v8 v23 v26 v27 v28 (Scalar.ofBits .f32 0x00000000#32)) := rfl
  rw [e, OvDimOps_apply 13 _ _ 13 rfl _ _ _ _ _ _ _ OvZero]

theorem Ov_pay21 (v7 v8 : FVec Ideal S512x16 .f32) (v23 : FVec Ideal S512x512 .f32) (v26 : FVec Ideal S512x16 .f32) (v27 v28 : FVec Ideal S16x512 .f32) (p : FVec Ideal S1x1 .f32) (j : S1x1.Idx) :
    k0_pay21 (F := Ideal) v7 v8 v23 v26 v27 v28 p j = p j + OvDim v7 v8 v23 v26 v27 v28 2 := by
  have e : k0_pay21 (F := Ideal) v7 v8 v23 v26 v27 v28 p = addf p (OvDimOps 2 slices_S512x16_o0_2_S512x1 slices_S16x512_o2_0_S1x512 v7 v8 v23 v26 v27 v28 (Scalar.ofBits .f32 0x00000000#32)) := rfl
  rw [e, addf_apply, OvDimOps_apply 2 _ _ 2 rfl _ _ _ _ _ _ _ OvZero]

theorem Ov_pay39 (v7 v8 : FVec Ideal S512x16 .f32) (v23 : FVec Ideal S512x512 .f32) (v26 : FVec Ideal S512x16 .f32) (v27 v28 : FVec Ideal S16x512 .f32) (p : FVec Ideal S1x1 .f32) (j : S1x1.Idx) :
    k0_pay39 (F := Ideal) v7 v8 v23 v26 v27 v28 p j = p j + OvDim v7 v8 v23 v26 v27 v28 7 := by
  have e : k0_pay39 (F := Ideal) v7 v8 v23 v26 v27 v28 p = addf p (OvDimOps 7 slices_S512x16_o0_7_S512x1 slices_S16x512_o7_0_S1x512 v7 v8 v23 v26 v27 v28 (Scalar.ofBits .f32 0x00000000#32)) := rfl
  rw [e, addf_apply, OvDimOps_apply 7 _ _ 7 rfl _ _ _ _ _ _ _ OvZero]

theorem Ov_pay57 (v7 v8 : FVec Ideal S512x16 .f32) (v23 : FVec Ideal S512x512 .f32) (v26 : FVec Ideal S512x16 .f32) (v27 v28 : FVec Ideal S16x512 .f32) (p : FVec Ideal S1x1 .f32) (j : S1x1.Idx) :
    k0_pay57 (F := Ideal) v7 v8 v23 v26 v27 v28 p j = p j + OvDim v7 v8 v23 v26 v27 v28 12 := by
  have e : k0_pay57 (F := Ideal) v7 v8 v23 v26 v27 v28 p = addf p (OvDimOps 12 slices_S512x16_o0_12_S512x1 slices_S16x512_o12_0_S1x512 v7 v8 v23 v26 v27 v28 (Scalar.ofBits .f32 0x00000000#32)) := rfl
  rw [e, addf_apply, OvDimOps_apply 12 _ _ 12 rfl _ _ _ _ _ _ _ OvZero]

theorem Ov_pay28 (v7 v8 : FVec Ideal S512x16 .f32) (v23 : FVec Ideal S512x512 .f32) (v26 : FVec Ideal S512x16 .f32) (v27 v28 : FVec Ideal S16x512 .f32) (p q : FVec Ideal S1x1 .f32) (j : S1x1.Idx) :
    k0_pay28 (F := Ideal) v7 v8 v23 v26 v27 v28 p q j = p j + q j + OvDim v7 v8 v23 v26 v27 v28 4 := by
  have e : k0_pay28 (F := Ideal) v7 v8 v23 v26 v27 v28 p q = addf (addf p q) (OvDimOps 4 slices_S512x16_o0_4_S512x1 slices_S16x512_o4_0_S1x512 v7 v8 v23 v26 v27 v28 (Scalar.ofBits .f32 0x00000000#32)) := rfl
  rw [e, addf_apply, addf_apply, OvDimOps_apply 4 _ _ 4 rfl _ _ _ _ _ _ _ OvZero]

theorem Ov_pay46 (v7 v8 : FVec Ideal S512x16 .f32) (v23 : FVec Ideal S512x512 .f32) (v26 : FVec Ideal S512x16 .f32) (v27 v28 : FVec Ideal S16x512 .f32) (p q : FVec Ideal S1x1 .f32) (j : S1x1.Idx) :
    k0_pay46 (F := Ideal) v7 v8 v23 v26 v27 v28 p q j = p j + q j + OvDim v7 v8 v23 v26 v27 v28 9 := by
  have e : k0_pay46 (F := Ideal) v7 v8 v23 v26 v27 v28 p q = addf (addf p q) (OvDimOps 9 slices_S512x16_o0_9_S512x1 slices_S16x512_o9_0_S1x512 v7 v8 v23 v26 v27 v28 (Scalar.ofBits .f32 0x00000000#32)) := rfl
  rw [e, addf_apply, addf_apply, OvDimOps_apply 9 _ _ 9 rfl _ _ _ _ _ _ _ OvZero]

theorem Ov_pay64 (v7 v8 : FVec Ideal S512x16 .f32) (v23 : FVec Ideal S512x512 .f32) (v26 : FVec Ideal S512x16 .f32) (v27 v28 : FVec Ideal S16x512 .f32) (p q : FVec Ideal S1x1 .f32) (j : S1x1.Idx) :
    k0_pay64 (F := Ideal) v7 v8 v23 v26 v27 v28 p q j = p j + q j + OvDim v7 v8 v23 v26 v27 v28 14 := by
  have e : k0_pay64 (F := Ideal) v7 v8 v23 v26 v27 v28 p q = addf (addf p q) (OvDimOps 14 slices_S512x16_o0_14_S512x1 slices_S16x512_o14_0_S1x512 v7 v8 v23 v26 v27 v28 (Scalar.ofBits .f32 0x00000000#32)) := rfl
  rw [e, addf_apply, addf_apply, OvDimOps_apply 14 _ _ 14 rfl _ _ _ _ _ _ _ OvZero]

/-! ## The dimensions cut over two payloads: the signed overlap tile in one, the rest in the next -/

theorem Ov_pay14 (x2 x3 : Vec Ideal S512x32 .f32) :
    k0_pay14 (F := Ideal) x2 x3 = OvCut (extractStridedSlice S512x1 ![0, 0] (k0_pay3 x2) slices_S512x16_o0_0_S512x1) (extractStridedSlice S512x1 ![0, 0] (k0_pay4 x2) slices_S512x16_o0_0_S512x1) (extractStridedSlice S1x512 ![0, 0] (k0_pay8 x3) slices_S16x512_o0_0_S1x512) (extractStridedSlice S1x512 ![0, 0] (k0_pay9 x3) slices_S16x512_o0_0_S1x512) := rfl

theorem Ov_pay32 (v7 v8 : FVec Ideal S512x16 .f32) (v27 v28 : FVec Ideal S16x512 .f32) :
    k0_pay32 (F := Ideal) v7 v8 v27 v28 = OvCut (extractStridedSlice S512x1 ![0, 5] v7 slices_S512x16_o0_5_S512x1) (extractStridedSlice S512x1 ![0, 5] v8 slices_S512x16_o0_5_S512x1) (extractStridedSlice S1x512 ![5, 0] v27 slices_S16x512_o5_0_S1x512) (extractStridedSlice S1x512 ![5, 0] v28 slices_S16x512_o5_0_S1x512) := rfl

theorem Ov_pay50 (v7 v8 : FVec Ideal S512x16 .f32) (v27 v28 : FVec Ideal S16x512 .f32) :
    k0_pay50 (F := Ideal) v7 v8 v27 v28 = OvCut (extractStridedSlice S512x1 ![0, 10] v7 slices_S512x16_o0_10_S512x1) (extractStridedSlice S512x1 ![0, 10] v8 slices_S512x16_o0_10_S512x1) (extractStridedSlice S1x512 ![10, 0] v27 slices_S16x512_o10_0_S1x512) (extractStridedSlice S1x512 ![10, 0] v28 slices_S16x512_o10_0_S1x512) := rfl

theorem Ov_pay68 (v7 v8 : FVec Ideal S512x16 .f32) (v27 v28 : FVec Ideal S16x512 .f32) :
    k0_pay68 (F := Ideal) v7 v8 v27 v28 = OvCut (extractStridedSlice S512x1 ![0, 15] v7 slices_S512x16_o0_15_S512x1) (extractStridedSlice S512x1 ![0, 15] v8 slices_S512x16_o0_15_S512x1) (extractStridedSlice S1x512 ![15, 0] v27 slices_S16x512_o15_0_S1x512) (extractStridedSlice S1x512 ![15, 0] v28 slices_S16x512_o15_0_S1x512) := rfl

theorem Ov_pay17 (v7 v8 : FVec Ideal S512x16 .f32) (v23 : FVec Ideal S512x512 .f32) (v26 : FVec Ideal S512x16 .f32) (v27 v28 : FVec Ideal S16x512 .f32) (p : FVec Ideal S1x1 .f32) (cut : FVec Ideal S512x512 .f32) (z : Ideal .f32)
    (hcut : cut = OvCut (extractStridedSlice S512x1 ![0, 0] v7 slices_S512x16_o0_0_S512x1) (extractStridedSlice S512x1 ![0, 0] v8 slices_S512x16_o0_0_S512x1) (extractStridedSlice S1x512 ![0, 0] v27 slices_S16x512_o0_0_S1x512) (extractStridedSlice S1x512 ![0, 0] v28 slices_S16x512_o0_0_S1x512)) (hz : z = 0) (j : S1x1.Idx) :
    k0_pay17 (F := Ideal) v7 v8 v23 v26 v27 v28 p cut z j = p j + OvDim v7 v8 v23 v26 v27 v28 0 + OvDim v7 v8 v23 v26 v27 v28 1 := by
  have e : k0_pay17 (F := Ideal) v7 v8 v23 v26 v27 v28 p cut z
      = addf (addf p (OvSum (OvFin cut v23 z (extractStridedSlice S512x1 ![0, 0] v26 slices_S512x16_o0_0_S512x1)))) (OvDimOps 1 slices_S512x16_o0_1_S512x1 slices_S16x512_o1_0_S1x512 v7 v8 v23 v26 v27 v28 (Scalar.ofBits .f32 0x00000000#32)) := rfl
  rw [e, addf_apply, addf_apply, OvDim_of_cut 0 _ _ 0 rfl v7 v8 v23 v26 v27 v28 cut hcut z hz, OvDimOps_apply 1 _ _ 1 rfl _ _ _ _ _ _ _ OvZero]

theorem Ov_pay35 (v7 v8 : FVec Ideal S512x16 .f32) (v23 : FVec Ideal S512x512 .f32) (v26 : FVec Ideal S512x16 .f32) (v27 v28 : FVec Ideal S16x512 .f32) (p : FVec Ideal S1x1 .f32) (cut : FVec Ideal S512x512 .f32) (z : Ideal .f32)
    (hcut : cut = OvCut (extractStridedSlice S512x1 ![0, 5] v7 slices_S512x16_o0_5_S512x1) (extractStridedSlice S512x1 ![0, 5] v8 slices_S512x16_o0_5_S512x1) (extractStridedSlice S1x512 ![5, 0] v27 slices_S16x512_o5_0_S1x512) (extractStridedSlice S1x512 ![5, 0] v28 slices_S16x512_o5_0_S1x512)) (hz : z = 0) (j : S1x1.Idx) :
    k0_pay35 (F := Ideal) v7 v8 v23 v26 v27 v28 p cut z j = p j + OvDim v7 v8 v23 v26 v27 v28 5 + OvDim v7 v8 v23 v26 v27 v28 6 := by
  have e : k0_pay35 (F := Ideal) v7 v8 v23 v26 v27 v28 p cut z
      = addf (addf p (OvSum (OvFin cut v23 z (extractStridedSlice S512x1 ![0, 5] v26 slices_S512x16_o0_5_S512x1)))) (OvDimOps 6 slices_S512x16_o0_6_S512x1 slices_S16x512_o6_0_S1x512 v7 v8 v23 v26 v27 v28 (Scalar.ofBits .f32 0x00000000#32)) := rfl
  rw [e, addf_apply, addf_apply, OvDim_of_cut 5 _ _ 5 rfl v7 v8 v23 v26 v27 v28 cut hcut z hz, OvDimOps_apply 6 _ _ 6 rfl _ _ _ _ _ _ _ OvZero]

theorem Ov_pay53 (v7 v8 : FVec Ideal S512x16 .f32) (v23 : FVec Ideal S512x512 .f32) (v26 : FVec Ideal S512x16 .f32) (v27 v28 : FVec Ideal S16x512 .f32) (p : FVec Ideal S1x1 .f32) (cut : FVec Ideal S512x512 .f32) (z : Ideal .f32)
    (hcut : cut = OvCut (extractStridedSlice S512x1 ![0, 10] v7 slices_S512x16_o0_10_S512x1) (extractStridedSlice S512x1 ![0, 10] v8 slices_S512x16_o0_10_S512x1) (extractStridedSlice S1x512 ![10, 0] v27 slices_S16x512_o10_0_S1x512) (extractStridedSlice S1x512 ![10, 0] v28 slices_S16x512_o10_0_S1x512)) (hz : z = 0) (j : S1x1.Idx) :
    k0_pay53 (F := Ideal) v7 v8 v23 v26 v27 v28 p cut z j = p j + OvDim v7 v8 v23 v26 v27 v28 10 + OvDim v7 v8 v23 v26 v27 v28 11 := by
  have e : k0_pay53 (F := Ideal) v7 v8 v23 v26 v27 v28 p cut z
      = addf (addf p (OvSum (OvFin cut v23 z (extractStridedSlice S512x1 ![0, 10] v26 slices_S512x16_o0_10_S512x1)))) (OvDimOps 11 slices_S512x16_o0_11_S512x1 slices_S16x512_o11_0_S1x512 v7 v8 v23 v26 v27 v28 (Scalar.ofBits .f32 0x00000000#32)) := rfl
  rw [e, addf_apply, addf_apply, OvDim_of_cut 10 _ _ 10 rfl v7 v8 v23 v26 v27 v28 cut hcut z hz, OvDimOps_apply 11 _ _ 11 rfl _ _ _ _ _ _ _ OvZero]

/-- The last payload: the last dimension's rest, added to the partial sum, added to what the accumulator held. -/
theorem Ov_pay69 (v7 v8 : FVec Ideal S512x16 .f32) (v23 : FVec Ideal S512x512 .f32) (v26 : FVec Ideal S512x16 .f32) (v27 v28 : FVec Ideal S16x512 .f32) (p : FVec Ideal S1x1 .f32) (cut : FVec Ideal S512x512 .f32) (z : Ideal .f32) (d : Vec Ideal S1x1 .f32)
    (hcut : cut = OvCut (extractStridedSlice S512x1 ![0, 15] v7 slices_S512x16_o0_15_S512x1) (extractStridedSlice S512x1 ![0, 15] v8 slices_S512x16_o0_15_S512x1) (extractStridedSlice S1x512 ![15, 0] v27 slices_S16x512_o15_0_S1x512) (extractStridedSlice S1x512 ![15, 0] v28 slices_S16x512_o15_0_S1x512)) (hz : z = 0) (j : S1x1.Idx) :
    k0_pay69 (F := Ideal) v23 v26 p cut z d j = d j + (p j + OvDim v7 v8 v23 v26 v27 v28 15) := by
  have e : k0_pay69 (F := Ideal) v23 v26 p cut z d
      = addf (shapeCast S1x1 d shapeCasts_S1x1_S1x1) (addf p (OvSum (OvFin cut v23 z (extractStridedSlice S512x1 ![0, 15] v26 slices_S512x16_o0_15_S512x1)))) := rfl
  rw [e, addf_apply, addf_apply, shapeCast_self, OvDim_of_cut 15 _ _ 15 rfl v7 v8 v23 v26 v27 v28 cut hcut z hz]

/-- The partial sum starts at zero. -/
theorem Ov_pay10 (j : S1x1.Idx) : k0_pay10 (F := Ideal) j = 0 := OvZero

/-! ## The chain -/

/-- A sum over the sixteen dimensions, written out from zero in the order the body adds them. -/
theorem OvSum16 (f : Fin 16 → EReal) :
    ∑ k, f k = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- One run of the body leaves in the overlap accumulator what it held plus the tile's overlap mass. -/
theorem acc6_eq (i : grid0.Coords) (x2 x3 : Vec Ideal S512x32 .f32) (d : Vec Ideal S1x1 .f32) :
    Cert.KernelIdeal.Body.acc6 (F := Ideal) i x2 x3 d = fun _ => d (ValueIdx.ix2 (0 : Fin 1) (0 : Fin 1)) + Cert.Spec.blkOV (Cert.Spec.blo x2) (Cert.Spec.bhi x2) (Cert.Spec.blo x3) (Cert.Spec.bhi x3) (Cert.Spec.blkMask (i 0).val (i 1).val) := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold Cert.KernelIdeal.Body.acc6 Cert.KernelIdeal.Body.ovAcc
  dsimp only
  rw [Ov_pay69 (k0_pay3 x2) (k0_pay4 x2) _ _ (k0_pay8 x3) (k0_pay9 x3) _ _ _ _ (Ov_pay68 _ _ _ _) OvZero,
    Ov_pay64, Ov_pay57, Ov_pay61,
    Ov_pay53 _ _ _ _ _ _ _ _ _ (Ov_pay50 _ _ _ _) OvZero,
    Ov_pay46, Ov_pay39, Ov_pay43,
    Ov_pay35 _ _ _ _ _ _ _ _ _ (Ov_pay32 _ _ _ _) OvZero,
    Ov_pay28, Ov_pay21, Ov_pay25,
    Ov_pay17 _ _ _ _ _ _ _ _ _ (Ov_pay14 x2 x3) OvZero,
    Ov_pay10]
  unfold Cert.Spec.blkOV
  rw [OvSum16]
  simp only [OvDim_body]

end Cert.KernelIdeal.BodyVal

end
-- ==== Proof.KI_BodySim.lean ====
/-
  What one run of the kernel body adds to the squared-distance accumulator, at the ideal values: part one, the
  running 512 x 512 tile of summed scaled distances.  Each of the sixteen dimensions contributes, at (r, c),
  |L_row r d − L_col c d| / max(pn d, 1e-10); the body's unrolled loop is printed as a chain of payloads, each
  adding one or two dimensions to the tile.  Here every such payload is read at an index (r, c) as its incoming
  tile there plus its dimensions' terms.
-/
import proofs.«121037_j56049323213613_1_alg».proof.Proof.KI_BodyFn
import proofs.«121037_j56049323213613_1_alg».proof.Proof.Spec
import proofs.«121037_j56049323213613_1_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyVal

open Idealize.ShloMosaic Idealize.SL.Sem Idealize.ShloMosaic.ValueIdx Cert.KernelIdeal Cert.KernelIdeal.Gen
open scoped BigOperators

/-- A one-element matrix broadcast to [a, b] reads its one element everywhere. -/
theorem Sim_broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- One dimension's scaled distance at (r, c), from the column, the row and the norm it is computed from. -/
def SimT (col : FVec Ideal S512x1 .f32) (rw : FVec Ideal S1x512 .f32) (nrm : FVec Ideal S1x1 .f32) (r c : Fin 512) : EReal :=
  Ideal.div (Cert.Spec.eabs (col (ix2 r (0 : Fin 1)) - rw (ix2 (0 : Fin 1) c))) (max (nrm (ix2 (0 : Fin 1) (0 : Fin 1))) Cert.Spec.eps)

/-- The vector form of one dimension's term — column and row broadcast over the tile, subtracted, absolute value,
    divided by the clipped norm broadcast from its one element — read at (r, c). -/
theorem SimT_apply (col : FVec Ideal S512x1 .f32) (rw : FVec Ideal S1x512 .f32) (nrm : FVec Ideal S1x1 .f32) (r c : Fin 512) :
    divf (absf (subf (broadcastTo S512x512 col broadcasts_S512x1_S512x512) (broadcastTo S512x512 rw broadcasts_S1x512_S512x512)))
      (broadcastTo S512x512 (maximumf nrm (broadcast S1x1 (Scalar.ofBits .f32 0x2EDBE6FF#32))) broadcasts_S1x1_S512x512) (ix2 r c)
      = SimT col rw nrm r c := by
  show Ideal.div (max (broadcastTo S512x512 col broadcasts_S512x1_S512x512 (ix2 r c) - broadcastTo S512x512 rw broadcasts_S1x512_S512x512 (ix2 r c))
        (-(broadcastTo S512x512 col broadcasts_S512x1_S512x512 (ix2 r c) - broadcastTo S512x512 rw broadcasts_S1x512_S512x512 (ix2 r c))))
      (broadcastTo S512x512 (maximumf nrm (broadcast S1x1 (Scalar.ofBits .f32 0x2EDBE6FF#32))) broadcasts_S1x1_S512x512 (ix2 r c)) = _
  rw [Cert.LibRowForms.broadcastTo_a1_ab_apply, broadcastTo_1b_ab_apply, Sim_broadcastTo_11_ab_apply]
  rfl

/-- Dimension dd's scaled distance at (r, c), from the row block's lower ends, the norms and the transposed column
    block's lower ends. -/
def SimD (v7 : FVec Ideal S512x16 .f32) (v12 : FVec Ideal S1x16 .f32) (v27 : FVec Ideal S16x512 .f32) (dd : Fin 16) (r c : Fin 512) : EReal :=
  Ideal.div (Cert.Spec.eabs (v7 (ix2 r dd) - v27 (ix2 dd c))) (max (v12 (ix2 (0 : Fin 1) dd)) Cert.Spec.eps)

/-- With the column, the row and the norm cut out at offset k, the term is dimension k's. -/
theorem SimT_slices (v7 : FVec Ideal S512x16 .f32) (v12 : FVec Ideal S1x16 .f32) (v27 : FVec Ideal S16x512 .f32) (k : ℕ) (dd : Fin 16) (hk : dd.val = k)
    (h1 : S512x16.Slices ![0, k] S512x1) (h2 : S16x512.Slices ![k, 0] S1x512) (h3 : S1x16.Slices ![0, k] S1x1) (r c : Fin 512) :
    SimT (extractStridedSlice S512x1 ![0, k] v7 h1) (extractStridedSlice S1x512 ![k, 0] v27 h2) (extractStridedSlice S1x1 ![0, k] v12 h3) r c
      = SimD v7 v12 v27 dd r c := by
  unfold SimT SimD
  rw [slice2_axis1_apply k v7 h1 r (0 : Fin 1) dd (by rw [hk]; rfl), slice2_axis0_apply k v27 h2 (0 : Fin 1) c dd (by rw [hk]; rfl),
    slice2_axis1_apply k v12 h3 (0 : Fin 1) (0 : Fin 1) dd (by rw [hk]; rfl)]

theorem Sim_addf_apply (u w : FVec Ideal S512x512 .f32) (i : S512x512.Idx) : addf u w i = u i + w i := rfl

/-- The first part: dimensions 0 and 1, the first column and row cut from the blocks themselves. -/
theorem Sim_pay18 (x2 x3 : Vec Ideal S512x32 .f32) (v12 : FVec Ideal S1x16 .f32) (v30 : FVec Ideal S512x512 .f32) (r c : Fin 512) :
    k0_pay18 (k0_pay3 x2) v12 (k0_pay8 x3) v30 (k0_pay12 x2) (k0_pay13 x3) (ix2 r c)
      = v30 (ix2 r c) + SimD (k0_pay3 x2) v12 (k0_pay8 x3) 0 r c + SimD (k0_pay3 x2) v12 (k0_pay8 x3) 1 r c := by
  simp only [k0_pay18, k0_pay12, k0_pay13, k0_pay15, k0_pay16]
  rw [Sim_addf_apply, Sim_addf_apply, SimT_apply, SimT_apply, SimT_slices (k0_pay3 x2) v12 (k0_pay8 x3) 0 0 rfl, SimT_slices (k0_pay3 x2) v12 (k0_pay8 x3) 1 1 rfl]

theorem Sim_pay22 (v7 : FVec Ideal S512x16 .f32) (v12 : FVec Ideal S1x16 .f32) (v27 : FVec Ideal S16x512 .f32) (v94 : FVec Ideal S512x512 .f32) (r c : Fin 512) :
    k0_pay22 v7 v12 v27 v94 (ix2 r c) = v94 (ix2 r c) + SimD v7 v12 v27 2 r c := by
  simp only [k0_pay22, k0_pay19, k0_pay20]
  rw [Sim_addf_apply, SimT_apply, SimT_slices v7 v12 v27 2 2 rfl]

theorem Sim_pay29 (v7 : FVec Ideal S512x16 .f32) (v12 : FVec Ideal S1x16 .f32) (v27 : FVec Ideal S16x512 .f32) (v126 : FVec Ideal S512x512 .f32) (r c : Fin 512) :
    k0_pay29 v7 v12 v27 v126 (k0_pay23 v7) (k0_pay24 v27) (ix2 r c) = v126 (ix2 r c) + SimD v7 v12 v27 3 r c + SimD v7 v12 v27 4 r c := by
  simp only [k0_pay29, k0_pay23, k0_pay24, k0_pay26, k0_pay27]
  rw [Sim_addf_apply, Sim_addf_apply, SimT_apply, SimT_apply, SimT_slices v7 v12 v27 3 3 rfl, SimT_slices v7 v12 v27 4 4 rfl]

theorem Sim_pay36 (v7 : FVec Ideal S512x16 .f32) (v12 : FVec Ideal S1x16 .f32) (v27 : FVec Ideal S16x512 .f32) (v190 : FVec Ideal S512x512 .f32) (r c : Fin 512) :
    k0_pay36 v7 v12 v27 v190 (k0_pay30 v7) (k0_pay31 v27) (ix2 r c) = v190 (ix2 r c) + SimD v7 v12 v27 5 r c + SimD v7 v12 v27 6 r c := by
  simp only [k0_pay36, k0_pay30, k0_pay31, k0_pay33, k0_pay34]
  rw [Sim_addf_apply, Sim_addf_apply, SimT_apply, SimT_apply, SimT_slices v7 v12 v27 5 5 rfl, SimT_slices v7 v12 v27 6 6 rfl]

theorem Sim_pay40 (v7 : FVec Ideal S512x16 .f32) (v12 : FVec Ideal S1x16 .f32) (v27 : FVec Ideal S16x512 .f32) (v254 : FVec Ideal S512x512 .f32) (r c : Fin 512) :
    k0_pay40 v7 v12 v27 v254 (ix2 r c) = v254 (ix2 r c) + SimD v7 v12 v27 7 r c := by
  simp only [k0_pay40, k0_pay37, k0_pay38]
  rw [Sim_addf_apply, SimT_apply, SimT_slices v7 v12 v27 7 7 rfl]

theorem Sim_pay47 (v7 : FVec Ideal S512x16 .f32) (v12 : FVec Ideal S1x16 .f32) (v27 : FVec Ideal S16x512 .f32) (v286 : FVec Ideal S512x512 .f32) (r c : Fin 512) :
    k0_pay47 v7 v12 v27 v286 (k0_pay41 v7) (k0_pay42 v27) (ix2 r c) = v286 (ix2 r c) + SimD v7 v12 v27 8 r c + SimD v7 v12 v27 9 r c := by
  simp only [k0_pay47, k0_pay41, k0_pay42, k0_pay44, k0_pay45]
  rw [Sim_addf_apply, Sim_addf_apply, SimT_apply, SimT_apply, SimT_slices v7 v12 v27 8 8 rfl, SimT_slices v7 v12 v27 9 9 rfl]

theorem Sim_pay54 (v7 : FVec Ideal S512x16 .f32) (v12 : FVec Ideal S1x16 .f32) (v27 : FVec Ideal S16x512 .f32) (v350 : FVec Ideal S512x512 .f32) (r c : Fin 512) :
    k0_pay54 v7 v12 v27 v350 (k0_pay48 v7) (k0_pay49 v27) (ix2 r c) = v350 (ix2 r c) + SimD v7 v12 v27 10 r c + SimD v7 v12 v27 11 r c := by
  simp only [k0_pay54, k0_pay48, k0_pay49, k0_pay51, k0_pay52]
  rw [Sim_addf_apply, Sim_addf_apply, SimT_apply, SimT_apply, SimT_slices v7 v12 v27 10 10 rfl, SimT_slices v7 v12 v27 11 11 rfl]

theorem Sim_pay58 (v7 : FVec Ideal S512x16 .f32) (v12 : FVec Ideal S1x16 .f32) (v27 : FVec Ideal S16x512 .f32) (v414 : FVec Ideal S512x512 .f32) (r c : Fin 512) :
    k0_pay58 v7 v12 v27 v414 (ix2 r c) = v414 (ix2 r c) + SimD v7 v12 v27 12 r c := by
  simp only [k0_pay58, k0_pay55, k0_pay56]
  rw [Sim_addf_apply, SimT_apply, SimT_slices v7 v12 v27 12 12 rfl]

theorem Sim_pay65 (v7 : FVec Ideal S512x16 .f32) (v12 : FVec Ideal S1x16 .f32) (v27 : FVec Ideal S16x512 .f32) (v446 : FVec Ideal S512x512 .f32) (r c : Fin 512) :
    k0_pay65 v7 v12 v27 v446 (k0_pay59 v7) (k0_pay60 v27) (ix2 r c) = v446 (ix2 r c) + SimD v7 v12 v27 13 r c + SimD v7 v12 v27 14 r c := by
  simp only [k0_pay65, k0_pay59, k0_pay60, k0_pay62, k0_pay63]
  rw [Sim_addf_apply, Sim_addf_apply, SimT_apply, SimT_apply, SimT_slices v7 v12 v27 13 13 rfl, SimT_slices v7 v12 v27 14 14 rfl]

/-- The running tile starts at the zero word. -/
theorem Sim_pay11 (i : S512x512.Idx) : k0_pay11 (F := Ideal) i = 0 := by
  show Ideal.ofBits .f32 0x00000000#32 = 0
  exact Ideal.ofBits_zero_f32

end Cert.KernelIdeal.BodyVal

end
-- ==== Proof.KI_BodySim2.lean ====
/-
  What one run of the kernel body adds to the squared-distance accumulator, at the ideal values: part two.  The last
  payload adds dimension 15 to the tile of summed scaled distances, subtracts the tile from the target tile, squares,
  sums every entry (along the columns, then along the rows) and adds what the accumulator held.  With the sixteen
  terms reassociated into the sum over dimensions, the stored value is the accumulator's old value plus the tile's
  squared distance, as a formula in the two blocks' lower ends, the target tile and the norms.
-/
import proofs.«121037_j56049323213613_1_alg».proof.Proof.KI_BodyFn
import proofs.«121037_j56049323213613_1_alg».proof.Proof.Spec
import proofs.«121037_j56049323213613_1_alg».proof.Proof.LibRowForms
import proofs.«121037_j56049323213613_1_alg».proof.Proof.KI_BodySim
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyVal

open Idealize.ShloMosaic Idealize.SL.Sem Idealize.ShloMosaic.ValueIdx Cert.KernelIdeal Cert.KernelIdeal.Gen
open scoped BigOperators

/-- The vector unit's sum over the rows of an [a, b] matrix is, at column q, the sum of that column's a entries. -/
theorem Sim_colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src ?_
  funext c; apply Fin.ext
  match c with
  | ⟨0, _⟩ => rfl
  | ⟨1, _⟩ => rfl

/-- The sum of every entry of a 512 x 512 tile, as the body takes it: along the columns, cast to a column, along the
    rows, cast to one element. -/
theorem Sim_total (w : FVec Ideal S512x512 .f32) (acc1 acc2 : BitVec 32)
    (h1 : S512x512.Reduces [1] S512) (hφ1 : FKind.Formats .f32) (hacc1 : acc1 = FKind.add.neutral .f32 hφ1)
    (hc1 : S512.ShapeCasts S512x1)
    (h2 : S512x1.Reduces [0] S1) (hφ2 : FKind.Formats .f32) (hacc2 : acc2 = FKind.add.neutral .f32 hφ2)
    (hc2 : S1.ShapeCasts S1x1) :
    shapeCast S1x1 (multiReduction .add [0] S1 (shapeCast S512x1 (multiReduction .add [1] S512 w acc1 h1 hφ1 hacc1) hc1) acc2 h2 hφ2 hacc2) hc2
        (ix2 (0 : Fin 1) (0 : Fin 1))
      = ∑ r : Fin 512, ∑ c : Fin 512, w (ix2 r c) := by
  refine (Cert.LibRowForms.shapeCast_a_a1_apply _ hc2 (0 : Fin 1) (0 : Fin 1)).trans ?_
  refine (Sim_colSum_apply _ acc2 h2 hφ2 hacc2 (0 : Fin 1)).trans ?_
  refine Finset.sum_congr rfl fun r _ => ?_
  refine (Cert.LibRowForms.shapeCast_a_a1_apply _ hc1 r (0 : Fin 1)).trans ?_
  exact Cert.LibRowForms.laneSum_apply w acc1 h1 hφ1 hacc1 r

theorem Sim_sq_apply (a b t : FVec Ideal S512x512 .f32) (i : S512x512.Idx) :
    mulf (subf a (addf b t)) (subf a (addf b t)) i = (a i - (b i + t i)) * (a i - (b i + t i)) := rfl

theorem Sim_addf11_apply (u w : FVec Ideal S1x1 .f32) (i : S1x1.Idx) : addf u w i = u i + w i := rfl

/-- The last part: dimension 15 joins the tile, the tile is subtracted from the target tile, squared, summed, and
    added to what the accumulator held. -/
theorem Sim_pay70 (v7 : FVec Ideal S512x16 .f32) (v12 : FVec Ideal S1x16 .f32) (v27 : FVec Ideal S16x512 .f32)
    (v510 : FVec Ideal S512x512 .f32) (v543 : Vec Ideal S512x512 .f32) (v554 : Vec Ideal S1x1 .f32) (i : S1x1.Idx) :
    k0_pay70 v12 v510 (k0_pay66 v7) (k0_pay67 v27) v543 v554 i
      = v554 (ix2 (0 : Fin 1) (0 : Fin 1))
        + ∑ r : Fin 512, ∑ c : Fin 512,
            (v543 (ix2 r c) - (v510 (ix2 r c) + SimD v7 v12 v27 15 r c)) * (v543 (ix2 r c) - (v510 (ix2 r c) + SimD v7 v12 v27 15 r c)) := by
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  simp only [k0_pay70, k0_pay66, k0_pay67]
  refine (Sim_addf11_apply _ _ _).trans ?_
  refine congrArg₂ (· + ·) (shapeCast_apply _ _ _ _ rfl) ?_
  refine (Sim_total _ _ _ _ _ _ _ _ _ _ _).trans ?_
  refine Finset.sum_congr rfl fun r _ => Finset.sum_congr rfl fun c _ => ?_
  refine (Sim_sq_apply _ _ _ _).trans ?_
  rw [SimT_apply, SimT_slices v7 v12 v27 15 15 rfl]

/-- A sum over sixteen dimensions written out, added from the left starting at zero, as the unrolled loop adds them. -/
theorem Sim_sum16 {M : Type} [AddCommMonoid M] (f : Fin 16 → M) :
    ∑ dd : Fin 16, f dd
      = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- The tile after fifteen dimensions, at (r, c): their terms added from the left onto zero. -/
theorem Sim_tile_apply (x2 x3 : Vec Ideal S512x32 .f32) (x5 : Vec Ideal S1x16 .f32) (r c : Fin 512) :
    (Cert.KernelIdeal.Body.simTile (F := Ideal) x2 x3 x5).1 (ix2 r c)
      = 0 + SimD (k0_pay3 x2) (k0_pay5 x5) (k0_pay8 x3) 0 r c
        + SimD (k0_pay3 x2) (k0_pay5 x5) (k0_pay8 x3) 1 r c
        + SimD (k0_pay3 x2) (k0_pay5 x5) (k0_pay8 x3) 2 r c
        + SimD (k0_pay3 x2) (k0_pay5 x5) (k0_pay8 x3) 3 r c
        + SimD (k0_pay3 x2) (k0_pay5 x5) (k0_pay8 x3) 4 r c
        + SimD (k0_pay3 x2) (k0_pay5 x5) (k0_pay8 x3) 5 r c
        + SimD (k0_pay3 x2) (k0_pay5 x5) (k0_pay8 x3) 6 r c
        + SimD (k0_pay3 x2) (k0_pay5 x5) (k0_pay8 x3) 7 r c
        + SimD (k0_pay3 x2) (k0_pay5 x5) (k0_pay8 x3) 8 r c
        + SimD (k0_pay3 x2) (k0_pay5 x5) (k0_pay8 x3) 9 r c
        + SimD (k0_pay3 x2) (k0_pay5 x5) (k0_pay8 x3) 10 r c
        + SimD (k0_pay3 x2) (k0_pay5 x5) (k0_pay8 x3) 11 r c
        + SimD (k0_pay3 x2) (k0_pay5 x5) (k0_pay8 x3) 12 r c
        + SimD (k0_pay3 x2) (k0_pay5 x5) (k0_pay8 x3) 13 r c
        + SimD (k0_pay3 x2) (k0_pay5 x5) (k0_pay8 x3) 14 r c := by
  simp only [Cert.KernelIdeal.Body.simTile]
  rw [Sim_pay65, Sim_pay58, Sim_pay54, Sim_pay47, Sim_pay40, Sim_pay36, Sim_pay29, Sim_pay22, Sim_pay18, Sim_pay11]

/-- A dimension's term from the blocks as the body holds them — the row block's first sixteen columns, the column
    block's first sixteen columns transposed, the row of norms — is the term of the two blocks' lower ends. -/
theorem SimD_blocks (x2 x3 : Vec Ideal S512x32 .f32) (x5 : Vec Ideal S1x16 .f32) (dd : Fin 16) (r c : Fin 512) :
    SimD (k0_pay3 x2) (k0_pay5 x5) (k0_pay8 x3) dd r c
      = Ideal.div (Cert.Spec.eabs (Cert.Spec.blo x2 r dd - Cert.Spec.blo x3 c dd)) (max (Cert.Spec.bvec x5 dd) Cert.Spec.eps) := by
  unfold SimD Cert.Spec.blo Cert.Spec.bvec
  simp only [k0_pay3, k0_pay5, k0_pay8]
  rw [slice2_axis1_apply 0 x2 _ r dd ⟨dd.val, by have := dd.isLt; omega⟩ (Nat.zero_add _).symm, transpose_ix2_apply,
    slice2_axis1_apply 0 x3 _ c dd ⟨dd.val, by have := dd.isLt; omega⟩ (Nat.zero_add _).symm,
    shapeCast_apply x5 _ (ix2 (0 : Fin 1) dd) (ix2 (0 : Fin 1) dd) rfl]

/-- One run of the body leaves in the squared-distance accumulator what it held plus the tile's squared distance. -/
theorem acc7_eq (x2 x3 : Vec Ideal S512x32 .f32) (x4 : Vec Ideal S512x512 .f32) (x5 : Vec Ideal S1x16 .f32) (d : Vec Ideal S1x1 .f32) :
    Cert.KernelIdeal.Body.acc7 (F := Ideal) x2 x3 x4 x5 d = fun _ => d (ValueIdx.ix2 (0 : Fin 1) (0 : Fin 1)) + Cert.Spec.blkSQ (Cert.Spec.blo x2) (Cert.Spec.blo x3) (Cert.Spec.bmat x4) (Cert.Spec.bvec x5) := by
  funext i
  unfold Cert.KernelIdeal.Body.acc7
  have h1 : (Cert.KernelIdeal.Body.simTile (F := Ideal) x2 x3 x5).2.1 = k0_pay66 (k0_pay3 x2) := rfl
  have h2 : (Cert.KernelIdeal.Body.simTile (F := Ideal) x2 x3 x5).2.2 = k0_pay67 (k0_pay8 x3) := rfl
  rw [h1, h2, Sim_pay70]
  refine congrArg (d (ix2 (0 : Fin 1) (0 : Fin 1)) + ·) ?_
  unfold Cert.Spec.blkSQ
  refine Finset.sum_congr rfl fun r _ => Finset.sum_congr rfl fun c _ => ?_
  have hs : (Cert.KernelIdeal.Body.simTile (F := Ideal) x2 x3 x5).1 (ix2 r c) + SimD (k0_pay3 x2) (k0_pay5 x5) (k0_pay8 x3) 15 r c
      = Cert.Spec.blkSim (Cert.Spec.blo x2) (Cert.Spec.blo x3) (Cert.Spec.bvec x5) r c := by
    rw [Sim_tile_apply]
    unfold Cert.Spec.blkSim
    rw [Sim_sum16]
    simp only [SimD_blocks]
  rw [hs]
  rfl

end Cert.KernelIdeal.BodyVal

end
-- ==== Proof.LibFiniteReal.lean ====
/-
  Finite extended reals.

  An extended real is *finite* (`IsReal`) when it is the image of a real number. The sums,
  products, quotients and elementary functions of extended reals have corner cases at the two
  infinities (`⊤ + ⊥ = ⊥`, `0 * ⊤ = 0`, a quotient by zero, the square root of a negative
  number); on finite arguments none of them is met, and the value is the image of the
  corresponding real expression. This file records that:

  * `IsReal` is closed under `+`, `-`, `*`, unary `-`, finite sums, `max`, the exponential,
    the square root of a nonnegative number, the reciprocal square root of a positive number,
    a quotient by a nonzero number, and the logistic function;
  * sums of squares of finite numbers are nonnegative, and a nonempty sum of positive finite
    numbers is positive;
  * a few single-precision bit patterns denote finite (positive) numbers;
  * `gn_fold`: for finite numbers, `x * (inv * g) + (b - mean * (inv * g))`
    equals `(x - mean) * inv * g + b` (an affine map applied to a normalised value, with the
    scale and the shift folded together or not). The identity fails at the infinities, where
    subtraction does not cancel; finiteness is what makes it ring arithmetic.
-/
import Idealize.ShloMosaic.PureOps.Ideal
import Idealize.ShloMosaic.PureOps.Ideal.Laws

noncomputable section

namespace Cert.LibFiniteReal

open Idealize.ShloMosaic
open scoped BigOperators

/-- An extended real that is the image of a real number. -/
def IsReal (x : EReal) : Prop := ∃ r : ℝ, x = (r : EReal)

/-! ### Closure under the ring operations -/

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-! ### Finite sums -/

/-- The image of a finite sum of reals is the sum of the images. -/
theorem sum_coe {ι : Type*} (s : Finset ι) (g : ι → ℝ) :
    (∑ i ∈ s, ((g i : ℝ) : EReal)) = ((∑ i ∈ s, g i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact IsReal.zero
  · intro a t ha ih h
    rw [Finset.sum_insert ha]
    exact (h a (Finset.mem_insert_self a t)).add (ih fun i hi => h i (Finset.mem_insert_of_mem hi))

/-! ### Maximum and exponential -/

theorem IsReal.max {x y : EReal} (hx : IsReal x) (hy : IsReal y) : IsReal (max x y) := by
  rcases max_choice x y with h | h
  · rw [h]; exact hx
  · rw [h]; exact hy

theorem IsReal.exp {x : EReal} (hx : IsReal x) : IsReal (Ideal.exp x) := by
  obtain ⟨a, rfl⟩ := hx
  exact ⟨Real.exp a, Ideal.exp_coe a⟩

theorem exp_pos_of_isReal {x : EReal} (hx : IsReal x) : 0 < Ideal.exp x := by
  obtain ⟨a, rfl⟩ := hx
  rw [Ideal.exp_coe]
  exact EReal.coe_pos.mpr (Real.exp_pos a)

/-! ### Nonnegativity and positivity -/

theorem mul_self_nonneg' {x : EReal} (hx : IsReal x) : 0 ≤ x * x := by
  obtain ⟨a, rfl⟩ := hx
  rw [← EReal.coe_mul]
  exact EReal.coe_nonneg.mpr (mul_self_nonneg a)

theorem sum_nonneg' {ι : Type*} (s : Finset ι) (f : ι → EReal) (h : ∀ i ∈ s, 0 ≤ f i) :
    0 ≤ ∑ i ∈ s, f i :=
  Finset.sum_nonneg h

/-- A nonempty sum of positive finite numbers is positive. -/
theorem sum_pos' {ι : Type*} (s : Finset ι) (f : ι → EReal) (hne : s.Nonempty)
    (hr : ∀ i ∈ s, IsReal (f i)) (hp : ∀ i ∈ s, 0 < f i) : 0 < ∑ i ∈ s, f i := by
  have hf : ∀ i ∈ s, f i = (((f i).toReal : ℝ) : EReal) := by
    intro i hi
    obtain ⟨r, hri⟩ := hr i hi
    rw [hri, EReal.toReal_coe]
  rw [Finset.sum_congr rfl hf, sum_coe]
  refine EReal.coe_pos.mpr (Finset.sum_pos ?_ hne)
  intro i hi
  have h := hp i hi
  rw [hf i hi] at h
  exact EReal.coe_pos.mp h

/-! ### Square root, reciprocal square root, quotient -/

theorem IsReal.sqrt {x : EReal} (hx : IsReal x) (h0 : 0 ≤ x) : IsReal (Ideal.sqrt x) := by
  obtain ⟨a, rfl⟩ := hx
  have ha : ¬ a < 0 := not_lt.mpr (EReal.coe_nonneg.mp h0)
  rw [Ideal.sqrt_coe, if_neg ha]
  exact ⟨Real.sqrt a, rfl⟩

theorem sqrt_nonneg' {x : EReal} (hx : IsReal x) (h0 : 0 ≤ x) : 0 ≤ Ideal.sqrt x := by
  obtain ⟨a, rfl⟩ := hx
  have ha : ¬ a < 0 := not_lt.mpr (EReal.coe_nonneg.mp h0)
  rw [Ideal.sqrt_coe, if_neg ha]
  exact EReal.coe_nonneg.mpr (Real.sqrt_nonneg a)

theorem IsReal.rsqrt {x : EReal} (hx : IsReal x) (h0 : 0 < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨(Real.sqrt a)⁻¹, rfl⟩

theorem IsReal.div {x y : EReal} (hx : IsReal x) (hy : IsReal y) (h0 : y ≠ 0) :
    IsReal (Ideal.div x y) := by
  obtain ⟨a, rfl⟩ := hx
  obtain ⟨b, rfl⟩ := hy
  have hb : b ≠ 0 := fun h => h0 (by rw [h, EReal.coe_zero])
  rw [Ideal.div_coe hb, ← EReal.coe_mul]
  exact ⟨a * (1 / b), rfl⟩

theorem IsReal.div_pos {x y : EReal} (hx : IsReal x) (hy : IsReal y) (h0 : 0 < y) :
    IsReal (Ideal.div x y) :=
  hx.div hy h0.ne'

/-! ### The fold of an affine map into a normalisation -/

/-- For finite numbers, scaling `x` by `inv * g` and shifting by `b - mean * (inv * g)` is the same
    as centring at `mean`, scaling by `inv`, then by `g`, and adding `b`. -/
theorem gn_fold {x mean inv g b : EReal} (hx : IsReal x) (hm : IsReal mean) (hi : IsReal inv)
    (hg : IsReal g) (hb : IsReal b) :
    x * (inv * g) + (b - mean * (inv * g)) = (x - mean) * inv * g + b := by
  obtain ⟨x', rfl⟩ := hx
  obtain ⟨m', rfl⟩ := hm
  obtain ⟨i', rfl⟩ := hi
  obtain ⟨g', rfl⟩ := hg
  obtain ⟨b', rfl⟩ := hb
  simp only [← EReal.coe_mul, ← EReal.coe_add, ← EReal.coe_sub]
  congr 1
  ring

/-! ### A maximum with a positive number; the logistic function -/

theorem max_pos_right (x : EReal) {e : EReal} (he : 0 < e) : 0 < max x e :=
  lt_max_of_lt_right he

theorem IsReal.logistic {x : EReal} (hx : IsReal x) : IsReal (Ideal.logistic x) := by
  obtain ⟨a, rfl⟩ := hx
  exact ⟨(1 + Real.exp (-a))⁻¹, Ideal.logistic_coe a⟩

/-! ### Some single-precision bit patterns

Each pattern below has sign bit `0` and an exponent field that is neither all zeros nor all ones, so
it denotes the finite positive number `(2^23 + T) * 2^(E - 150)`, `E` the exponent field and `T` the
trailing significand. -/

/-- `0x3F800000`: `E = 127`, `T = 0`, the number `1`. -/
theorem ofBits_f32_3F800000 : Ideal.ofBits .f32 0x3F800000#32 = 1 := by
  simp [Ideal.ofBits, Ideal.ieee]
  rw [← EReal.coe_mul, ← EReal.coe_one]
  congr 1
  norm_num

/-- `0x48000000`: `E = 144`, `T = 0`, the number `2^17 = 131072`. -/
theorem ofBits_f32_48000000 : Ideal.ofBits .f32 0x48000000#32 = ((131072 : ℝ) : EReal) := by
  simp [Ideal.ofBits, Ideal.ieee]
  rw [← EReal.coe_mul]
  congr 1
  norm_num

theorem isReal_ofBits_f32_48000000 : IsReal (Ideal.ofBits .f32 0x48000000#32) :=
  ⟨131072, ofBits_f32_48000000⟩

theorem ofBits_f32_48000000_pos : 0 < Ideal.ofBits .f32 0x48000000#32 := by
  rw [ofBits_f32_48000000]
  exact EReal.coe_pos.mpr (by norm_num)

theorem ofBits_f32_48000000_ne_zero : Ideal.ofBits .f32 0x48000000#32 ≠ 0 :=
  ofBits_f32_48000000_pos.ne'

/-- `0x3D000000`: `E = 122`, `T = 0`, the number `2^(-5) = 1/32`. -/
theorem ofBits_f32_3D000000 : Ideal.ofBits .f32 0x3D000000#32 = ((1 / 32 : ℝ) : EReal) := by
  simp [Ideal.ofBits, Ideal.ieee]
  rw [← EReal.coe_mul]
  congr 1
  norm_num

theorem isReal_ofBits_f32_3D000000 : IsReal (Ideal.ofBits .f32 0x3D000000#32) :=
  ⟨1 / 32, ofBits_f32_3D000000⟩

theorem ofBits_f32_3D000000_pos : 0 < Ideal.ofBits .f32 0x3D000000#32 := by
  rw [ofBits_f32_3D000000]
  exact EReal.coe_pos.mpr (by norm_num)

/-- `0x3727C5AC`: `E = 110`, `2^23 + T = 10995116`, the number `10995116 / 2^40`, the single-precision
    number nearest `10^(-5)`. -/
theorem ofBits_f32_3727C5AC :
    Ideal.ofBits .f32 0x3727C5AC#32 = ((10995116 * (2 ^ 40)⁻¹ : ℝ) : EReal) := by
  simp [Ideal.ofBits, Ideal.ieee]

theorem isReal_ofBits_f32_3727C5AC : IsReal (Ideal.ofBits .f32 0x3727C5AC#32) :=
  ⟨10995116 * (2 ^ 40)⁻¹, ofBits_f32_3727C5AC⟩

theorem ofBits_f32_3727C5AC_pos : 0 < Ideal.ofBits .f32 0x3727C5AC#32 := by
  rw [ofBits_f32_3727C5AC]
  exact EReal.coe_pos.mpr (by positivity)

/-- `0x2B8CBCCC`: `E = 87`, `2^23 + T = 9223372`, the number `9223372 / 2^63`, the single-precision
    number nearest `10^(-12)`. -/
theorem ofBits_f32_2B8CBCCC :
    Ideal.ofBits .f32 0x2B8CBCCC#32 = ((9223372 * (2 ^ 63)⁻¹ : ℝ) : EReal) := by
  simp [Ideal.ofBits, Ideal.ieee]

theorem isReal_ofBits_f32_2B8CBCCC : IsReal (Ideal.ofBits .f32 0x2B8CBCCC#32) :=
  ⟨9223372 * (2 ^ 63)⁻¹, ofBits_f32_2B8CBCCC⟩

theorem ofBits_f32_2B8CBCCC_pos : 0 < Ideal.ofBits .f32 0x2B8CBCCC#32 := by
  rw [ofBits_f32_2B8CBCCC]
  exact EReal.coe_pos.mpr (by positivity)

end Cert.LibFiniteReal
-- ==== Proof.LibBlockSum.lean ====
/-
  A sum over `a · b` consecutive rows, taken block by block.

  A kernel that walks an array of `a · b` rows in `a` blocks of `b` rows and accumulates one partial sum per block
  computes `Σ_p Σ_q f (p · b + q)`; a reference that reduces the whole axis at once computes `Σ_r f r`.
  In any commutative additive monoid (the extended reals included: their addition is commutative and associative
  at the infinities too) the two are equal, and so is the three-level form `a · b · c` rows walked as
  `a` groups of `b` blocks of `c` rows.
-/
import Mathlib.Algebra.BigOperators.Fin
import Mathlib.Logic.Equiv.Fin.Basic

namespace LibBlockSum

variable {M : Type} [AddCommMonoid M]

/-- Rows `0 … a·b − 1` summed at once are the `a` blocks of `b` rows summed one after the other. -/
theorem sum_blocks (a b : ℕ) (f : ℕ → M) :
    ∑ r : Fin (a * b), f r.val = ∑ p : Fin a, ∑ q : Fin b, f (p.val * b + q.val) := by
  rw [← Fintype.sum_prod_type' (f := fun (p : Fin a) (q : Fin b) => f (p.val * b + q.val))]
  refine (Fintype.sum_equiv finProdFinEquiv _ _ fun x => ?_).symm
  rw [finProdFinEquiv_apply_val, Nat.mul_comm b, Nat.add_comm]

/-- Three levels: `a` groups of `b` blocks of `c` rows. -/
theorem sum_blocks₃ (a b c : ℕ) (f : ℕ → M) :
    ∑ r : Fin (a * b * c), f r.val
      = ∑ p : Fin a, ∑ q : Fin b, ∑ s : Fin c, f ((p.val * b + q.val) * c + s.val) := by
  rw [sum_blocks (a * b) c f, sum_blocks a b fun k => ∑ s : Fin c, f (k * c + s.val)]

end LibBlockSum
-- ==== Proof.LibPairDist.lean ====
/-
  The sum of squared pairwise differences in closed form.

  For real numbers `a 0, …, a (n-1)`, expanding `(a i - a j)² = a i² - 2·a i·a j + a j²` and summing over
  all ordered pairs gives `Σ_i Σ_j (a i - a j)² = 2·n·Σ a² - 2·(Σ a)²`: each of the two square terms
  is counted `n` times, and the cross terms add up to the square of the sum.  With `|x|·|x| = x·x` the
  same holds for the squared absolute differences.  The left side is a sum of squares, hence nonnegative.
-/
import Mathlib.Algebra.BigOperators.Ring.Finset
import Mathlib.Algebra.BigOperators.Fin
import Mathlib.Algebra.Order.BigOperators.Ring.Finset
import Mathlib.Data.Real.Basic
import Mathlib.Tactic.Ring

namespace LibPairDist

open scoped BigOperators

/-- `Σ_i Σ_j (a i - a j)·(a i - a j) = 2·n·Σ a·a - 2·(Σ a)·(Σ a)`. -/
theorem sum_sq_sub (n : ℕ) (a : Fin n → ℝ) :
    ∑ i : Fin n, ∑ j : Fin n, (a i - a j) * (a i - a j)
      = 2 * (n : ℝ) * (∑ i : Fin n, a i * a i) - 2 * (∑ i : Fin n, a i) * (∑ i : Fin n, a i) := by
  have h1 : ∀ i j, (a i - a j) * (a i - a j) = a i * a i - 2 * (a i * a j) + a j * a j := fun i j => by ring
  have hA : ∑ i : Fin n, ∑ _j : Fin n, a i * a i = (n : ℝ) * ∑ i : Fin n, a i * a i := by
    rw [Finset.mul_sum]
    refine Finset.sum_congr rfl fun i _ => ?_
    rw [Finset.sum_const, Finset.card_univ, Fintype.card_fin, nsmul_eq_mul]
  have hB : ∑ _i : Fin n, ∑ j : Fin n, a j * a j = (n : ℝ) * ∑ j : Fin n, a j * a j := by
    rw [Finset.sum_const, Finset.card_univ, Fintype.card_fin, nsmul_eq_mul]
  have hC : ∑ i : Fin n, ∑ j : Fin n, 2 * (a i * a j) = 2 * ((∑ i : Fin n, a i) * (∑ i : Fin n, a i)) := by
    rw [Finset.sum_mul_sum, Finset.mul_sum]
    refine Finset.sum_congr rfl fun i _ => ?_
    rw [Finset.mul_sum]
  simp only [h1, Finset.sum_add_distrib, Finset.sum_sub_distrib]
  rw [hA, hB, hC]
  ring

/-- The same with absolute differences: `Σ_i Σ_j |a i - a j|·|a i - a j|`. -/
theorem sum_abs_sq_sub (n : ℕ) (a : Fin n → ℝ) :
    ∑ i : Fin n, ∑ j : Fin n, |a i - a j| * |a i - a j|
      = 2 * (n : ℝ) * (∑ i : Fin n, a i * a i) - 2 * (∑ i : Fin n, a i) * (∑ i : Fin n, a i) := by
  rw [← sum_sq_sub]
  exact Finset.sum_congr rfl fun i _ => Finset.sum_congr rfl fun j _ => abs_mul_abs_self _

/-- The closed form is nonnegative: it is a sum of squares. -/
theorem closed_form_nonneg (n : ℕ) (a : Fin n → ℝ) :
    0 ≤ 2 * (n : ℝ) * (∑ i : Fin n, a i * a i) - 2 * (∑ i : Fin n, a i) * (∑ i : Fin n, a i) := by
  rw [← sum_sq_sub]
  exact Finset.sum_nonneg fun i _ => Finset.sum_nonneg fun j _ => mul_self_nonneg _

end LibPairDist
-- ==== Proof.Laws.lean ====
/-
  The two forms of each pairwise quantity agree.

  * The tiling: a sum over all 2048 nodes is the sum over the 4 blocks of the sums over each block's 512
    nodes (node 512·I + r is row r of block I), so a sum over all ordered pairs, swept tile by tile, is the
    plain double sum.  Addition of extended reals is commutative and associative everywhere, so this needs
    no finiteness.
  * The overlap terms: the mask is 0 or 1, and cutting at 0 commutes with multiplying by 0 or by 1.
  * The per-dimension norm: on real data the sum of the squared pairwise distances is
    4096·Σ a² − (2·Σ a)·Σ a, which is a sum of squares, so cutting it at 0 changes nothing.
-/
import proofs.«121037_j56049323213613_1_alg».proof.Proof.Spec
import proofs.«121037_j56049323213613_1_alg».proof.Proof.LibFiniteReal
import proofs.«121037_j56049323213613_1_alg».proof.Proof.LibBlockSum
import proofs.«121037_j56049323213613_1_alg».proof.Proof.LibPairDist

noncomputable section

namespace Cert.Laws

open Idealize.ShloMosaic
open Cert.Spec
open Cert.LibFiniteReal (IsReal)
open scoped BigOperators

/-! ## The tiling -/

section Tiling
variable {M : Type} [AddCommMonoid M]

/-- A sum over the 2048 nodes, block by block. -/
theorem sum_rows (g : Fin 2048 → M) : ∑ I : Fin 4, ∑ r : Fin 512, g (row I r) = ∑ i : Fin 2048, g i := by
  have h := LibBlockSum.sum_blocks 4 512 (fun n => if h : n < 2048 then g ⟨n, h⟩ else 0)
  have e1 : ∑ i : Fin 2048, g i = ∑ r : Fin (4 * 512), (fun n => if h : n < 2048 then g ⟨n, h⟩ else 0) r.val := by
    refine Finset.sum_congr rfl fun i _ => ?_
    have hi : i.val < 2048 := i.isLt
    show g i = if h : i.val < 2048 then g ⟨i.val, h⟩ else 0
    rw [dif_pos hi]
  rw [e1, h]
  refine Finset.sum_congr rfl fun I _ => Finset.sum_congr rfl fun r _ => ?_
  have hlt : I.val * 512 + r.val < 2048 := by have := I.isLt; have := r.isLt; omega
  rw [dif_pos hlt]
  congr 1
  exact Fin.ext (by simp only [row]; omega)

/-- All ordered pairs, tile by tile. -/
theorem sum_tiles (G : Fin 2048 → Fin 2048 → M) :
    ∑ I : Fin 4, ∑ J : Fin 4, ∑ r : Fin 512, ∑ c : Fin 512, G (row I r) (row J c)
      = ∑ i : Fin 2048, ∑ j : Fin 2048, G i j := by
  calc ∑ I : Fin 4, ∑ J : Fin 4, ∑ r : Fin 512, ∑ c : Fin 512, G (row I r) (row J c)
      = ∑ I : Fin 4, ∑ r : Fin 512, ∑ J : Fin 4, ∑ c : Fin 512, G (row I r) (row J c) :=
        Finset.sum_congr rfl fun I _ => Finset.sum_comm
    _ = ∑ I : Fin 4, ∑ r : Fin 512, ∑ j : Fin 2048, G (row I r) j :=
        Finset.sum_congr rfl fun I _ => Finset.sum_congr rfl fun r _ => sum_rows fun j => G (row I r) j
    _ = ∑ i : Fin 2048, ∑ j : Fin 2048, G i j := sum_rows fun i => ∑ j : Fin 2048, G i j

/-- All ordered pairs in each of the 16 dimensions, tile by tile with the dimensions inside each tile. -/
theorem sum_tiles_dims (F : Fin 16 → Fin 2048 → Fin 2048 → M) :
    ∑ I : Fin 4, ∑ J : Fin 4, ∑ d : Fin 16, ∑ r : Fin 512, ∑ c : Fin 512, F d (row I r) (row J c)
      = ∑ d : Fin 16, ∑ i : Fin 2048, ∑ j : Fin 2048, F d i j := by
  calc ∑ I : Fin 4, ∑ J : Fin 4, ∑ d : Fin 16, ∑ r : Fin 512, ∑ c : Fin 512, F d (row I r) (row J c)
      = ∑ I : Fin 4, ∑ d : Fin 16, ∑ J : Fin 4, ∑ r : Fin 512, ∑ c : Fin 512, F d (row I r) (row J c) :=
        Finset.sum_congr rfl fun I _ => Finset.sum_comm
    _ = ∑ d : Fin 16, ∑ I : Fin 4, ∑ J : Fin 4, ∑ r : Fin 512, ∑ c : Fin 512, F d (row I r) (row J c) :=
        Finset.sum_comm
    _ = ∑ d : Fin 16, ∑ i : Fin 2048, ∑ j : Fin 2048, F d i j :=
        Finset.sum_congr rfl fun d _ => sum_tiles (F d)

end Tiling

/-! ## One tile from its two blocks -/

/-- The mask of tile (I, J) from the two block numbers. -/
theorem offd_row (I J : Fin 4) (r c : Fin 512) : offd (row I r) (row J c) = blkMask I.val J.val r c := by
  unfold offd blkMask
  have h : (row I r = row J c) ↔ (512 * I.val + r.val = 512 * J.val + c.val) := by
    rw [Fin.ext_iff]; rfl
  by_cases hc : 512 * I.val + r.val = 512 * J.val + c.val
  · rw [if_pos (h.mpr hc), if_pos hc]
  · rw [if_neg (fun e => hc (h.mp e)), if_neg hc]

theorem tileOV_blk (L H : Fin 2048 → Fin 16 → EReal) (I J : Fin 4) :
    tileOV L H I J
      = blkOV (fun r d => L (row I r) d) (fun r d => H (row I r) d) (fun c d => L (row J c) d)
          (fun c d => H (row J c) d) (blkMask I.val J.val) := by
  unfold tileOV blkOV
  refine Finset.sum_congr rfl fun d _ => Finset.sum_congr rfl fun r _ => Finset.sum_congr rfl fun c _ => ?_
  unfold ovTermK blkOvTerm ovl gap
  rw [offd_row]

theorem tileSQ_blk (L : Fin 2048 → Fin 16 → EReal) (Om : Fin 2048 → Fin 2048 → EReal) (pn : Fin 16 → EReal)
    (I J : Fin 4) :
    tileSQ L Om pn I J
      = blkSQ (fun r d => L (row I r) d) (fun c d => L (row J c) d) (fun r c => Om (row I r) (row J c)) pn := by
  unfold tileSQ blkSQ
  refine Finset.sum_congr rfl fun r _ => Finset.sum_congr rfl fun c _ => ?_
  unfold sqTerm embSim blkSim Spec.dist
  rfl

/-! ## The overlap sum -/

/-- Cutting at 0 and masking by 0 or 1 commute. -/
theorem ovTermK_eq (L H : Fin 2048 → Fin 16 → EReal) (d : Fin 16) (i j : Fin 2048) :
    ovTermK L H d i j = ovTermR L H d i j := by
  unfold ovTermK ovTermR offd
  by_cases h : i = j
  · rw [if_pos h, mul_zero, mul_zero, max_self]
  · rw [if_neg h, mul_one, mul_one]

theorem ov_eq (L H : Fin 2048 → Fin 16 → EReal) (hL : ∀ i d, IsReal (L i d)) (hH : ∀ i d, IsReal (H i d)) :
    OVK L H = OVR L H := by
  unfold OVK OVR tileOV
  refine (sum_tiles_dims (fun d i j => ovTermK L H d i j)).trans ?_
  exact Finset.sum_congr rfl fun d _ => Finset.sum_congr rfl fun i _ => Finset.sum_congr rfl fun j _ =>
    ovTermK_eq L H d i j

/-! ## The per-dimension norm -/

/-- The word 0x45800000: exponent field 139, significand 0, the number 2^12 = 4096. -/
theorem c4096_eq : c4096 = ((4096 : ℝ) : EReal) := by
  unfold c4096
  simp [Ideal.ofBits, Ideal.ieee]
  rw [← EReal.coe_mul]
  congr 1
  norm_num

/-- The word 0x40000000: exponent field 128, significand 0, the number 2. -/
theorem c2_eq : c2 = ((2 : ℝ) : EReal) := by
  unfold c2
  simp [Ideal.ofBits, Ideal.ieee]
  rw [← EReal.coe_mul]
  congr 1
  norm_num

/-- The absolute value of a real, read on the extended reals. -/
theorem eabs_coe (r : ℝ) : eabs (r : EReal) = ((|r| : ℝ) : EReal) := by
  unfold eabs
  rw [← EReal.coe_neg, abs_eq_max_neg]
  exact (EReal.coe_strictMono.monotone.map_max).symm

theorem pn_eq (L : Fin 2048 → Fin 16 → EReal) (hL : ∀ i d, IsReal (L i d)) (d : Fin 16) :
    pnK L d = pnR L d := by
  choose a ha using hL
  have hLd : ∀ i, L i d = ((a i d : ℝ) : EReal) := fun i => ha i d
  -- the real identity, at n = 2048
  have hR : ∑ i : Fin 2048, ∑ j : Fin 2048, |a i d - a j d| * |a i d - a j d|
      = 4096 * (∑ i : Fin 2048, a i d * a i d) - 2 * (∑ i : Fin 2048, a i d) * (∑ i : Fin 2048, a i d) := by
    have h := LibPairDist.sum_abs_sq_sub 2048 (fun i => a i d)
    rw [h]
    norm_num
  have hnn : 0 ≤ 4096 * (∑ i : Fin 2048, a i d * a i d)
      - 2 * (∑ i : Fin 2048, a i d) * (∑ i : Fin 2048, a i d) := by
    rw [← hR]
    exact Finset.sum_nonneg fun i _ => Finset.sum_nonneg fun j _ => mul_self_nonneg _
  -- the closed form, as the image of the real expression
  have hK : c4096 * (∑ i : Fin 2048, L i d * L i d) - (c2 * (∑ i : Fin 2048, L i d)) * (∑ i : Fin 2048, L i d)
      = ((4096 * (∑ i : Fin 2048, a i d * a i d)
          - 2 * (∑ i : Fin 2048, a i d) * (∑ i : Fin 2048, a i d) : ℝ) : EReal) := by
    rw [c4096_eq, c2_eq]
    simp only [hLd, ← EReal.coe_mul, Cert.LibFiniteReal.sum_coe]
    rw [← EReal.coe_sub]
  -- the sum over all pairs, as the image of the real sum
  have hRr : ∑ i : Fin 2048, ∑ j : Fin 2048, Spec.dist L d i j * Spec.dist L d i j
      = ((∑ i : Fin 2048, ∑ j : Fin 2048, |a i d - a j d| * |a i d - a j d| : ℝ) : EReal) := by
    unfold Spec.dist
    simp only [hLd, ← EReal.coe_sub, eabs_coe, ← EReal.coe_mul, Cert.LibFiniteReal.sum_coe]
  unfold pnK pnR
  rw [hK, hRr, hR, max_eq_left (EReal.coe_nonneg.mpr hnn)]

/-! ## The squared distance to the target matrix -/

theorem sq_eq (L : Fin 2048 → Fin 16 → EReal) (Om : Fin 2048 → Fin 2048 → EReal) (hL : ∀ i d, IsReal (L i d)) :
    SQK L Om = SQR L Om := by
  have hpn : pnK L = pnR L := funext fun d => pn_eq L hL d
  unfold SQK SQR tileSQ
  rw [hpn]
  exact sum_tiles (fun i j => sqTerm L Om (pnR L) i j)

end Cert.Laws

end
-- ==== Proof.KI_Blocks.lean ====
/-
  The four input windows' blocks at a grid point, read as slices of the arrays.

  The grid is 4 x 4 and point t has coordinates (t / 4, t % 4).  An element of a window's block sits in the
  window's array, on each axis, at the block index times the block's size plus its own coordinate.  Window 0's
  block index at t is (t / 4, 0) and window 1's is (t % 4, 0), both with blocks of 512 x 32 of the same
  2048 x 32 array: row r of the block is node 512·(t / 4) + r (resp. 512·(t % 4) + r), all 32 columns.  Window 2's
  block index is (t / 4, t % 4) with blocks of 512 x 512: the tile of the target matrix pairing those two row blocks.
  Window 3's block is its whole 1 x 16 array.
-/
import proofs.«121037_j56049323213613_1_alg».proof.Proof.KI_Frame
import proofs.«121037_j56049323213613_1_alg».proof.Proof.Spec
import proofs.«121037_j56049323213613_1_alg».proof.Proof.Laws

set_option maxRecDepth 16384

noncomputable section

namespace Cert.KernelIdeal.Blocks

open Idealize.ShloMosaic Idealize.ShloMosaic.TcCoe
open Idealize.SL Idealize.SL.Sem
open Cert.KernelIdeal Cert.KernelIdeal.Gen Cert.KernelIdeal.Frm Cert.Spec

variable (V : (c : Dev nD) → (b : Ref sig .tc) → Buf (Elt Ideal) ((c : Thread nD τ).loc b))

/-- The row-block number of grid point t. -/
abbrev tI (t : Fin cfg0.N) : Fin 4 := ⟨t.val / 4, by have h : t.val < 16 := lt_of_lt_of_eq t.isLt (show cfg0.N = 16 from N_0); omega⟩
/-- The column-block number of grid point t. -/
abbrev tJ (t : Fin cfg0.N) : Fin 4 := ⟨t.val % 4, Nat.mod_lt _ (by decide)⟩

/-- The printed index maps, decided over the sixteen points. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4
    ∧ win0_3.index t (0 : Fin 2) = 0 ∧ win0_3.index t (1 : Fin 2) = 0 :=
  (by decide +kernel : ∀ t : Fin grid0.N, _)

/-- The coordinates of point t. -/
theorem coords0 (t : Fin cfg0.N) : (grid0.coords t 0).val = t.val / 4 :=
  (by decide +kernel : ∀ t : Fin grid0.N, (grid0.coords t 0).val = t.val / 4) t
theorem coords1 (t : Fin cfg0.N) : (grid0.coords t 1).val = t.val % 4 :=
  (by decide +kernel : ∀ t : Fin grid0.N, (grid0.coords t 1).val = t.val % 4) t

theorem blk0_lo (c : Dev nD) (t : Fin cfg0.N) :
    Spec.blo (iblk V c 0 t) = fun r d => Spec.lo (V c main_arg0) (Spec.row (tI t) r) d := by
  obtain ⟨e0, e1, -⟩ := idx_facts t
  funext r d
  unfold Spec.blo Spec.lo iblk
  show V c main_arg0 (((cfg0.win 0).blk t).view.emb _) = V c main_arg0 _
  congr 1
  funext a; apply Fin.ext
  match a with
  | ⟨0, _⟩ => show win0_0.index t (0 : Fin 2) * 512 + 1 * r.val = 512 * (t.val / 4) + r.val; omega
  | ⟨1, _⟩ => show win0_0.index t (1 : Fin 2) * 32 + 1 * d.val = d.val; omega

theorem blk0_hi (c : Dev nD) (t : Fin cfg0.N) :
    Spec.bhi (iblk V c 0 t) = fun r d => Spec.hi (V c main_arg0) (Spec.row (tI t) r) d := by
  obtain ⟨e0, e1, -⟩ := idx_facts t
  funext r d
  unfold Spec.bhi Spec.hi iblk
  show V c main_arg0 (((cfg0.win 0).blk t).view.emb _) = V c main_arg0 _
  congr 1
  funext a; apply Fin.ext
  match a with
  | ⟨0, _⟩ => show win0_0.index t (0 : Fin 2) * 512 + 1 * r.val = 512 * (t.val / 4) + r.val; omega
  | ⟨1, _⟩ => show win0_0.index t (1 : Fin 2) * 32 + 1 * (16 + d.val) = 16 + d.val; omega

theorem blk1_lo (c : Dev nD) (t : Fin cfg0.N) :
    Spec.blo (iblk V c 1 t) = fun r d => Spec.lo (V c main_arg0) (Spec.row (tJ t) r) d := by
  obtain ⟨-, -, e0, e1, -⟩ := idx_facts t
  funext r d
  unfold Spec.blo Spec.lo iblk
  show V c main_arg0 (((cfg0.win 1).blk t).view.emb _) = V c main_arg0 _
  congr 1
  funext a; apply Fin.ext
  match a with
  | ⟨0, _⟩ => show win0_1.index t (0 : Fin 2) * 512 + 1 * r.val = 512 * (t.val % 4) + r.val; omega
  | ⟨1, _⟩ => show win0_1.index t (1 : Fin 2) * 32 + 1 * d.val = d.val; omega

theorem blk1_hi (c : Dev nD) (t : Fin cfg0.N) :
    Spec.bhi (iblk V c 1 t) = fun r d => Spec.hi (V c main_arg0) (Spec.row (tJ t) r) d := by
  obtain ⟨-, -, e0, e1, -⟩ := idx_facts t
  funext r d
  unfold Spec.bhi Spec.hi iblk
  show V c main_arg0 (((cfg0.win 1).blk t).view.emb _) = V c main_arg0 _
  congr 1
  funext a; apply Fin.ext
  match a with
  | ⟨0, _⟩ => show win0_1.index t (0 : Fin 2) * 512 + 1 * r.val = 512 * (t.val % 4) + r.val; omega
  | ⟨1, _⟩ => show win0_1.index t (1 : Fin 2) * 32 + 1 * (16 + d.val) = 16 + d.val; omega

theorem blk2_mat (c : Dev nD) (t : Fin cfg0.N) :
    Spec.bmat (iblk V c 2 t)
      = fun r c' => Spec.mat (V c main_arg3) (Spec.row (tI t) r) (Spec.row (tJ t) c') := by
  obtain ⟨-, -, -, -, e0, e1, -⟩ := idx_facts t
  funext r c'
  unfold Spec.bmat Spec.mat iblk
  show V c main_arg3 (((cfg0.win 2).blk t).view.emb _) = V c main_arg3 _
  congr 1
  funext a; apply Fin.ext
  match a with
  | ⟨0, _⟩ => show win0_2.index t (0 : Fin 2) * 512 + 1 * r.val = 512 * (t.val / 4) + r.val; omega
  | ⟨1, _⟩ => show win0_2.index t (1 : Fin 2) * 512 + 1 * c'.val = 512 * (t.val % 4) + c'.val; omega

theorem blk3_vec (c : Dev nD) (t : Fin cfg0.N) :
    Spec.bvec (iblk V c 3 t) = fun d => (V c main_v30) (ValueIdx.ix2 (0 : Fin 1) d) := by
  obtain ⟨-, -, -, -, -, -, e0, e1⟩ := idx_facts t
  funext d
  unfold Spec.bvec iblk
  show V c main_v30 (((cfg0.win 3).blk t).view.emb _) = V c main_v30 _
  congr 1
  funext a; apply Fin.ext
  match a with
  | ⟨0, _⟩ => show win0_3.index t (0 : Fin 2) * 1 + 1 * (0 : Fin 1).val = (0 : Fin 1).val; omega
  | ⟨1, _⟩ => show win0_3.index t (1 : Fin 2) * 16 + 1 * d.val = d.val; omega

end Cert.KernelIdeal.Blocks

end
-- ==== Proof.KI_Accum.lean ====
/-
  The accumulation over the sixteen grid points in closed form.  The two one-element accumulators are zeroed at
  the first point and every point's run adds its tile's overlap mass, resp. its tile's squared distance, to what the
  point before left.  Point t pairs row block t / 4 with column block t % 4, so after the last point the accumulators
  hold the sums over all 4 x 4 tiles.  That each run's read-back is the pure body function of the point's blocks is
  taken as a hypothesis here (four statements, one per accumulator and kind of point).
-/
import proofs.«121037_j56049323213613_1_alg».proof.Proof.KI_Frame
import proofs.«121037_j56049323213613_1_alg».proof.Proof.KI_BodyOv
import proofs.«121037_j56049323213613_1_alg».proof.Proof.KI_BodySim2
import proofs.«121037_j56049323213613_1_alg».proof.Proof.KI_Blocks
import proofs.«121037_j56049323213613_1_alg».proof.Proof.Spec
import proofs.«121037_j56049323213613_1_alg».proof.Proof.Laws

set_option maxRecDepth 16384

noncomputable section

namespace Cert.KernelIdeal.Accum

open Idealize.ShloMosaic Idealize.ShloMosaic.TcCoe
open Idealize.SL Idealize.SL.Sem
open Cert.KernelIdeal Cert.KernelIdeal.Gen Cert.KernelIdeal.Frm Cert.KernelIdeal.Blocks Cert.Spec
open scoped BigOperators

variable (V : (c : Dev nD) → (b : Ref sig .tc) → Buf (Elt Ideal) ((c : Thread nD τ).loc b))

/-- The overlap mass of the tile grid point m pairs: row block m / 4, column block m % 4. -/
def ovN (c : Dev nD) (m : ℕ) : EReal :=
  Spec.tileOV (Spec.lo (V c main_arg0)) (Spec.hi (V c main_arg0)) ⟨m / 4 % 4, Nat.mod_lt _ (by decide)⟩ ⟨m % 4, Nat.mod_lt _ (by decide)⟩

/-- The squared distance of that tile. -/
def sqN (c : Dev nD) (m : ℕ) : EReal :=
  Spec.tileSQ (Spec.lo (V c main_arg0)) (Spec.mat (V c main_arg3)) (fun d : Fin 16 => (V c main_v30) (ValueIdx.ix2 (0 : Fin 1) d))
    ⟨m / 4 % 4, Nat.mod_lt _ (by decide)⟩ ⟨m % 4, Nat.mod_lt _ (by decide)⟩

/-- The last point is a point. -/
theorem lt15 : 15 < cfg0.N := lt_of_lt_of_eq (by decide : 15 < 16) (show cfg0.N = 16 from N_0).symm

theorem tI_eq (t : Fin cfg0.N) : (⟨t.val / 4 % 4, Nat.mod_lt _ (by decide)⟩ : Fin 4) = tI t := by
  have h : t.val < 16 := lt_of_lt_of_eq t.isLt (show cfg0.N = 16 from N_0)
  apply Fin.ext; show t.val / 4 % 4 = t.val / 4; omega

theorem ovN_eq (c : Dev nD) (t : Fin cfg0.N) :
    ovN V c t.val = Spec.tileOV (Spec.lo (V c main_arg0)) (Spec.hi (V c main_arg0)) (tI t) (tJ t) := by
  unfold ovN; rw [tI_eq]

theorem sqN_eq (c : Dev nD) (t : Fin cfg0.N) :
    sqN V c t.val = Spec.tileSQ (Spec.lo (V c main_arg0)) (Spec.mat (V c main_arg3)) (fun d : Fin 16 => (V c main_v30) (ValueIdx.ix2 (0 : Fin 1) d)) (tI t) (tJ t) := by
  unfold sqN; rw [tI_eq]

/-! ## One point's run, at the point's blocks -/

/-- The overlap accumulator after the body at point t, over contents d: d plus the point's tile's overlap mass. -/
theorem step6 (c : Dev nD) (t : Fin cfg0.N) (d : Vec Ideal S1x1 .f32) :
    Body.acc6 (F := Ideal) (grid0.coords t) (iblk V c 0 t) (iblk V c 1 t) d
      = fun _ => d (ValueIdx.ix2 (0 : Fin 1) (0 : Fin 1)) + ovN V c t.val := by
  refine (BodyVal.acc6_eq (grid0.coords t) (iblk V c 0 t) (iblk V c 1 t) d).trans ?_
  funext _
  rw [blk0_lo V c t, blk0_hi V c t, blk1_lo V c t, blk1_hi V c t, coords0 t, coords1 t, ovN_eq, Laws.tileOV_blk]

/-- The squared-distance accumulator likewise. -/
theorem step7 (c : Dev nD) (t : Fin cfg0.N) (d : Vec Ideal S1x1 .f32) :
    Body.acc7 (F := Ideal) (iblk V c 0 t) (iblk V c 1 t) (iblk V c 2 t) (iblk V c 3 t) d
      = fun _ => d (ValueIdx.ix2 (0 : Fin 1) (0 : Fin 1)) + sqN V c t.val := by
  refine (BodyVal.acc7_eq (iblk V c 0 t) (iblk V c 1 t) (iblk V c 2 t) (iblk V c 3 t) d).trans ?_
  funext _
  rw [blk0_lo V c t, blk1_lo V c t, blk2_mat V c t, blk3_vec V c t, sqN_eq, Laws.tileSQ_blk]

/-- The zero splat the first point's run starts from. -/
theorem pay1_zero (j : S1x1.Idx) : k0_pay1 (F := Ideal) j = 0 := Ideal.ofBits_zero_f32
theorem pay2_zero (j : S1x1.Idx) : k0_pay2 (F := Ideal) j = 0 := Ideal.ofBits_zero_f32

/-! ## The induction over the points -/

/-- After the body at position n the accumulators hold the sums over the points 0 … n. -/
theorem outs_at
    (hA6 : ∀ c i arg2 harg2 arg3 harg3 arg4 harg4 arg5 harg5 arg6 harg6 arg7 harg7 hc0 x2 x3 x4 x5,
      out_A_6 (F := Ideal) c i arg2 harg2 arg3 harg3 arg4 harg4 arg5 harg5 arg6 harg6 arg7 harg7 hc0 x2 x3 x4 x5 = Body.acc6 i x2 x3 (k0_pay1 (F := Ideal)))
    (hA7 : ∀ c i arg2 harg2 arg3 harg3 arg4 harg4 arg5 harg5 arg6 harg6 arg7 harg7 hc0 x2 x3 x4 x5,
      out_A_7 (F := Ideal) c i arg2 harg2 arg3 harg3 arg4 harg4 arg5 harg5 arg6 harg6 arg7 harg7 hc0 x2 x3 x4 x5 = Body.acc7 x2 x3 x4 x5 (k0_pay2 (F := Ideal)))
    (hB6 : ∀ c i arg2 harg2 arg3 harg3 arg4 harg4 arg5 harg5 arg6 harg6 arg7 harg7 hc0 x2 x3 x4 x5 xo6 xo7,
      out_B_6 (F := Ideal) c i arg2 harg2 arg3 harg3 arg4 harg4 arg5 harg5 arg6 harg6 arg7 harg7 hc0 x2 x3 x4 x5 xo6 xo7 = Body.acc6 i x2 x3 xo6)
    (hB7 : ∀ c i arg2 harg2 arg3 harg3 arg4 harg4 arg5 harg5 arg6 harg6 arg7 harg7 hc0 x2 x3 x4 x5 xo6 xo7,
      out_B_7 (F := Ideal) c i arg2 harg2 arg3 harg3 arg4 harg4 arg5 harg5 arg6 harg6 arg7 harg7 hc0 x2 x3 x4 x5 xo6 xo7 = Body.acc7 x2 x3 x4 x5 xo7)
    (c : Dev nD) : ∀ (n : ℕ) (hn : n < cfg0.N),
      (outsAt V c n hn).1 = (fun _ => ∑ m ∈ Finset.range (n + 1), ovN V c m)
    ∧ (outsAt V c n hn).2 = (fun _ => ∑ m ∈ Finset.range (n + 1), sqN V c m)
  | 0, hn => by
    rw [outsAt]
    dsimp only
    rw [hA6, hA7, step6 V c ⟨0, hn⟩, step7 V c ⟨0, hn⟩]
    constructor
    · funext _; rw [pay1_zero, zero_add, Finset.sum_range_one]
    · funext _; rw [pay2_zero, zero_add, Finset.sum_range_one]
  | n + 1, hn => by
    obtain ⟨ih1, ih2⟩ := outs_at hA6 hA7 hB6 hB7 c n (Nat.lt_of_succ_lt hn)
    rw [outsAt]
    dsimp only
    rw [hB6, hB7, step6 V c ⟨n + 1, hn⟩, step7 V c ⟨n + 1, hn⟩, ih1, ih2]
    constructor
    · funext _; rw [Finset.sum_range_succ _ (n + 1)]
    · funext _; rw [Finset.sum_range_succ _ (n + 1)]

/-! ## After the last point -/

/-- The sixteen points in order are the 4 x 4 tiles in row-major order. -/
theorem sum_points (f : Fin 4 → Fin 4 → EReal) :
    ∑ m ∈ Finset.range 16, f ⟨m / 4 % 4, Nat.mod_lt _ (by decide)⟩ ⟨m % 4, Nat.mod_lt _ (by decide)⟩ = ∑ I : Fin 4, ∑ J : Fin 4, f I J := by
  simp only [Finset.sum_range_succ, Finset.sum_range_zero, Fin.sum_univ_four, zero_add, add_assoc]
  rfl

theorem outs_last
    (hA6 : ∀ c i arg2 harg2 arg3 harg3 arg4 harg4 arg5 harg5 arg6 harg6 arg7 harg7 hc0 x2 x3 x4 x5,
      out_A_6 (F := Ideal) c i arg2 harg2 arg3 harg3 arg4 harg4 arg5 harg5 arg6 harg6 arg7 harg7 hc0 x2 x3 x4 x5 = Body.acc6 i x2 x3 (k0_pay1 (F := Ideal)))
    (hA7 : ∀ c i arg2 harg2 arg3 harg3 arg4 harg4 arg5 harg5 arg6 harg6 arg7 harg7 hc0 x2 x3 x4 x5,
      out_A_7 (F := Ideal) c i arg2 harg2 arg3 harg3 arg4 harg4 arg5 harg5 arg6 harg6 arg7 harg7 hc0 x2 x3 x4 x5 = Body.acc7 x2 x3 x4 x5 (k0_pay2 (F := Ideal)))
    (hB6 : ∀ c i arg2 harg2 arg3 harg3 arg4 harg4 arg5 harg5 arg6 harg6 arg7 harg7 hc0 x2 x3 x4 x5 xo6 xo7,
      out_B_6 (F := Ideal) c i arg2 harg2 arg3 harg3 arg4 harg4 arg5 harg5 arg6 harg6 arg7 harg7 hc0 x2 x3 x4 x5 xo6 xo7 = Body.acc6 i x2 x3 xo6)
    (hB7 : ∀ c i arg2 harg2 arg3 harg3 arg4 harg4 arg5 harg5 arg6 harg6 arg7 harg7 hc0 x2 x3 x4 x5 xo6 xo7,
      out_B_7 (F := Ideal) c i arg2 harg2 arg3 harg3 arg4 harg4 arg5 harg5 arg6 harg6 arg7 harg7 hc0 x2 x3 x4 x5 xo6 xo7 = Body.acc7 x2 x3 x4 x5 xo7)
    (c : Dev nD) :
      (outsAt V c 15 lt15).1 = (fun _ => Spec.OVK (Spec.lo (V c main_arg0)) (Spec.hi (V c main_arg0)))
    ∧ (outsAt V c 15 lt15).2
        = (fun _ => ∑ I : Fin 4, ∑ J : Fin 4, Spec.tileSQ (Spec.lo (V c main_arg0)) (Spec.mat (V c main_arg3))
            (fun d : Fin 16 => (V c main_v30) (ValueIdx.ix2 (0 : Fin 1) d)) I J) := by
  obtain ⟨h1, h2⟩ := outs_at V hA6 hA7 hB6 hB7 c 15 lt15
  rw [h1, h2]
  constructor
  · funext _
    unfold Spec.OVK
    exact sum_points (fun I J => Spec.tileOV (Spec.lo (V c main_arg0)) (Spec.hi (V c main_arg0)) I J)
  · funext _
    exact sum_points (fun I J => Spec.tileSQ (Spec.lo (V c main_arg0)) (Spec.mat (V c main_arg3))
      (fun d : Fin 16 => (V c main_v30) (ValueIdx.ix2 (0 : Fin 1) d)) I J)

end Cert.KernelIdeal.Accum

end
-- ==== Proof.KI_OutVal.lean ====
/-
  What each run's stores leave in the two accumulators, read back as the pure body functions: the last store into an
  accumulator covers it, its payload is the body's chain of arithmetic at the blocks the run loaded, and the value the
  body read back from the accumulator is zero at the first grid point (the zeroing store) and the running contents later.
-/
import proofs.«121037_j56049323213613_1_alg».proof.Proof.KI_Frame
import proofs.«121037_j56049323213613_1_alg».proof.Proof.KI_BodyFn
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz_S1x1 : (![0, 0] : Fin S1x1.rank → Nat) = fun _ => 0 := by
  funext a; match a with | ⟨0, _⟩ => rfl | ⟨1, _⟩ => rfl
theorem hz_S512x32 : (![0, 0] : Fin S512x32.rank → Nat) = fun _ => 0 := by
  funext a; match a with | ⟨0, _⟩ => rfl | ⟨1, _⟩ => rfl
theorem hz_S512x512 : (![0, 0] : Fin S512x512.rank → Nat) = fun _ => 0 := by
  funext a; match a with | ⟨0, _⟩ => rfl | ⟨1, _⟩ => rfl
theorem hz_S1x16 : (![0, 0] : Fin S1x16.rank → Nat) = fun _ => 0 := by
  funext a; match a with | ⟨0, _⟩ => rfl | ⟨1, _⟩ => rfl

theorem out_A_6_eq (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) :
    out_A_6 c i arg2 harg2 arg3 harg3 arg4 harg4 arg5 harg5 arg6 harg6 arg7 harg7 hc0 x2 x3 x4 x5 = Cert.KernelIdeal.Body.acc6 i x2 x3 (k0_pay1 (F := F)) := by
  unfold out_A_6
  rw [View.read_writes_eq_canon _ _ _ (cover_A_6 c i arg2 harg2 arg3 harg3 arg4 harg4 arg5 harg5 arg6 harg6 arg7 harg7 hc0 x2 x3 x4 x5)]
  unfold kernelRun_A
  dsimp only
  sl_unfold_words
  rw [View.canon_cons_unit_zero hz_S1x1]
  simp only [View.readAt_eq_ld, harg2.read_unread, harg3.read_unread, harg4.read_unread, harg5.read_unread,
    View.ld_unit_zero (S := S512x32) hz_S512x32, View.ld_unit_zero (S := S512x512) hz_S512x512,
    View.ld_unit_zero (S := S1x16) hz_S1x16, View.ld_unit_zero (S := S1x1) hz_S1x1, View.readCov_unit_zero (S := S1x1) _ hz_S1x1]
  rfl

theorem out_A_7_eq (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : cond0 i) (x2 x3 : Vec F S512x32 .f32) (x4 : Vec F S512x512 .f32) (x5 : Vec F S1x16 .f32) :
    out_A_7 c i arg2 harg2 arg3 harg3 arg4 harg4 arg5 harg5 arg6 harg6 arg7 harg7 hc0 x2 x3 x4 x5 = Cert.KernelIdeal.Body.acc7 x2 x3 x4 x5 (k0_pay2 (F := F)) := by
  unfold out_A_7
  rw [View.read_writes_eq_canon _ _ _ (cover_A_7 c i arg2 harg2 arg3 harg3 arg4 harg4 arg5 harg5 arg6 harg6 arg7 harg7 hc0 x2 x3 x4 x5)]
  unfold kernelRun_A
  dsimp only
  sl_unfold_words
  rw [View.canon_cons_unit_zero hz_S1x1]
  simp only [View.readAt_eq_ld, harg2.read_unread, harg3.read_unread, harg4.read_unread, harg5.read_unread,
    View.ld_unit_zero (S := S512x32) hz_S512x32, View.ld_unit_zero (S := S512x512) hz_S512x512,
    View.ld_unit_zero (S := S1x16) hz_S1x16, View.ld_unit_zero (S := S1x1) hz_S1x1, View.readCov_unit_zero (S := S1x1) _ hz_S1x1]
  rfl

theorem out_B_6_eq (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) :
    out_B_6 c i arg2 harg2 arg3 harg3 arg4 harg4 arg5 harg5 arg6 harg6 arg7 harg7 hc0 x2 x3 x4 x5 xo6 xo7 = Cert.KernelIdeal.Body.acc6 i x2 x3 xo6 := by
  unfold out_B_6
  rw [View.read_writes_eq_canon _ _ _ (cover_B_6 c i arg2 harg2 arg3 harg3 arg4 harg4 arg5 harg5 arg6 harg6 arg7 harg7 hc0 x2 x3 x4 x5 xo6 xo7)]
  unfold kernelRun_B
  dsimp only
  sl_unfold_words
  rw [View.canon_unit_zero hz_S1x1]
  simp only [View.readAt_eq_ld, harg2.read_unread, harg3.read_unread, harg4.read_unread, harg5.read_unread,
    harg6.read_unread, harg7.read_unread,
    View.ld_unit_zero (S := S512x32) hz_S512x32, View.ld_unit_zero (S := S512x512) hz_S512x512,
    View.ld_unit_zero (S := S1x16) hz_S1x16, View.ld_unit_zero (S := S1x1) hz_S1x1]
  rfl

theorem out_B_7_eq (c : Dev nD) (i : grid0.Coords)
    (arg2 : Memref sig .tc .vmem S512x32 .f32) (harg2 : arg2.IsWhole) (arg3 : Memref sig .tc .vmem S512x32 .f32) (harg3 : arg3.IsWhole)
    (arg4 : Memref sig .tc .vmem S512x512 .f32) (harg4 : arg4.IsWhole) (arg5 : Memref sig .tc .vmem S1x16 .f32) (harg5 : arg5.IsWhole)
    (arg6 : Memref sig .tc .vmem S1x1 .f32) (harg6 : arg6.IsWhole) (arg7 : Memref sig .tc .vmem S1x1 .f32) (harg7 : arg7.IsWhole) (hc0 : ¬cond0 i) (x2 x3 : Vec F S512x32 .f32) (x4 : Vec F S512x512 .f32) (x5 : Vec F S1x16 .f32) (xo6 xo7 : Vec F S1x1 .f32) :
    out_B_7 c i arg2 harg2 arg3 harg3 arg4 harg4 arg5 harg5 arg6 harg6 arg7 harg7 hc0 x2 x3 x4 x5 xo6 xo7 = Cert.KernelIdeal.Body.acc7 x2 x3 x4 x5 xo7 := by
  unfold out_B_7
  rw [View.read_writes_eq_canon _ _ _ (cover_B_7 c i arg2 harg2 arg3 harg3 arg4 harg4 arg5 harg5 arg6 harg6 arg7 harg7 hc0 x2 x3 x4 x5 xo6 xo7)]
  unfold kernelRun_B
  dsimp only
  sl_unfold_words
  rw [View.canon_unit_zero hz_S1x1]
  simp only [View.readAt_eq_ld, harg2.read_unread, harg3.read_unread, harg4.read_unread, harg5.read_unread,
    harg6.read_unread, harg7.read_unread,
    View.ld_unit_zero (S := S512x32) hz_S512x32, View.ld_unit_zero (S := S512x512) hz_S512x512,
    View.ld_unit_zero (S := S1x16) hz_S1x16, View.ld_unit_zero (S := S1x1) hz_S1x1]
  rfl

end Cert.KernelIdeal.Frm

end
-- ==== Proof.LibIdxSum.lean ====
/-
  A sum over the index set of a rank-1 or rank-3 array is the iterated sum over its coordinates.

  An index of a shape is a function from the axes to the coordinates; for literal extents it is the tuple of its
  coordinates, so summing over all indices is summing over the coordinates one axis after the other (outermost axis
  first). The rank-2 case is the library's `sum_idx2`; these are the rank-1 and rank-3 cases, in any commutative
  additive monoid.
-/
import Idealize.ShloMosaic.Lib.ValueIdx

open Idealize.ShloMosaic Idealize.ShloMosaic.ValueIdx

namespace LibIdxSum

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end LibIdxSum
-- ==== Proof.RefFormsOv.lean ====
/-
  The reference's overlap scalar, read back as the overlap sum of the specification.

  The reference slices the lower ends L and the upper ends H out of the [2048, 32] array, lays both out over
  (dimension d, node i, node j), and forms min(H i d, H j d) − max(L i d, L j d); it multiplies by the mask
  1 − [i = j] (the row number compared with the column number, converted to a float), cuts at zero, divides by the
  clipped length max(H i d − L i d, 1e-10) of interval i, and adds everything up from zero.  Each array is read here
  at an index (d, i, j) given by its coordinates; the total over the rank-3 index set is then the triple sum over
  d, i and j, which is the overlap sum as the specification writes it.
-/
import proofs.«121037_j56049323213613_1_alg».proof.Proof.Gen.ReferenceIdeal.Read
import proofs.«121037_j56049323213613_1_alg».proof.Proof.Spec
import proofs.«121037_j56049323213613_1_alg».proof.Proof.LibIdxSum
import proofs.«121037_j56049323213613_1_alg».proof.Proof.LibFiniteReal

noncomputable section

namespace Cert.ReferenceIdeal.RefValue

open Cert.ReferenceIdeal Cert.ReferenceIdeal.Gen Cert.ReferenceIdeal.Read Idealize.ShloMosaic Idealize.ShloMosaic.ValueIdx

/-! ## Words -/

/-- The row/column comparison converted to a float: 1 on the diagonal, 0 off it. -/
theorem mask_word (i j : Fin 2048) :
    (FloatOps.uitofp (F := Ideal) .f32 (IntOp.cmpi .eq (IntOp.addi (BitVec.ofNat 32 i.val) 0#32) (BitVec.ofNat 32 j.val)) : EReal)
      = if i = j then 1 else 0 := by
  show (((BitVec.ofBool ((BitVec.ofNat 32 i.val + 0#32) == BitVec.ofNat 32 j.val)).toNat : ℝ) : EReal) = _
  rw [BitVec.add_zero]
  by_cases h : i = j
  · subst h; simp
  · have hne : (BitVec.ofNat 32 i.val == BitVec.ofNat 32 j.val) = false := by
      rw [beq_eq_false_iff_ne]
      intro hh
      apply h
      apply Fin.ext
      have h2 := congrArg BitVec.toNat hh
      simp only [BitVec.toNat_ofNat] at h2
      have := i.isLt
      have := j.isLt
      omega
    rw [hne, if_neg h]; simp

/-- One minus that is the off-diagonal mask. -/
theorem one_sub_mask (i j : Fin 2048) :
    (Ideal.ofBits .f32 0x3F800000#32 : EReal) - (if i = j then (1 : EReal) else 0) = Cert.Spec.offd i j := by
  rw [Cert.LibFiniteReal.ofBits_f32_3F800000]
  unfold Cert.Spec.offd
  by_cases h : i = j
  · rw [if_pos h, if_pos h]
    have : ((1 : ℝ) : EReal) - ((1 : ℝ) : EReal) = 0 := by rw [← EReal.coe_sub]; simp
    simpa using this
  · rw [if_neg h, if_neg h, sub_zero]

/-! ## The lower and upper ends, at a node and a dimension -/

section
variable (A0 : (⟨S2048x32, .f32⟩ : BufTy).Contents (Elt Ideal))

theorem v0_at (i : Fin 2048) (d : Fin 16) : val_main_v0 (F := Ideal) A0 (ix2 i d) = Cert.Spec.lo A0 i d := by
  rw [val_main_v0_apply]
  unfold Cert.Spec.lo
  exact congrArg A0 (funext fun a => Fin.ext (by match a with | ⟨0, _⟩ => rfl | ⟨1, _⟩ => rfl))

theorem v1_at (i : Fin 2048) (d : Fin 16) : val_main_v1 (F := Ideal) A0 (ix2 i d) = Cert.Spec.hi A0 i d := by
  rw [val_main_v1_apply]
  unfold Cert.Spec.hi
  exact congrArg A0 (funext fun a => Fin.ext (by match a with | ⟨0, _⟩ => rfl | ⟨1, _⟩ => rfl))

theorem v18_at (d : Fin 16) (i : Fin 2048) : val_main_v18 (F := Ideal) A0 (ix2 d i) = Cert.Spec.lo A0 i d := by
  rw [val_main_v18_apply]
  exact (congrArg (val_main_v0 (F := Ideal) A0)
    (funext fun a => Fin.ext (by match a with | ⟨0, _⟩ => rfl | ⟨1, _⟩ => rfl))).trans (v0_at A0 i d)

theorem v19_at (d : Fin 16) (i : Fin 2048) : val_main_v19 (F := Ideal) A0 (ix2 d i) = Cert.Spec.hi A0 i d := by
  rw [val_main_v19_apply]
  exact (congrArg (val_main_v1 (F := Ideal) A0)
    (funext fun a => Fin.ext (by match a with | ⟨0, _⟩ => rfl | ⟨1, _⟩ => rfl))).trans (v1_at A0 i d)

/-! ## The [16, 2048, 2048] arrays at (d, i, j) -/

theorem v22_at (d : Fin 16) (i j : Fin 2048) : val_main_v22 (F := Ideal) A0 (ix3 d i j) = Cert.Spec.lo A0 i d := by
  rw [val_main_v22_apply, val_main_v20_apply]
  exact (congrArg (val_main_v18 (F := Ideal) A0)
    (funext fun a => Fin.ext (by match a with | ⟨0, _⟩ => rfl | ⟨1, _⟩ => rfl))).trans (v18_at A0 d i)

theorem v23_at (d : Fin 16) (i j : Fin 2048) : val_main_v23 (F := Ideal) A0 (ix3 d i j) = Cert.Spec.lo A0 j d := by
  rw [val_main_v23_apply, val_main_v21_apply]
  exact (congrArg (val_main_v18 (F := Ideal) A0)
    (funext fun a => Fin.ext (by match a with | ⟨0, _⟩ => rfl | ⟨1, _⟩ => rfl))).trans (v18_at A0 d j)

theorem v27_at (d : Fin 16) (i j : Fin 2048) : val_main_v27 (F := Ideal) A0 (ix3 d i j) = Cert.Spec.hi A0 i d := by
  rw [val_main_v27_apply, val_main_v25_apply]
  exact (congrArg (val_main_v19 (F := Ideal) A0)
    (funext fun a => Fin.ext (by match a with | ⟨0, _⟩ => rfl | ⟨1, _⟩ => rfl))).trans (v19_at A0 d i)

theorem v28_at (d : Fin 16) (i j : Fin 2048) : val_main_v28 (F := Ideal) A0 (ix3 d i j) = Cert.Spec.hi A0 j d := by
  rw [val_main_v28_apply, val_main_v26_apply]
  exact (congrArg (val_main_v19 (F := Ideal) A0)
    (funext fun a => Fin.ext (by match a with | ⟨0, _⟩ => rfl | ⟨1, _⟩ => rfl))).trans (v19_at A0 d j)

/-- The signed overlap. -/
theorem v30_at (d : Fin 16) (i j : Fin 2048) :
    val_main_v30 (F := Ideal) A0 (ix3 d i j) = Cert.Spec.ovl (Cert.Spec.lo A0) (Cert.Spec.hi A0) d i j := by
  rw [val_main_v30_apply, val_main_v29_apply, val_main_v24_apply, v27_at, v28_at, v22_at, v23_at]
  rfl

/-- The mask: 0 on the diagonal, 1 off it. -/
theorem v40_at (d : Fin 16) (i j : Fin 2048) : val_main_v40 (F := Ideal) (ix3 d i j) = Cert.Spec.offd i j := by
  rw [val_main_v40_apply, val_main_v39_apply, val_main_v38_apply, val_main_v37_apply, val_main_cst_3_apply,
    val_main_v36_apply, val_main_v35_apply, val_main_v34_apply, val_main_v31_apply, val_main_v33_apply,
    val_main_c_apply, val_main_v32_apply]
  show (Ideal.ofBits .f32 0x3F800000#32 : EReal)
      - FloatOps.uitofp (F := Ideal) .f32 (IntOp.cmpi .eq (IntOp.addi (BitVec.ofNat 32 i.val) 0#32) (BitVec.ofNat 32 j.val)) = _
  rw [mask_word]
  exact one_sub_mask i j

/-- The masked overlap, cut at zero. -/
theorem v42_at (d : Fin 16) (i j : Fin 2048) :
    val_main_v42 (F := Ideal) A0 (ix3 d i j)
      = max (Cert.Spec.ovl (Cert.Spec.lo A0) (Cert.Spec.hi A0) d i j * Cert.Spec.offd i j) 0 := by
  rw [val_main_v42_apply, val_main_v41_apply, val_main_call2_v0_apply, val_main_call2_cst_apply, v30_at, v40_at]
  show max _ (Ideal.ofBits .f32 0x00000000#32) = _
  rw [Ideal.ofBits_zero_f32]
  rfl

theorem v2_at (i : Fin 2048) (d : Fin 16) :
    val_main_v2 (F := Ideal) A0 (ix2 i d) = Cert.Spec.hi A0 i d - Cert.Spec.lo A0 i d := by
  rw [val_main_v2_apply, v1_at, v0_at]
  rfl

/-- The clipped length of interval i in dimension d. -/
theorem v47_at (d : Fin 16) (i j : Fin 2048) :
    val_main_v47 (F := Ideal) A0 (ix3 d i j) = Cert.Spec.gap (Cert.Spec.lo A0) (Cert.Spec.hi A0) i d := by
  rw [val_main_v47_apply, val_main_v46_apply, val_main_v45_apply, val_main_v43_apply, val_main_v44_apply,
    val_main_cst_4_apply]
  have h : val_main_v2 (F := Ideal) A0 (idx_main_v43 (idx_main_v46 (idx_main_v47 (ix3 d i j))))
      = Cert.Spec.hi A0 i d - Cert.Spec.lo A0 i d :=
    (congrArg (val_main_v2 (F := Ideal) A0)
      (funext fun a => Fin.ext (by match a with | ⟨0, _⟩ => rfl | ⟨1, _⟩ => rfl))).trans (v2_at A0 i d)
  rw [h]
  rfl

/-- One term of the overlap sum. -/
theorem v48_at (d : Fin 16) (i j : Fin 2048) :
    val_main_v48 (F := Ideal) A0 (ix3 d i j) = Cert.Spec.ovTermR (Cert.Spec.lo A0) (Cert.Spec.hi A0) d i j := by
  rw [val_main_v48_apply, v42_at, v47_at]
  rfl

/-- The reference's overlap scalar is the overlap sum over every dimension and every ordered pair. -/
theorem ref_overlap :
    val_main_v49 (F := Ideal) A0 = fun _ => Cert.Spec.OVR (Cert.Spec.lo A0) (Cert.Spec.hi A0) := by
  funext s
  rw [val_main_v49_apply, val_main_cst_5_apply]
  show (Ideal.ofBits .f32 0x00000000#32 : EReal) + _ = _
  rw [Ideal.ofBits_zero_f32, zero_add]
  unfold Cert.Spec.OVR
  refine (LibIdxSum.sum_idx3 (fun q => val_main_v48 (F := Ideal) A0 q)).trans ?_
  refine Finset.sum_congr rfl fun d _ => Finset.sum_congr rfl fun i _ => Finset.sum_congr rfl fun j _ => ?_
  exact v48_at A0 d i j

end

end Cert.ReferenceIdeal.RefValue

end
-- ==== Proof.RefFormsSim.lean ====
/-
  The reference's similarity scalar, read back as the specification's summed squared differences.

  From the lower ends L laid out over (dimension d, node i, node j) the reference forms the distance
  |L i d − L j d|, squares it and adds over both nodes: the squared Frobenius norm of dimension d's distance matrix.
  Its square root, clipped below at 1e-10, divides the distances; adding the sixteen quotients gives the summed scaled
  distance of the pair (i, j), which is subtracted from the target matrix; the differences are squared, added over
  every pair from zero, and the square root is taken.

  The sum over the two node axes keeps the dimension: the indices that drop to dimension d are exactly the
  (d, i, j), so that sum is the double sum over i and j.  The other sums are over one axis, or over every index of a
  rank-2 array, and are read as sums over coordinates.
-/
import proofs.«121037_j56049323213613_1_alg».proof.Proof.Gen.ReferenceIdeal.Read
import proofs.«121037_j56049323213613_1_alg».proof.Proof.Spec
import proofs.«121037_j56049323213613_1_alg».proof.Proof.LibIdxSum
import proofs.«121037_j56049323213613_1_alg».proof.Proof.LibFiniteReal
import proofs.«121037_j56049323213613_1_alg».proof.Proof.RefFormsOv

noncomputable section

namespace Cert.ReferenceIdeal.RefValue

open Cert.ReferenceIdeal Cert.ReferenceIdeal.Gen Cert.ReferenceIdeal.Read Idealize.ShloMosaic Idealize.ShloMosaic.ValueIdx

/-! ## A sum over the two node axes of a [16, 2048, 2048] array, kept per dimension -/

/-- Dropping the two node coordinates of (a, i, j) leaves the dimension a. -/
theorem drop_d12 (a : Fin 16) (i j : Fin 2048) :
    reducesTo_S16x2048x2048_S16_d1_2.drop (ix3 a i j) = ix1 a := by
  funext b
  apply Fin.ext
  match b with
  | ⟨0, _⟩ => rfl

/-- The host's sum over axes 1 and 2, read at dimension d: the initial value plus the double sum over the nodes. -/
theorem reduce_d12_at (y : S16x2048x2048.Idx → EReal) (init : EReal) (d : Fin 16) :
    Ideal.hostReduceAdd reducesTo_S16x2048x2048_S16_d1_2 y init (ix1 d)
      = init + ∑ i : Fin 2048, ∑ j : Fin 2048, y (ix3 d i j) := by
  unfold Ideal.hostReduceAdd
  refine congrArg (init + ·) ?_
  rw [Finset.sum_filter]
  refine (LibIdxSum.sum_idx3 _).trans ?_
  rw [Finset.sum_eq_single d]
  · refine Finset.sum_congr rfl fun i _ => Finset.sum_congr rfl fun j _ => ?_
    rw [if_pos (drop_d12 d i j)]
  · intro a _ hne
    refine Finset.sum_eq_zero fun i _ => Finset.sum_eq_zero fun j _ => ?_
    rw [if_neg]
    rw [drop_d12]
    intro h
    exact hne (congrFun h 0)
  · intro h
    exact absurd (Finset.mem_univ d) h

section
variable (A0 : (⟨S2048x32, .f32⟩ : BufTy).Contents (Elt Ideal))
  (A3 : (⟨S2048x2048, .f32⟩ : BufTy).Contents (Elt Ideal))

theorem v52_at (d : Fin 16) (i j : Fin 2048) : val_main_v52 (F := Ideal) A0 (ix3 d i j) = Cert.Spec.lo A0 i d := by
  rw [val_main_v52_apply, val_main_v50_apply]
  exact (congrArg (val_main_v18 (F := Ideal) A0)
    (funext fun a => Fin.ext (by match a with | ⟨0, _⟩ => rfl | ⟨1, _⟩ => rfl))).trans (v18_at A0 d i)

theorem v53_at (d : Fin 16) (i j : Fin 2048) : val_main_v53 (F := Ideal) A0 (ix3 d i j) = Cert.Spec.lo A0 j d := by
  rw [val_main_v53_apply, val_main_v51_apply]
  exact (congrArg (val_main_v18 (F := Ideal) A0)
    (funext fun a => Fin.ext (by match a with | ⟨0, _⟩ => rfl | ⟨1, _⟩ => rfl))).trans (v18_at A0 d j)

/-- The distance |L i d − L j d|. -/
theorem v55_at (d : Fin 16) (i j : Fin 2048) :
    val_main_v55 (F := Ideal) A0 (ix3 d i j) = Cert.Spec.dist (Cert.Spec.lo A0) d i j := by
  rw [val_main_v55_apply, val_main_v54_apply, v52_at, v53_at]
  rfl

theorem v56_at (d : Fin 16) (i j : Fin 2048) :
    val_main_v56 (F := Ideal) A0 (ix3 d i j)
      = Cert.Spec.dist (Cert.Spec.lo A0) d i j * Cert.Spec.dist (Cert.Spec.lo A0) d i j := by
  rw [val_main_v56_apply, v55_at]
  rfl

/-- The squared Frobenius norm of dimension d's distance matrix. -/
theorem v57_at (d : Fin 16) :
    val_main_v57 (F := Ideal) A0 (ix1 d)
      = ∑ i : Fin 2048, ∑ j : Fin 2048,
          Cert.Spec.dist (Cert.Spec.lo A0) d i j * Cert.Spec.dist (Cert.Spec.lo A0) d i j := by
  unfold val_main_v57
  simp only [Host.reduceAdd, Ideal.hostReduceAdd_def]
  rw [reduce_d12_at, val_main_cst_6_apply]
  show (Ideal.ofBits .f32 0x00000000#32 : EReal) + _ = _
  rw [Ideal.ofBits_zero_f32, zero_add]
  refine Finset.sum_congr rfl fun i _ => Finset.sum_congr rfl fun j _ => ?_
  exact v56_at A0 d i j

/-- The clipped per-dimension norm. -/
theorem v60_at (d : Fin 16) :
    val_main_v60 (F := Ideal) A0 (ix1 d) = max (Cert.Spec.pnR (Cert.Spec.lo A0) d) Cert.Spec.eps := by
  rw [val_main_v60_apply, val_main_v58_apply, v57_at, val_main_v59_apply, val_main_cst_7_apply]
  rfl

theorem v62_at (d : Fin 16) (i j : Fin 2048) :
    val_main_v62 (F := Ideal) A0 (ix3 d i j) = max (Cert.Spec.pnR (Cert.Spec.lo A0) d) Cert.Spec.eps := by
  rw [val_main_v62_apply, val_main_v61_apply]
  exact (congrArg (val_main_v60 (F := Ideal) A0)
    (funext fun a => Fin.ext (by match a with | ⟨0, _⟩ => rfl))).trans (v60_at A0 d)

/-- One dimension's scaled distance. -/
theorem v63_at (d : Fin 16) (i j : Fin 2048) :
    val_main_v63 (F := Ideal) A0 (ix3 d i j)
      = Ideal.div (Cert.Spec.dist (Cert.Spec.lo A0) d i j) (max (Cert.Spec.pnR (Cert.Spec.lo A0) d) Cert.Spec.eps) := by
  rw [val_main_v63_apply, v55_at, v62_at]
  rfl

/-- The summed scaled distances of nodes i and j. -/
theorem v64_at (i j : Fin 2048) :
    val_main_v64 (F := Ideal) A0 (ix2 i j)
      = Cert.Spec.embSim (Cert.Spec.lo A0) (Cert.Spec.pnR (Cert.Spec.lo A0)) i j := by
  rw [val_main_v64_apply, val_main_cst_8_apply]
  show (Ideal.ofBits .f32 0x00000000#32 : EReal) + _ = _
  rw [Ideal.ofBits_zero_f32, zero_add]
  unfold Cert.Spec.embSim
  refine Finset.sum_congr rfl fun k _ => ?_
  exact (congrArg (val_main_v63 (F := Ideal) A0)
    (funext fun a => Fin.ext (by match a with | ⟨0, _⟩ => rfl | ⟨1, _⟩ => rfl | ⟨2, _⟩ => rfl))).trans (v63_at A0 k i j)

/-- One squared difference. -/
theorem call3_v0_at (i j : Fin 2048) :
    val_main_call3_v0 (F := Ideal) A0 A3 (ix2 i j)
      = Cert.Spec.sqTerm (Cert.Spec.lo A0) (Cert.Spec.mat A3) (Cert.Spec.pnR (Cert.Spec.lo A0)) i j := by
  rw [val_main_call3_v0_apply, val_main_v65_apply, v64_at]
  rfl

/-- The reference's similarity scalar is the square root of the summed squared differences. -/
theorem ref_sim :
    val_main_v66 (F := Ideal) A0 A3
      = fun _ => Ideal.sqrt (Cert.Spec.SQR (Cert.Spec.lo A0) (Cert.Spec.mat A3)) := by
  funext s
  rw [val_main_v66_apply, val_main_call3_v1_apply, val_main_call3_cst_apply]
  show Ideal.sqrt ((Ideal.ofBits .f32 0x00000000#32 : EReal) + _) = _
  rw [Ideal.ofBits_zero_f32, zero_add]
  refine congrArg Ideal.sqrt ?_
  unfold Cert.Spec.SQR
  refine (sum_idx2 (fun q => val_main_call3_v0 (F := Ideal) A0 A3 q)).trans ?_
  refine Finset.sum_congr rfl fun i _ => Finset.sum_congr rfl fun j _ => ?_
  exact call3_v0_at A0 A3 i j

end

end Cert.ReferenceIdeal.RefValue

end
-- ==== Proof.RefForms.lean ====
/-
  The reference's two pairwise scalars read back as the specification's sums: the overlap sum and the square root of
  the summed squared differences.  The two readings are in the two modules imported here.
-/
import proofs.«121037_j56049323213613_1_alg».proof.Proof.RefFormsOv
import proofs.«121037_j56049323213613_1_alg».proof.Proof.RefFormsSim
-- ==== Proof.KI_Value.lean ====
/-
  The kernel program's result is the reference's, assembled from the pieces: the host operations after the region
  return the weighted total of five scalars, three of which are the reference's own stages; the other two are read
  from the region's two one-element outputs, which hold the overlap sum and the squared distance in their tiled forms;
  on finite inputs the tiled forms are the one-pass forms, which are what the reference's remaining two stages compute.
-/
import proofs.«121037_j56049323213613_1_alg».proof.Proof.KI_Main
import proofs.«121037_j56049323213613_1_alg».proof.Proof.KI_HostPre
import proofs.«121037_j56049323213613_1_alg».proof.Proof.KI_HostTail
import proofs.«121037_j56049323213613_1_alg».proof.Proof.KI_ArrAt
import proofs.«121037_j56049323213613_1_alg».proof.Proof.KI_Accum
import proofs.«121037_j56049323213613_1_alg».proof.Proof.KI_OutVal
import proofs.«121037_j56049323213613_1_alg».proof.Proof.RefForms
import proofs.«121037_j56049323213613_1_alg».proof.Proof.Laws
import proofs.«121037_j56049323213613_1_alg».proof.Proof.Spec
import proofs.«121037_j56049323213613_1_alg».proof.Proof.LibFiniteReal
import proofs.«121037_j56049323213613_1_alg».proof.Proof.Gen.ReferenceIdeal.Read

noncomputable section

namespace Cert.KernelIdeal.ValueEq

open Idealize.ShloMosaic Idealize.ShloMosaic.TcCoe Idealize.SL.Sem Cert.KernelIdeal Cert.KernelIdeal.Gen
open Idealize.ShloMosaic.ValueIdx
open Cert.ReferenceIdeal.Read
open scoped BigOperators

variable (m : (ℓ : Loc nD τ sig) → Buf (Elt Ideal) ℓ) (ρ : Dev nD → PrngReg) (c : Dev nD)

/-- The program's result is the reference's, given what the region leaves in its two accumulators and the two
    readings of the weighted total. -/
theorem kernel_value_of
    (hreal : ∀ i, Cert.LibFiniteReal.IsReal ((m ((c.tc : Thread nD τ).loc main_arg0)) i))
    (h4 : (Frm.dat0 (Fold.V5 m ρ) c).arrAt 4 cfg0.N
        = fun _ => Cert.Spec.OVK (Cert.Spec.lo (Fold.V5 m ρ c main_arg0)) (Cert.Spec.hi (Fold.V5 m ρ c main_arg0)))
    (h5 : (Frm.dat0 (Fold.V5 m ρ) c).arrAt 5 cfg0.N
        = fun _ => ∑ I : Fin 4, ∑ J : Fin 4, Cert.Spec.tileSQ (Cert.Spec.lo (Fold.V5 m ρ c main_arg0)) (Cert.Spec.mat (Fold.V5 m ρ c main_arg3))
            (fun d => (Fold.V5 m ρ c main_v30) (ix2 (0 : Fin 1) d)) I J)
    (hW9 : Fold.W9 m ρ (Frm.Aouts m ρ) c (Proc.devRef .tc main_v61)
        = fun _ => Cert.Spec.total (Ideal.sqrt ((Fold.W6 m ρ (Frm.Aouts m ρ) c (Proc.devRef .tc main_v31_1)) (ix2 (0 : Fin 1) (0 : Fin 1))))
            (val_main_v79 (F := Ideal) (m ((c.tc : Thread nD τ).loc main_arg0)) (m ((c.tc : Thread nD τ).loc main_arg1)) (m ((c.tc : Thread nD τ).loc main_arg2)) (m ((c.tc : Thread nD τ).loc main_arg4)) ix0)
            (val_main_v17 (F := Ideal) (m ((c.tc : Thread nD τ).loc main_arg0)) (m ((c.tc : Thread nD τ).loc main_arg1)) (m ((c.tc : Thread nD τ).loc main_arg2)) ix0)
            ((Fold.W6 m ρ (Frm.Aouts m ρ) c (Proc.devRef .tc main_v31_0)) (ix2 (0 : Fin 1) (0 : Fin 1)))
            (val_main_v84 (F := Ideal) (m ((c.tc : Thread nD τ).loc main_arg0)) ix0))
    (href : val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        = fun _ => Cert.Spec.total (val_main_v66 (F := Ideal) (m ((c.tc : Thread nD τ).loc main_arg0)) (m ((c.tc : Thread nD τ).loc main_arg3)) ix0)
            (val_main_v79 (F := Ideal) (m ((c.tc : Thread nD τ).loc main_arg0)) (m ((c.tc : Thread nD τ).loc main_arg1)) (m ((c.tc : Thread nD τ).loc main_arg2)) (m ((c.tc : Thread nD τ).loc main_arg4)) ix0)
            (val_main_v17 (F := Ideal) (m ((c.tc : Thread nD τ).loc main_arg0)) (m ((c.tc : Thread nD τ).loc main_arg1)) (m ((c.tc : Thread nD τ).loc main_arg2)) ix0)
            (val_main_v49 (F := Ideal) (m ((c.tc : Thread nD τ).loc main_arg0)) ix0)
            (val_main_v84 (F := Ideal) (m ((c.tc : Thread nD τ).loc main_arg0)) ix0)) :
    Fold.W9 m ρ (Frm.Aouts m ρ) c (Proc.devRef .tc main_v61)
      = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hL : ∀ i d, Cert.LibFiniteReal.IsReal (Cert.Spec.lo (m ((c.tc : Thread nD τ).loc main_arg0)) i d) := fun i d => hreal _
  have hH : ∀ i d, Cert.LibFiniteReal.IsReal (Cert.Spec.hi (m ((c.tc : Thread nD τ).loc main_arg0)) i d) := fun i d => hreal _
  have e0 : Fold.V5 m ρ c main_arg0 = m ((c.tc : Thread nD τ).loc main_arg0) := HostVal.W5_arg0 m ρ c
  have e3 : Fold.V5 m ρ c main_arg3 = m ((c.tc : Thread nD τ).loc main_arg3) := HostVal.W5_arg3 m ρ c
  have epn : (fun d => (Fold.V5 m ρ c main_v30) (ix2 (0 : Fin 1) d)) = Cert.Spec.pnK (Cert.Spec.lo (m ((c.tc : Thread nD τ).loc main_arg0))) :=
    funext fun d => HostVal.W5_v30_apply m ρ c d
  -- the overlap accumulator, as the region leaves it
  have a4 : Fold.W6 m ρ (Frm.Aouts m ρ) c (Proc.devRef .tc main_v31_0)
      = fun _ => Cert.Spec.OVR (Cert.Spec.lo (m ((c.tc : Thread nD τ).loc main_arg0))) (Cert.Spec.hi (m ((c.tc : Thread nD τ).loc main_arg0))) := by
    refine (show _ = Frm.Aouts m ρ c 4 from Frm.W6_arr m ρ c 4).trans ?_
    refine (show Frm.Aouts m ρ c 4 = _ from h4).trans ?_
    rw [e0, Cert.Laws.ov_eq _ _ hL hH]
  -- the squared-distance accumulator
  have a5 : Fold.W6 m ρ (Frm.Aouts m ρ) c (Proc.devRef .tc main_v31_1)
      = fun _ => Cert.Spec.SQR (Cert.Spec.lo (m ((c.tc : Thread nD τ).loc main_arg0))) (Cert.Spec.mat (m ((c.tc : Thread nD τ).loc main_arg3))) := by
    refine (show _ = Frm.Aouts m ρ c 5 from Frm.W6_arr m ρ c 5).trans ?_
    refine (show Frm.Aouts m ρ c 5 = _ from h5).trans ?_
    rw [e0, e3, epn]
    exact congrArg (fun (x : EReal) => fun _ => x) (Cert.Laws.sq_eq _ _ hL)
  rw [hW9, href, a4, a5, Cert.ReferenceIdeal.RefValue.ref_overlap, Cert.ReferenceIdeal.RefValue.ref_sim]
  rfl

/-- The program's result is the reference's, given that each point's write-back reads back the body's stored values. -/
theorem kernel_value
    (hA6 : ∀ c i arg2 harg2 arg3 harg3 arg4 harg4 arg5 harg5 arg6 harg6 arg7 harg7 hc0 x2 x3 x4 x5,
      Frm.out_A_6 (F := Ideal) c i arg2 harg2 arg3 harg3 arg4 harg4 arg5 harg5 arg6 harg6 arg7 harg7 hc0 x2 x3 x4 x5 = Body.acc6 i x2 x3 (k0_pay1 (F := Ideal)))
    (hA7 : ∀ c i arg2 harg2 arg3 harg3 arg4 harg4 arg5 harg5 arg6 harg6 arg7 harg7 hc0 x2 x3 x4 x5,
      Frm.out_A_7 (F := Ideal) c i arg2 harg2 arg3 harg3 arg4 harg4 arg5 harg5 arg6 harg6 arg7 harg7 hc0 x2 x3 x4 x5 = Body.acc7 x2 x3 x4 x5 (k0_pay2 (F := Ideal)))
    (hB6 : ∀ c i arg2 harg2 arg3 harg3 arg4 harg4 arg5 harg5 arg6 harg6 arg7 harg7 hc0 x2 x3 x4 x5 xo6 xo7,
      Frm.out_B_6 (F := Ideal) c i arg2 harg2 arg3 harg3 arg4 harg4 arg5 harg5 arg6 harg6 arg7 harg7 hc0 x2 x3 x4 x5 xo6 xo7 = Body.acc6 i x2 x3 xo6)
    (hB7 : ∀ c i arg2 harg2 arg3 harg3 arg4 harg4 arg5 harg5 arg6 harg6 arg7 harg7 hc0 x2 x3 x4 x5 xo6 xo7,
      Frm.out_B_7 (F := Ideal) c i arg2 harg2 arg3 harg3 arg4 harg4 arg5 harg5 arg6 harg6 arg7 harg7 hc0 x2 x3 x4 x5 xo6 xo7 = Body.acc7 x2 x3 x4 x5 xo7)
    (m : (ℓ : Loc nD τ sig) → Buf (Elt Ideal) ℓ) (ρ : Dev nD → PrngReg) (c : Dev nD)
    (hreal : ∀ i, Cert.LibFiniteReal.IsReal ((m ((c.tc : Thread nD τ).loc main_arg0)) i)) :
    Fold.W9 m ρ (Frm.Aouts m ρ) c (Proc.devRef .tc main_v61) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  kernel_value_of m ρ c hreal
    ((ArrAt.arrAt_4 (Fold.V5 m ρ) c).trans (Accum.outs_last (Fold.V5 m ρ) hA6 hA7 hB6 hB7 c).1)
    ((ArrAt.arrAt_5 (Fold.V5 m ρ) c).trans (Accum.outs_last (Fold.V5 m ρ) hA6 hA7 hB6 hB7 c).2)
    (HostVal.W9_v61 m ρ c (Frm.Aouts m ρ))
    (HostVal.ref_v93 _ _ _ _ _)

/-- The same with the four read-back facts supplied. -/
theorem kernel_value_closed
    (m : (ℓ : Loc nD τ sig) → Buf (Elt Ideal) ℓ) (ρ : Dev nD → PrngReg) (c : Dev nD)
    (hreal : ∀ i, Cert.LibFiniteReal.IsReal ((m ((c.tc : Thread nD τ).loc main_arg0)) i)) :
    Fold.W9 m ρ (Frm.Aouts m ρ) c (Proc.devRef .tc main_v61) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  kernel_value (Frm.out_A_6_eq (F := Ideal)) (Frm.out_A_7_eq (F := Ideal)) (Frm.out_B_6_eq (F := Ideal)) (Frm.out_B_7_eq (F := Ideal)) m ρ c hreal

end Cert.KernelIdeal.ValueEq

end
-- ==== Proof.LibFiniteInputs.lean ====
/-
  Finite inputs, read out of a printed precondition.

  A precondition "every entry of `x` is finite" is written `jnp.all(jnp.abs(x) < inf)` and prints, per array, as a reduction by
  `and` from the constant 1 of the elementwise test `|x| < +∞` (the bound broadcast from a scalar constant), the per-array results
  joined by `and`. On the extended reals, where there is no NaN, the test at an entry says that neither `x` nor `-x` is `+∞`:
  the entry is a real number. `all_real`: from one array's reduction being 1, every entry of that array is a real, for any shape,
  any reduced axes and any broadcast of the bound. The joined results are split by `IntOp.andi_eq_one`.
-/
import Idealize.ShloMosaic.PureOps
import Idealize.ShloMosaic.PureOps.Ideal
import Idealize.ShloMosaic.PureOps.Ideal.Laws
import Idealize.ShloMosaic.Lib.ReduceAll

noncomputable section

namespace FiniteInputs

open Idealize.ShloMosaic

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 word of `+∞` denotes the top of the extended reals. -/
theorem ofBits_inf : Ideal.ofBits .f32 0x7F800000#32 = (⊤ : EReal) := by
  simp [Ideal.ofBits, Ideal.ieee]

/-- One entry's test: `|x| < +∞` answered 1 makes `x` a real number. -/
theorem real_of_test (x : EReal) (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- THE ARRAY FORM. If the printed `jnp.all(jnp.abs(x) < inf)` of an array is 1 — the reduction by `and` (over any axes, into a
    result of one index, from any initial value) of the elementwise comparison of `|x|` with the broadcast word of `+∞` —, then
    every entry of `x` is a real number. -/
theorem all_real {S T U Z : Shape} [Subsingleton T.Idx] {axes : List (Fin S.rank)} {dims : Fin Z.rank → Fin S.rank}
    (x : FVec Ideal S .f32) (hb : Z.BroadcastsInDim S dims) (init : U.Idx → BitVec 1) (hred : S.ReducesTo axes T)
    (hu : 0 < U.numel) (j : T.Idx)
    (h : Host.reduce IntOp.andi (cmpf .olt (Host.absf x) (broadcastInDim S dims hb (constant (F := Ideal) Z .f32 0x7F800000#32)))
        init hred hu j = 1#1)
    (i : S.Idx) : ∃ r : ℝ, x i = (r : EReal) := by
  have e := Host.reduce_andi_all _ init hred hu j h i
  exact real_of_test (x i) e

end FiniteInputs

end
-- ==== Proof.FiniteA0.lean ====
/-
  The first input is finite.

  The printed precondition is the conjunction of five tests, one per input array, each "every entry has
  absolute value below +∞".  Its value 1 makes each of the five tests 1; the first test, read entry by
  entry on the extended reals, says that every entry of the first array is a real number.
-/
import proofs.«121037_j56049323213613_1_alg».proof.Pre_finite_inputs
import proofs.«121037_j56049323213613_1_alg».proof.Proof.Gen.Pre_finite_inputs
import proofs.«121037_j56049323213613_1_alg».proof.Proof.LibFiniteInputs
import proofs.«121037_j56049323213613_1_alg».proof.Proof.LibFiniteReal
import Idealize.ShloMosaic.Lib.ValueIdx

noncomputable section

namespace Cert.FiniteA0

open Idealize.ShloMosaic
open Cert.Pre_finite_inputs

/-- The shape of a scalar has exactly one index. -/
instance : Subsingleton S_.Idx := ⟨fun a b => funext fun d => d.elim0⟩

theorem A0_real [Cert.Pre_finite_inputs.Facts] (A0 : FVec Ideal S2048x32 .f32) (A1 A2 : FVec Ideal S16 .f32)
    (A3 : FVec Ideal S2048x2048 .f32) (A4 : FVec Ideal S2048x1 .f32)
    (h : Cert.Pre_finite_inputs.fn (F := Ideal) A0 A1 A2 A3 A4 = fun _ => 1#1) :
    ∀ i, Cert.LibFiniteReal.IsReal (A0 i) := by
  intro i
  have h0 := congrFun h ValueIdx.ix0
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  exact FiniteInputs.all_real A0 Facts.bcast_S_S2048x32 _ Facts.reducesTo_S2048x32_S_d0_1 Facts.h_S_ ValueIdx.ix0 h4 i

end Cert.FiniteA0

end
-- ==== Proof.lean ====
/-
  Both programs compute one loss over 2048 nodes, each an interval [L, H] in each of sixteen dimensions: a similarity
  term (the Frobenius distance between a target matrix and the summed per-dimension distances |L_i − L_j|, each
  dimension scaled by the norm of its own distance matrix), three terms over the nodes alone (computed by the same
  operations in both programs), and an overlap term over all ordered pairs of different nodes.  The reference forms
  the pairwise quantities over [16, 2048, 2048] arrays in one pass; the kernel sweeps the 4 x 4 tiles of 512 x 512 pairs,
  adding each tile's two partial sums into two one-element accumulators that are zeroed at the first tile, and takes the
  per-dimension norm in closed form, sqrt(max(4096·ΣL² − (2·ΣL)·ΣL, 0)).

  On the extended reals the two agree when the node array is finite: the closed form is the pairwise sum
  Σ_i Σ_j (L_i − L_j)² (an identity of real numbers), cutting an overlap at zero commutes with the 0/1 mask that removes
  the diagonal, and a sum over all pairs is the sum over the tiles of the sums within the tiles.

  Each kernel program's run is its host operations before the region, the region, and the host operations after it, over the
  contents of every buffer of the TensorCore; the region's two windows on the node array each hold half a share of it.
-/
import proofs.«121037_j56049323213613_1_alg».proof.Defs
import proofs.«121037_j56049323213613_1_alg».proof.Proof.Gen.Kernel
import proofs.«121037_j56049323213613_1_alg».proof.Proof.Gen.KernelIdeal
import proofs.«121037_j56049323213613_1_alg».proof.Proof.Gen.ReferenceIdeal
import proofs.«121037_j56049323213613_1_alg».proof.Proof.Gen.ReferenceIdeal.Run
import proofs.«121037_j56049323213613_1_alg».proof.Proof.Gen.ReferenceIdeal.Read
import proofs.«121037_j56049323213613_1_alg».proof.Proof.Gen.Pre_finite_inputs
import proofs.«121037_j56049323213613_1_alg».proof.Proof.K_Main
import proofs.«121037_j56049323213613_1_alg».proof.Proof.KI_Main
import proofs.«121037_j56049323213613_1_alg».proof.Proof.KI_Value
import proofs.«121037_j56049323213613_1_alg».proof.Proof.FiniteA0
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel program as printed runs to the end and leaves its arguments as launched. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, the node array finite, both programs end with the loss as the reference's
    operations compose it. -/
theorem algebraic : Cert.algebraic_KernelIdeal_ReferenceIdeal := by
  intro m ρ m' ρ' hpre hagree
  refine ⟨fun c => Cert.ReferenceIdeal.Read.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Frm.run_named (F := Ideal) m ρ)
    exact Cert.KernelIdeal.ValueEq.kernel_value_closed m ρ c (Cert.FiniteA0.A0_real _ _ _ _ _ (hpre c))
  · refine (θ_run Cert.ReferenceIdeal.defs _ _).mono (fun _ h c => ⟨?_, (h c).2⟩) (Cert.ReferenceIdeal.Value.run (F := Ideal) m' ρ')
    rw [(h c).1, Cert.ReferenceIdeal.Read.val_main_v93_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
